-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800x64 : Shape := ⟨2, ![800, 64]⟩
abbrev S800x800x64 : Shape := ⟨3, ![800, 800, 64]⟩
abbrev S800x14x14 : Shape := ⟨3, ![800, 14, 14]⟩
abbrev S319600x14x14 : Shape := ⟨3, ![319600, 14, 14]⟩
abbrev S128x128 : Shape := ⟨2, ![128, 128]⟩
abbrev S128 : Shape := ⟨1, ![128]⟩
abbrev S128x196 : Shape := ⟨2, ![128, 196]⟩
abbrev S196 : Shape := ⟨1, ![196]⟩
abbrev S192x128 : Shape := ⟨2, ![192, 128]⟩
abbrev S319600 : Shape := ⟨1, ![319600]⟩
abbrev S_ : Shape := ⟨0, ![]⟩

class Facts : Prop where
  bcast_S_S800x64 : S_.BroadcastsInDim S800x64 (![] : Fin 0 → Fin S800x64.rank)
  reducesTo_S800x64_S_d0_1 : S800x64.ReducesTo [0, 1] S_
  h_S_ : 0 < S_.numel
  bcast_S_S800x800x64 : S_.BroadcastsInDim S800x800x64 (![] : Fin 0 → Fin S800x800x64.rank)
  reducesTo_S800x800x64_S_d0_1_2 : S800x800x64.ReducesTo [0, 1, 2] S_
  bcast_S_S800x14x14 : S_.BroadcastsInDim S800x14x14 (![] : Fin 0 → Fin S800x14x14.rank)
  reducesTo_S800x14x14_S_d0_1_2 : S800x14x14.ReducesTo [0, 1, 2] S_
  bcast_S_S319600x14x14 : S_.BroadcastsInDim S319600x14x14 (![] : Fin 0 → Fin S319600x14x14.rank)
  reducesTo_S319600x14x14_S_d0_1_2 : S319600x14x14.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x196 : S_.BroadcastsInDim S128x196 (![] : Fin 0 → Fin S128x196.rank)
  reducesTo_S128x196_S_d0_1 : S128x196.ReducesTo [0, 1] S_
  bcast_S_S196 : S_.BroadcastsInDim S196 (![] : Fin 0 → Fin S196.rank)
  reducesTo_S196_S_d0 : S196.ReducesTo [0] S_
  bcast_S_S192x128 : S_.BroadcastsInDim S192x128 (![] : Fin 0 → Fin S192x128.rank)
  reducesTo_S192x128_S_d0_1 : S192x128.ReducesTo [0, 1] S_

variable [Facts]

def fn_part3 {F : FTy → Type} [FloatOps F] (main_arg11 : FVec F S196 .f32) (main_v48 : IVec S_ 1) (main_v49 : FVec F S128x196 .f32) (main_v50 : FVec F S128x196 .f32) : IVec S_ 1 :=
  let main_v51 : IVec S128x196 1 := cmpf .olt main_v49 main_v50
  let main_c_19 : IVec S_ 1 := constantI S_ 1 1#1
  let main_v52 : IVec S_ 1 := (fun x v => Host.reduce IntOp.andi x v reducesTo_S128x196_S_d0_1 h_S_) main_v51 main_c_19
  let main_v53 : IVec S_ 1 := andi main_v48 main_v52
  let main_v54 : FVec F S196 .f32 := Host.absf main_arg11
  let main_cst_20 : FVec F S_ .f32 := constant S_ .f32 0x7F800000#32
  let main_v55 : FVec F S196 .f32 := broadcastInDim S196 ![] bcast_S_S196 main_cst_20
  let main_v56 : IVec S196 1 := cmpf .olt main_v54 main_v55
  let main_c_21 : IVec S_ 1 := constantI S_ 1 1#1
  let main_v57 : IVec S_ 1 := (fun x v => Host.reduce IntOp.andi x v reducesTo_S196_S_d0 h_S_) main_v56 main_c_21
  let main_v58 : IVec S_ 1 := andi main_v53 main_v57
  main_v58

def fn_part2 {F : FTy → Type} [FloatOps F] (main_arg7 : FVec F S196 .f32) (main_arg8 : FVec F S192x128 .f32) (main_arg9 : FVec F S128 .f32) (main_arg10 : FVec F S128x196 .f32) (main_arg11 : FVec F S196 .f32) (main_v33 : IVec S_ 1) : IVec S_ 1 :=
  let main_v34 : FVec F S196 .f32 := Host.absf main_arg7
  let main_cst_12 : FVec F S_ .f32 := constant S_ .f32 0x7F800000#32
  let main_v35 : FVec F S196 .f32 := broadcastInDim S196 ![] bcast_S_S196 main_cst_12
  let main_v36 : IVec S196 1 := cmpf .olt main_v34 main_v35
  let main_c_13 : IVec S_ 1 := constantI S_ 1 1#1
  let main_v37 : IVec S_ 1 := (fun x v => Host.reduce IntOp.andi x v reducesTo_S196_S_d0 h_S_) main_v36 main_c_13
  let main_v38 : IVec S_ 1 := andi main_v33 main_v37
  let main_v39 : FVec F S192x128 .f32 := Host.absf main_arg8
  let main_cst_14 : FVec F S_ .f32 := constant S_ .f32 0x7F800000#32
  let main_v40 : FVec F S192x128 .f32 := broadcastInDim S192x128 ![] bcast_S_S192x128 main_cst_14
  let main_v41 : IVec S192x128 1 := cmpf .olt main_v39 main_v40
  let main_c_15 : IVec S_ 1 := constantI S_ 1 1#1
  let main_v42 : IVec S_ 1 := (fun x v => Host.reduce IntOp.andi x v reducesTo_S192x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x196 .f32 := Host.absf main_arg10
  let main_cst_18 : FVec F S_ .f32 := constant S_ .f32 0x7F800000#32
  let main_v50 : FVec F S128x196 .f32 := broadcastInDim S128x196 ![] bcast_S_S128x196 main_cst_18
  fn_part3 (F := F) main_arg11 main_v48 main_v49 main_v50

def fn_part1 {F : FTy → Type} [FloatOps F] (main_arg4 : FVec F S128x128 .f32) (main_arg5 : FVec F S128 .f32) (main_arg6 : FVec F S128x196 .f32) (main_arg7 : FVec F S196 .f32) (main_arg8 : FVec F S192x128 .f32) (main_arg9 : FVec F S128 .f32) (main_arg10 : FVec F S128x196 .f32) (main_arg11 : FVec F S196 .f32) (main_v13 : IVec S_ 1) (main_v16 : IVec S319600x14x14 1) : IVec S_ 1 :=
  let main_c_5 : IVec S_ 1 := constantI S_ 1 1#1
  let main_v17 : IVec S_ 1 := (fun x v => Host.reduce IntOp.andi x v reducesTo_S319600x14x14_S_d0_1_2 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x196 .f32 := Host.absf main_arg6
  let main_cst_10 : FVec F S_ .f32 := constant S_ .f32 0x7F800000#32
  let main_v30 : FVec F S128x196 .f32 := broadcastInDim S128x196 ![] bcast_S_S128x196 main_cst_10
  let main_v31 : IVec S128x196 1 := cmpf .olt main_v29 main_v30
  let main_c_11 : IVec S_ 1 := constantI S_ 1 1#1
  let main_v32 : IVec S_ 1 := (fun x v => Host.reduce IntOp.andi x v reducesTo_S128x196_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S800x64 .f32) (main_arg1 : FVec F S800x800x64 .f32) (main_arg2 : FVec F S800x14x14 .f32) (main_arg3 : FVec F S319600x14x14 .f32) (main_arg4 : FVec F S128x128 .f32) (main_arg5 : FVec F S128 .f32) (main_arg6 : FVec F S128x196 .f32) (main_arg7 : FVec F S196 .f32) (main_arg8 : FVec F S192x128 .f32) (main_arg9 : FVec F S128 .f32) (main_arg10 : FVec F S128x196 .f32) (main_arg11 : FVec F S196 .f32) (main_arg12 : IVec S319600 32) (main_arg13 : IVec S319600 32) : IVec S_ 1 :=
  let main_v0 : FVec F S800x64 .f32 := Host.absf main_arg0
  let main_cst : FVec F S_ .f32 := constant S_ .f32 0x7F800000#32
  let main_v1 : FVec F S800x64 .f32 := broadcastInDim S800x64 ![] bcast_S_S800x64 main_cst
  let main_v2 : IVec S800x64 1 := cmpf .olt main_v0 main_v1
  let main_c : IVec S_ 1 := constantI S_ 1 1#1
  let main_v3 : IVec S_ 1 := (fun x v => Host.reduce IntOp.andi x v reducesTo_S800x64_S_d0_1 h_S_) main_v2 main_c
  let main_v4 : FVec F S800x800x64 .f32 := Host.absf main_arg1
  let main_cst_0 : FVec F S_ .f32 := constant S_ .f32 0x7F800000#32
  let main_v5 : FVec F S800x800x64 .f32 := broadcastInDim S800x800x64 ![] bcast_S_S800x800x64 main_cst_0
  let main_v6 : IVec S800x800x64 1 := cmpf .olt main_v4 main_v5
  let main_c_1 : IVec S_ 1 := constantI S_ 1 1#1
  let main_v7 : IVec S_ 1 := (fun x v => Host.reduce IntOp.andi x v reducesTo_S800x800x64_S_d0_1_2 h_S_) main_v6 main_c_1
  let main_v8 : IVec S_ 1 := andi main_v3 main_v7
  let main_v9 : FVec F S800x14x14 .f32 := Host.absf main_arg2
  let main_cst_2 : FVec F S_ .f32 := constant S_ .f32 0x7F800000#32
  let main_v10 : FVec F S800x14x14 .f32 := broadcastInDim S800x14x14 ![] bcast_S_S800x14x14 main_cst_2
  let main_v11 : IVec S800x14x14 1 := cmpf .olt main_v9 main_v10
  let main_c_3 : IVec S_ 1 := constantI S_ 1 1#1
  let main_v12 : IVec S_ 1 := (fun x v => Host.reduce IntOp.andi x v reducesTo_S800x14x14_S_d0_1_2 h_S_) main_v11 main_c_3
  let main_v13 : IVec S_ 1 := andi main_v8 main_v12
  let main_v14 : FVec F S319600x14x14 .f32 := Host.absf main_arg3
  let main_cst_4 : FVec F S_ .f32 := constant S_ .f32 0x7F800000#32
  let main_v15 : FVec F S319600x14x14 .f32 := broadcastInDim S319600x14x14 ![] bcast_S_S319600x14x14 main_cst_4
  let main_v16 : IVec S319600x14x14 1 := cmpf .olt main_v14 main_v15
  fn_part1 (F := F) main_arg4 main_arg5 main_arg6 main_arg7 main_arg8 main_arg9 main_arg10 main_arg11 main_v13 main_v16
-- ==== Kernel.lean ====
abbrev S800x64 : Shape := ⟨2, ![800, 64]⟩
abbrev S800x800x64 : Shape := ⟨3, ![800, 800, 64]⟩
abbrev S800x14x14 : Shape := ⟨3, ![800, 14, 14]⟩
abbrev S319600x14x14 : Shape := ⟨3, ![319600, 14, 14]⟩
abbrev S128x128 : Shape := ⟨2, ![128, 128]⟩
abbrev S128 : Shape := ⟨1, ![128]⟩
abbrev S128x196 : Shape := ⟨2, ![128, 196]⟩
abbrev S196 : Shape := ⟨1, ![196]⟩
abbrev S192x128 : Shape := ⟨2, ![192, 128]⟩
abbrev S319600 : Shape := ⟨1, ![319600]⟩
abbrev S800 : Shape := ⟨1, ![800]⟩
abbrev S_ : Shape := ⟨0, ![]⟩
abbrev S800x1 : Shape := ⟨2, ![800, 1]⟩
abbrev S800x2 : Shape := ⟨2, ![800, 2]⟩
abbrev S64x128 : Shape := ⟨2, ![64, 128]⟩
abbrev S1x128 : Shape := ⟨2, ![1, 128]⟩
abbrev S1x196 : Shape := ⟨2, ![1, 196]⟩
abbrev S800x196 : Shape := ⟨2, ![800, 196]⟩
abbrev S800x128 : Shape := ⟨2, ![800, 128]⟩
abbrev S319600x1 : Shape := ⟨2, ![319600, 1]⟩
abbrev S319600x64 : Shape := ⟨2, ![319600, 64]⟩
abbrev S319600x2 : Shape := ⟨2, ![319600, 2]⟩
abbrev S319600x196 : Shape := ⟨2, ![319600, 196]⟩
abbrev S323584x64 : Shape := ⟨2, ![323584, 64]⟩
abbrev S323584x196 : Shape := ⟨2, ![323584, 196]⟩
abbrev S4096x64 : Shape := ⟨2, ![4096, 64]⟩
abbrev S4096x196 : Shape := ⟨2, ![4096, 196]⟩
abbrev S4096x128 : Shape := ⟨2, ![4096, 128]⟩
abbrev S800x14x800x14 : Shape := ⟨4, ![800, 14, 800, 14]⟩
abbrev S11200x11200 : Shape := ⟨2, ![11200, 11200]⟩

abbrev nBuf : Space → Nat
  | .hbm => 155
  | .vmem => 25
  | .smem => 0
  | _ => 0

abbrev hbmTy0_0 (i : Nat) : BufTy := match i % 128 with
  | 0 => ⟨S800x64, .f32⟩
  | 1 => ⟨S800x800x64, .f32⟩
  | 2 => ⟨S800x14x14, .f32⟩
  | 3 => ⟨S319600x14x14, .f32⟩
  | 4 => ⟨S128x128, .f32⟩
  | 5 => ⟨S128, .f32⟩
  | 6 => ⟨S128x196, .f32⟩
  | 7 => ⟨S196, .f32⟩
  | 8 => ⟨S192x128, .f32⟩
  | 9 => ⟨S128, .f32⟩
  | 10 => ⟨S128x196, .f32⟩
  | 11 => ⟨S196, .f32⟩
  | 12 => ⟨S319600, .i32⟩
  | 13 => ⟨S319600, .i32⟩
  | 14 => ⟨S800, .i32⟩
  | 15 => ⟨S_, .i32⟩
  | 16 => ⟨S800, .i32⟩
  | 17 => ⟨S800, .i1⟩
  | 18 => ⟨S_, .i32⟩
  | 19 => ⟨S800, .i32⟩
  | 20 => ⟨S800, .i32⟩
  | 21 => ⟨S800, .i32⟩
  | 22 => ⟨S_, .i32⟩
  | 23 => ⟨S800, .i32⟩
  | 24 => ⟨S800, .i1⟩
  | 25 => ⟨S_, .i32⟩
  | 26 => ⟨S800, .i32⟩
  | 27 => ⟨S800, .i32⟩
  | 28 => ⟨S800, .i32⟩
  | 29 => ⟨S800x1, .i32⟩
  | 30 => ⟨S800x1, .i32⟩
  | 31 => ⟨S800x2, .i32⟩
  | 32 => ⟨S800x64, .f32⟩
  | 33 => ⟨S64x128, .f32⟩
  | 34 => ⟨S64x128, .f32⟩
  | 35 => ⟨S1x128, .f32⟩
  | 36 => ⟨S1x196, .f32⟩
  | 37 => ⟨S800x196, .f32⟩
  | 38 => ⟨S800x196, .f32⟩
  | 39 => ⟨S800x14x14, .f32⟩
  | 40 => ⟨S_, .i32⟩
  | 41 => ⟨S319600, .i32⟩
  | 42 => ⟨S319600, .i1⟩
  | 43 => ⟨S_, .i32⟩
  | 44 => ⟨S319600, .i32⟩
  | 45 => ⟨S319600, .i32⟩
  | 46 => ⟨S319600, .i32⟩
  | 47 => ⟨S319600x1, .i32⟩
  | 48 => ⟨S319600x64, .f32⟩
  | 49 => ⟨S_, .i32⟩
  | 50 => ⟨S319600, .i32⟩
  | 51 => ⟨S319600, .i1⟩
  | 52 => ⟨S_, .i32⟩
  | 53 => ⟨S319600, .i32⟩
  | 54 => ⟨S319600, .i32⟩
  | 55 => ⟨S319600, .i32⟩
  | 56 => ⟨S319600x1, .i32⟩
  | 57 => ⟨S319600x64, .f32⟩
  | 58 => ⟨S_, .i32⟩
  | 59 => ⟨S319600, .i32⟩
  | 60 => ⟨S319600, .i1⟩
  | 61 => ⟨S_, .i32⟩
  | 62 => ⟨S319600, .i32⟩
  | 63 => ⟨S319600, .i32⟩
  | 64 => ⟨S319600, .i32⟩
  | 65 => ⟨S_, .i32⟩
  | 66 => ⟨S319600, .i32⟩
  | 67 => ⟨S319600, .i1⟩
  | 68 => ⟨S_, .i32⟩
  | 69 => ⟨S319600, .i32⟩
  | 70 => ⟨S319600, .i32⟩
  | 71 => ⟨S319600, .i32⟩
  | 72 => ⟨S319600x1, .i32⟩
  | 73 => ⟨S319600x1, .i32⟩
  | 74 => ⟨S319600x2, .i32⟩
  | 75 => ⟨S319600x64, .f32⟩
  | 76 => ⟨S319600x196, .f32⟩
  | 77 => ⟨S_, .i32⟩
  | 78 => ⟨S_, .f32⟩
  | 79 => ⟨S323584x64, .f32⟩
  | 80 => ⟨S_, .i32⟩
  | 81 => ⟨S_, .f32⟩
  | 82 => ⟨S323584x64, .f32⟩
  | 83 => ⟨S_, .i32⟩
  | 84 => ⟨S_, .f32⟩
  | 85 => ⟨S323584x64, .f32⟩
  | 86 => ⟨S_, .i32⟩
  | 87 => ⟨S_, .f32⟩
  | 88 => ⟨S323584x196, .f32⟩
  | 89 => ⟨S64x128, .f32⟩
  | 90 => ⟨S64x128, .f32⟩
  | 91 => ⟨S64x128, .f32⟩
  | 92 => ⟨S1x128, .f32⟩
  | 93 => ⟨S1x196, .f32⟩
  | 94 => ⟨S323584x196, .f32⟩
  | 95 => ⟨S319600x196, .f32⟩
  | 96 => ⟨S319600x14x14, .f32⟩
  | 97 => ⟨S_, .f32⟩
  | 98 => ⟨S800x14x800x14, .f32⟩
  | 99 => ⟨S_, .i32⟩
  | 100 => ⟨S800, .i32⟩
  | 101 => ⟨S800, .i1⟩
  | 102 => ⟨S_, .i32⟩
  | 103 => ⟨S800, .i32⟩
  | 104 => ⟨S800, .i32⟩
  | 105 => ⟨S800, .i32⟩
  | 106 => ⟨S_, .i32⟩
  | 107 => ⟨S800, .i32⟩
  | 108 => ⟨S800, .i1⟩
  | 109 => ⟨S_, .i32⟩
  | 110 => ⟨S800, .i32⟩
  | 111 => ⟨S800, .i32⟩
  | 112 => ⟨S800, .i32⟩
  | 113 => ⟨S800x1, .i32⟩
  | 114 => ⟨S800x1, .i32⟩
  | 115 => ⟨S800x2, .i32⟩
  | 116 => ⟨S800x14x800x14, .f32⟩
  | 117 => ⟨S_, .i32⟩
  | 118 => ⟨S319600, .i32⟩
  | 119 => ⟨S319600, .i1⟩
  | 120 => ⟨S_, .i32⟩
  | 121 => ⟨S319600, .i32⟩
  | 122 => ⟨S319600, .i32⟩
  | 123 => ⟨S319600, .i32⟩
  | 124 => ⟨S_, .i32⟩
  | 125 => ⟨S319600, .i32⟩
  | 126 => ⟨S319600, .i1⟩
  | 127 => ⟨S_, .i32⟩
  | _ => ⟨S800x64, .f32⟩

abbrev hbmTy0_1 (i : Nat) : BufTy := match i % 128 with
  | 0 => ⟨S319600, .i32⟩
  | 1 => ⟨S319600, .i32⟩
  | 2 => ⟨S319600, .i32⟩
  | 3 => ⟨S319600x1, .i32⟩
  | 4 => ⟨S319600x1, .i32⟩
  | 5 => ⟨S319600x2, .i32⟩
  | 6 => ⟨S800x14x800x14, .f32⟩
  | 7 => ⟨S319600x14x14, .f32⟩
  | 8 => ⟨S_, .i32⟩
  | 9 => ⟨S319600, .i32⟩
  | 10 => ⟨S319600, .i1⟩
  | 11 => ⟨S_, .i32⟩
  | 12 => ⟨S319600, .i32⟩
  | 13 => ⟨S319600, .i32⟩
  | 14 => ⟨S319600, .i32⟩
  | 15 => ⟨S_, .i32⟩
  | 16 => ⟨S319600, .i32⟩
  | 17 => ⟨S319600, .i1⟩
  | 18 => ⟨S_, .i32⟩
  | 19 => ⟨S319600, .i32⟩
  | 20 => ⟨S319600, .i32⟩
  | 21 => ⟨S319600, .i32⟩
  | 22 => ⟨S319600x1, .i32⟩
  | 23 => ⟨S319600x1, .i32⟩
  | 24 => ⟨S319600x2, .i32⟩
  | 25 => ⟨S800x14x800x14, .f32⟩
  | 26 => ⟨S11200x11200, .f32⟩
  | _ => ⟨S800x64, .f32⟩

abbrev hbmTy (i : Nat) : BufTy := match i / 128 with
  | 0 => hbmTy0_0 i
  | 1 => hbmTy0_1 i
  | _ => ⟨S800x64, .f32⟩

abbrev bufTy : (tb : Table) → Fin (tcTables nBuf tb) → BufTy
  | .hbm, ⟨i, _⟩ => hbmTy i
  | .local _ .vmem, ⟨0, _⟩ => ⟨S800x64, .f32⟩
  | .local _ .vmem, ⟨1, _⟩ => ⟨S800x64, .f32⟩
  | .local _ .vmem, ⟨2, _⟩ => ⟨S64x128, .f32⟩
  | .local _ .vmem, ⟨3, _⟩ => ⟨S64x128, .f32⟩
  | .local _ .vmem, ⟨4, _⟩ => ⟨S1x128, .f32⟩
  | .local _ .vmem, ⟨5, _⟩ => ⟨S128x196, .f32⟩
  | .local _ .vmem, ⟨6, _⟩ => ⟨S1x196, .f32⟩
  | .local _ .vmem, ⟨7, _⟩ => ⟨S800x196, .f32⟩
  | .local _ .vmem, ⟨8, _⟩ => ⟨S800x196, .f32⟩
  | .local _ .vmem, ⟨9, _⟩ => ⟨S4096x64, .f32⟩
  | .local _ .vmem, ⟨10, _⟩ => ⟨S4096x64, .f32⟩
  | .local _ .vmem, ⟨11, _⟩ => ⟨S4096x64, .f32⟩
  | .local _ .vmem, ⟨12, _⟩ => ⟨S4096x64, .f32⟩
  | .local _ .vmem, ⟨13, _⟩ => ⟨S4096x64, .f32⟩
  | .local _ .vmem, ⟨14, _⟩ => ⟨S4096x64, .f32⟩
  | .local _ .vmem, ⟨15, _⟩ => ⟨S64x128, .f32⟩
  | .local _ .vmem, ⟨16, _⟩ => ⟨S64x128, .f32⟩
  | .local _ .vmem, ⟨17, _⟩ => ⟨S64x128, .f32⟩
  | .local _ .vmem, ⟨18, _⟩ => ⟨S1x128, .f32⟩
  | .local _ .vmem, ⟨19, _⟩ => ⟨S128x196, .f32⟩
  | .local _ .vmem, ⟨20, _⟩ => ⟨S1x196, .f32⟩
  | .local _ .vmem, ⟨21, _⟩ => ⟨S4096x196, .f32⟩
  | .local _ .vmem, ⟨22, _⟩ => ⟨S4096x196, .f32⟩
  | .local _ .vmem, ⟨23, _⟩ => ⟨S4096x196, .f32⟩
  | .local _ .vmem, ⟨24, _⟩ => ⟨S4096x196, .f32⟩
  | _, _ => ⟨S800x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c_1 : Ref sig .tc := ⟨.hbm, 22, rfl⟩
abbrev main_v6 : Ref sig .tc := ⟨.hbm, 23, rfl⟩
abbrev main_v7 : Ref sig .tc := ⟨.hbm, 24, rfl⟩
abbrev main_c_2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_7 : Ref sig .tc := ⟨.hbm, 58, rfl⟩
abbrev main_v36 : Ref sig .tc := ⟨.hbm, 59, rfl⟩
abbrev main_v37 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_9 : Ref sig .tc := ⟨.hbm, 65, rfl⟩
abbrev main_v41 : Ref sig .tc := ⟨.hbm, 66, rfl⟩
abbrev main_v42 : Ref sig .tc := ⟨.hbm, 67, rfl⟩
abbrev main_c_10 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_11 : Ref sig .tc := ⟨.hbm, 77, rfl⟩
abbrev main_call0_v0 : Ref sig .tc := ⟨.hbm, 78, rfl⟩
abbrev main_v51 : Ref sig .tc := ⟨.hbm, 79, rfl⟩
abbrev main_c_12 : Ref sig .tc := ⟨.hbm, 80, rfl⟩
abbrev main_call1_v0 : Ref sig .tc := ⟨.hbm, 81, rfl⟩
abbrev main_v52 : Ref sig .tc := ⟨.hbm, 82, rfl⟩
abbrev main_c_13 : Ref sig .tc := ⟨.hbm, 83, rfl⟩
abbrev main_call2_v0 : Ref sig .tc := ⟨.hbm, 84, rfl⟩
abbrev main_v53 : Ref sig .tc := ⟨.hbm, 85, rfl⟩
abbrev main_c_14 : Ref sig .tc := ⟨.hbm, 86, rfl⟩
abbrev main_call3_v0 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst : Ref sig .tc := ⟨.hbm, 97, rfl⟩
abbrev main_v63 : Ref sig .tc := ⟨.hbm, 98, rfl⟩
abbrev main_c_15 : Ref sig .tc := ⟨.hbm, 99, rfl⟩
abbrev main_v64 : Ref sig .tc := ⟨.hbm, 100, rfl⟩
abbrev main_v65 : Ref sig .tc := ⟨.hbm, 101, rfl⟩
abbrev main_c_16 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_c_17 : Ref sig .tc := ⟨.hbm, 106, rfl⟩
abbrev main_v69 : Ref sig .tc := ⟨.hbm, 107, rfl⟩
abbrev main_v70 : Ref sig .tc := ⟨.hbm, 108, rfl⟩
abbrev main_c_18 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_c_19 : Ref sig .tc := ⟨.hbm, 117, rfl⟩
abbrev main_v78 : Ref sig .tc := ⟨.hbm, 118, rfl⟩
abbrev main_v79 : Ref sig .tc := ⟨.hbm, 119, rfl⟩
abbrev main_c_20 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_c_21 : Ref sig .tc := ⟨.hbm, 124, rfl⟩
abbrev main_v83 : Ref sig .tc := ⟨.hbm, 125, rfl⟩
abbrev main_v84 : Ref sig .tc := ⟨.hbm, 126, rfl⟩
abbrev main_c_22 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_c_23 : Ref sig .tc := ⟨.hbm, 136, rfl⟩
abbrev main_v93 : Ref sig .tc := ⟨.hbm, 137, rfl⟩
abbrev main_v94 : Ref sig .tc := ⟨.hbm, 138, rfl⟩
abbrev main_c_24 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_c_25 : Ref sig .tc := ⟨.hbm, 143, rfl⟩
abbrev main_v98 : Ref sig .tc := ⟨.hbm, 144, rfl⟩
abbrev main_v99 : Ref sig .tc := ⟨.hbm, 145, rfl⟩
abbrev main_c_26 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg9_1 : Ref sig .tc := ⟨.vmem, 22, rfl⟩
abbrev cc1_stg10_0 : Ref sig .tc := ⟨.vmem, 23, rfl⟩
abbrev cc1_stg10_1 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem9_1 : DmaSem sig := 22
abbrev cc1_sem10_0 : DmaSem sig := 23
abbrev cc1_sem10_1 : DmaSem sig := 24

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S800x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S800x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x196 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x196 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S800x196 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S800x196 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![79], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x196 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x196 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4096x196 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S4096x196 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  bcast_S_S800 : S_.BroadcastsInDim S800 (![] : Fin 0 → Fin S800.rank)
  bcast_S800_S800x1_0 : S800.BroadcastsInDim S800x1 (![0] : Fin 1 → Fin S800x1.rank)
  concatenates_S800x1_S800x1_S800x2_d1 : Shape.Concatenates [S800x1, S800x1] S800x2 1
  slices_S128x128_S64x128_0_0 : S128x128.Slices ![0, 0] S64x128
  slices_S128x128_S64x128_64_0 : S128x128.Slices ![64, 0] S64x128
  shapeCasts_S128_S1x128 : S128.ShapeCasts S1x128
  shapeCasts_S196_S1x196 : S196.ShapeCasts S1x196
  shapeCasts_S800x14x14_S800x196 : S800x14x14.ShapeCasts S800x196
  inb_S800x64_S800x64_0_0 : ∀ a, (![0, 0] : Fin 2 → Nat) a + S800x64.size a ≤ S800x64.size a
  h_S800x64 : 0 < S800x64.numel
  bitsLt_bf16_f32 : FTy.bits .bf16 < FTy.bits .f32
  shapeCasts_S800x64_S800x64 : S800x64.ShapeCasts S800x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S800x128 : S1x128.Broadcasts S800x128
  inb_S128x196_S128x196_0_0 : ∀ a, (![0, 0] : Fin 2 → Nat) a + S128x196.size a ≤ S128x196.size a
  h_S128x196 : 0 < S128x196.numel
  inb_S1x196_S1x196_0_0 : ∀ a, (![0, 0] : Fin 2 → Nat) a + S1x196.size a ≤ S1x196.size a
  h_S1x196 : 0 < S1x196.numel
  shapeCasts_S1x196_S1x196 : S1x196.ShapeCasts S1x196
  broadcasts_S1x196_S800x196 : S1x196.Broadcasts S800x196
  inb_S800x196_S800x196_0_0 : ∀ a, (![0, 0] : Fin 2 → Nat) a + S800x196.size a ≤ S800x196.size a
  h_S800x196 : 0 < S800x196.numel
  shapeCasts_S800x196_S800x196 : S800x196.ShapeCasts S800x196
  shapeCasts_S800x196_S800x14x14 : S800x196.ShapeCasts S800x14x14
  bcast_S_S319600 : S_.BroadcastsInDim S319600 (![] : Fin 0 → Fin S319600.rank)
  bcast_S319600_S319600x1_0 : S319600.BroadcastsInDim S319600x1 (![0] : Fin 1 → Fin S319600x1.rank)
  concatenates_S319600x1_S319600x1_S319600x2_d1 : Shape.Concatenates [S319600x1, S319600x1] S319600x2 1
  shapeCasts_S319600x14x14_S319600x196 : S319600x14x14.ShapeCasts S319600x196
  pads_S319600x64_S323584x64_039840_000 : S319600x64.Pads (![0, 0] : Fin 2 → Nat) ![3984, 0] ![0, 0] S323584x64
  h_S_ : 0 < S_.numel
  pads_S319600x196_S323584x196_039840_000 : S319600x196.Pads (![0, 0] : Fin 2 → Nat) ![3984, 0] ![0, 0] S323584x196
  slices_S192x128_S64x128_0_0 : S192x128.Slices ![0, 0] S64x128
  slices_S192x128_S64x128_64_0 : S192x128.Slices ![64, 0] S64x128
  slices_S192x128_S64x128_128_0 : S192x128.Slices ![128, 0] S64x128
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  broadcasts_S1x128_S4096x128 : S1x128.Broadcasts S4096x128
  broadcasts_S1x196_S4096x196 : S1x196.Broadcasts S4096x196
  inb_S4096x196_S4096x196_0_0 : ∀ a, (![0, 0] : Fin 2 → Nat) a + S4096x196.size a ≤ S4096x196.size a
  h_S4096x196 : 0 < S4096x196.numel
  shapeCasts_S4096x196_S4096x196 : S4096x196.ShapeCasts S4096x196
  slices_S323584x196_S319600x196_0_0 : S323584x196.Slices ![0, 0] S319600x196
  shapeCasts_S319600x196_S319600x14x14 : S319600x196.ShapeCasts S319600x14x14
  bcast_S_S800x14x800x14 : S_.BroadcastsInDim S800x14x800x14 (![] : Fin 0 → Fin S800x14x800x14.rank)
  transposes_S319600x14x14_S319600x14x14_0_2_1 : S319600x14x14.Transposes [0, 2, 1] S319600x14x14
  shapeCasts_S800x14x800x14_S11200x11200 : S800x14x800x14.ShapeCasts S11200x11200
  gather_S800x800x64_S800x2_S800x64_1_01_n_n_01_1_1164_wf : GatherDims.WF S800x800x64 S800x2 S800x64 [1] [0, 1] [] [0, 1] [] 1 ![1, 1, 64]
  dot_S800x64_S64x128_S800x128_1_0_0_1_n_n_wf : DotDims.WF S800x64 S64x128 S800x128 [1] [0] [0] [1] [] []
  dot_S800x128_S128x196_S800x196_1_0_0_1_n_n_wf : DotDims.WF S800x128 S128x196 S800x196 [1] [0] [0] [1] [] []
  gather_S800x64_S319600x1_S319600x64_1_0_n_n_0_1_164_wf : GatherDims.WF S800x64 S319600x1 S319600x64 [1] [0] [] [0] [] 1 ![1, 64]
  gather_S800x800x64_S319600x2_S319600x64_1_01_n_n_01_1_1164_wf : GatherDims.WF S800x800x64 S319600x2 S319600x64 [1] [0, 1] [] [0, 1] [] 1 ![1, 1, 64]
  dot_S4096x64_S64x128_S4096x128_1_0_0_1_n_n_wf : DotDims.WF S4096x64 S64x128 S4096x128 [1] [0] [0] [1] [] []
  dot_S4096x128_S128x196_S4096x196_1_0_0_1_n_n_wf : DotDims.WF S4096x128 S128x196 S4096x196 [1] [0] [0] [1] [] []
  scatter_S800x14x800x14_S800x2_S800x14x14_12_02_02_1_wf : ScatterDims.WF S800x14x800x14 S800x2 S800x14x14 [1, 2] [0, 2] [0, 2] 1
  scatter_S800x14x800x14_S319600x2_S319600x14x14_12_02_02_1_wf : ScatterDims.WF S800x14x800x14 S319600x2 S319600x14x14 [1, 2] [0, 2] [0, 2] 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S800x64.size a ≤ S800x64.size a
  hwx0_0 : ∀ i : grid0.Coords, EltTy.bits .f32 = 32 ∨ (Rect.block (s := S800x64) S800x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S800x64.size a ≤ S800x64.size a
  hwx0_1 : ∀ i : grid0.Coords, EltTy.bits .f32 = 32 ∨ (Rect.block (s := S800x64) S800x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x196.size a ≤ S128x196.size a
  hwx0_5 : ∀ i : grid0.Coords, EltTy.bits .f32 = 32 ∨ (Rect.block (s := S128x196) S128x196.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x196.size a ≤ S1x196.size a
  hwx0_6 : ∀ i : grid0.Coords, EltTy.bits .f32 = 32 ∨ (Rect.block (s := S1x196) S1x196.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S800x196.size a ≤ S800x196.size a
  hwx0_7 : ∀ i : grid0.Coords, EltTy.bits .f32 = 32 ∨ (Rect.block (s := S800x196) S800x196.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S800x196.size a ≤ S800x196.size a
  hwx0_8 : ∀ i : grid0.Coords, EltTy.bits .f32 = 32 ∨ (Rect.block (s := S800x196) S800x196.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S323584x64.size a
  hwx1_0 : ∀ i : grid1.Coords, EltTy.bits .f32 = 32 ∨ (Rect.block (s := S323584x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S323584x64.size a
  hwx1_1 : ∀ i : grid1.Coords, EltTy.bits .f32 = 32 ∨ (Rect.block (s := S323584x64) S4096x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x64.size a ≤ S323584x64.size a
  hwx1_2 : ∀ i : grid1.Coords, EltTy.bits .f32 = 32 ∨ (Rect.block (s := S323584x64) S4096x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .f32 = 32 ∨ (Rect.block (s := S64x128) S64x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x196.size a ≤ S128x196.size a
  hwx1_7 : ∀ i : grid1.Coords, EltTy.bits .f32 = 32 ∨ (Rect.block (s := S128x196) S128x196.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x196.size a ≤ S1x196.size a
  hwx1_8 : ∀ i : grid1.Coords, EltTy.bits .f32 = 32 ∨ (Rect.block (s := S1x196) S1x196.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4096x196.size a ≤ S323584x196.size a
  hwx1_9 : ∀ i : grid1.Coords, EltTy.bits .f32 = 32 ∨ (Rect.block (s := S323584x196) S4096x196.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S4096x196.size a ≤ S323584x196.size a
  hwx1_10 : ∀ i : grid1.Coords, EltTy.bits .f32 = 32 ∨ (Rect.block (s := S323584x196) S4096x196.size (cc1_transform_10 i) (hinb1_10 i)).WholeWords (EltTy.packing .f32)

variable [Facts₀]

def gather_S800x800x64_S800x2_S800x64_1_01_n_n_01_1_1164 : GatherDims S800x800x64 S800x2 S800x64 where
  offsetDims := [1]
  collapsedSliceDims := [0, 1]
  operandBatchingDims := []
  startIndicesBatchingDims := []
  startIndexMap := [0, 1]
  indexVectorDim := 1
  sliceSizes := ![1, 1, 64]
  wf := gather_S800x800x64_S800x2_S800x64_1_01_n_n_01_1_1164_wf
def dot_S800x64_S64x128_S800x128_1_0_0_1_n_n : DotDims S800x64 S64x128 S800x128 where
  lhsContracting := [1]
  rhsContracting := [0]
  lhsNonContracting := [0]
  rhsNonContracting := [1]
  lhsBatch := []
  rhsBatch := []
  wf := dot_S800x64_S64x128_S800x128_1_0_0_1_n_n_wf
def dot_S800x128_S128x196_S800x196_1_0_0_1_n_n : DotDims S800x128 S128x196 S800x196 where
  lhsContracting := [1]
  rhsContracting := [0]
  lhsNonContracting := [0]
  rhsNonContracting := [1]
  lhsBatch := []
  rhsBatch := []
  wf := dot_S800x128_S128x196_S800x196_1_0_0_1_n_n_wf
def gather_S800x64_S319600x1_S319600x64_1_0_n_n_0_1_164 : GatherDims S800x64 S319600x1 S319600x64 where
  offsetDims := [1]
  collapsedSliceDims := [0]
  operandBatchingDims := []
  startIndicesBatchingDims := []
  startIndexMap := [0]
  indexVectorDim := 1
  sliceSizes := ![1, 64]
  wf := gather_S800x64_S319600x1_S319600x64_1_0_n_n_0_1_164_wf
def gather_S800x800x64_S319600x2_S319600x64_1_01_n_n_01_1_1164 : GatherDims S800x800x64 S319600x2 S319600x64 where
  offsetDims := [1]
  collapsedSliceDims := [0, 1]
  operandBatchingDims := []
  startIndicesBatchingDims := []
  startIndexMap := [0, 1]
  indexVectorDim := 1
  sliceSizes := ![1, 1, 64]
  wf := gather_S800x800x64_S319600x2_S319600x64_1_01_n_n_01_1_1164_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x196_S4096x196_1_0_0_1_n_n : DotDims S4096x128 S128x196 S4096x196 where
  lhsContracting := [1]
  rhsContracting := [0]
  lhsNonContracting := [0]
  rhsNonContracting := [1]
  lhsBatch := []
  rhsBatch := []
  wf := dot_S4096x128_S128x196_S4096x196_1_0_0_1_n_n_wf
def scatter_S800x14x800x14_S800x2_S800x14x14_12_02_02_1 : ScatterDims S800x14x800x14 S800x2 S800x14x14 where
  updateWindowDims := [1, 2]
  insertedWindowDims := [0, 2]
  scatterDimsToOperandDims := [0, 2]
  indexVectorDim := 1
  wf := scatter_S800x14x800x14_S800x2_S800x14x14_12_02_02_1_wf
def scatter_S800x14x800x14_S319600x2_S319600x14x14_12_02_02_1 : ScatterDims S800x14x800x14 S319600x2 S319600x14x14 where
  updateWindowDims := [1, 2]
  insertedWindowDims := [0, 2]
  scatterDimsToOperandDims := [0, 2]
  indexVectorDim := 1
  wf := scatter_S800x14x800x14_S319600x2_S319600x14x14_12_02_02_1_wf

abbrev win0_0 : Pipeline.Window sig grid0 :=
  Pipeline.Window.ofSpec (Memref.whole main_arg0) S800x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v14) S800x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x196.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x196.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S800x196.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S800x196.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v51) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v55) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S64x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v58) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S128x196.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v59) S1x196.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v54) S4096x196.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_v60) S4096x196.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S800x64 : Shape := ⟨2, ![800, 64]⟩
abbrev S800x800x64 : Shape := ⟨3, ![800, 800, 64]⟩
abbrev S800x14x14 : Shape := ⟨3, ![800, 14, 14]⟩
abbrev S319600x14x14 : Shape := ⟨3, ![319600, 14, 14]⟩
abbrev S128x128 : Shape := ⟨2, ![128, 128]⟩
abbrev S128 : Shape := ⟨1, ![128]⟩
abbrev S128x196 : Shape := ⟨2, ![128, 196]⟩
abbrev S196 : Shape := ⟨1, ![196]⟩
abbrev S192x128 : Shape := ⟨2, ![192, 128]⟩
abbrev S319600 : Shape := ⟨1, ![319600]⟩
abbrev S800 : Shape := ⟨1, ![800]⟩
abbrev S_ : Shape := ⟨0, ![]⟩
abbrev S800x1 : Shape := ⟨2, ![800, 1]⟩
abbrev S800x2 : Shape := ⟨2, ![800, 2]⟩
abbrev S800x128 : Shape := ⟨2, ![800, 128]⟩
abbrev S1x128 : Shape := ⟨2, ![1, 128]⟩
abbrev S800x196 : Shape := ⟨2, ![800, 196]⟩
abbrev S1x196 : Shape := ⟨2, ![1, 196]⟩
abbrev S319600x1 : Shape := ⟨2, ![319600, 1]⟩
abbrev S319600x64 : Shape := ⟨2, ![319600, 64]⟩
abbrev S319600x2 : Shape := ⟨2, ![319600, 2]⟩
abbrev S319600x192 : Shape := ⟨2, ![319600, 192]⟩
abbrev S319600x128 : Shape := ⟨2, ![319600, 128]⟩
abbrev S319600x196 : Shape := ⟨2, ![319600, 196]⟩
abbrev S800x14x800x14 : Shape := ⟨4, ![800, 14, 800, 14]⟩
abbrev S11200x11200 : Shape := ⟨2, ![11200, 11200]⟩

abbrev nBuf : Space → Nat
  | .hbm => 155
  | .vmem => 0
  | .smem => 0
  | _ => 0

abbrev hbmTy0_0 (i : Nat) : BufTy := match i % 128 with
  | 0 => ⟨S800x64, .f32⟩
  | 1 => ⟨S800x800x64, .f32⟩
  | 2 => ⟨S800x14x14, .f32⟩
  | 3 => ⟨S319600x14x14, .f32⟩
  | 4 => ⟨S128x128, .f32⟩
  | 5 => ⟨S128, .f32⟩
  | 6 => ⟨S128x196, .f32⟩
  | 7 => ⟨S196, .f32⟩
  | 8 => ⟨S192x128, .f32⟩
  | 9 => ⟨S128, .f32⟩
  | 10 => ⟨S128x196, .f32⟩
  | 11 => ⟨S196, .f32⟩
  | 12 => ⟨S319600, .i32⟩
  | 13 => ⟨S319600, .i32⟩
  | 14 => ⟨S800, .i32⟩
  | 15 => ⟨S_, .i32⟩
  | 16 => ⟨S800, .i32⟩
  | 17 => ⟨S800, .i1⟩
  | 18 => ⟨S_, .i32⟩
  | 19 => ⟨S800, .i32⟩
  | 20 => ⟨S800, .i32⟩
  | 21 => ⟨S800, .i32⟩
  | 22 => ⟨S_, .i32⟩
  | 23 => ⟨S800, .i32⟩
  | 24 => ⟨S800, .i1⟩
  | 25 => ⟨S_, .i32⟩
  | 26 => ⟨S800, .i32⟩
  | 27 => ⟨S800, .i32⟩
  | 28 => ⟨S800, .i32⟩
  | 29 => ⟨S800x1, .i32⟩
  | 30 => ⟨S800x1, .i32⟩
  | 31 => ⟨S800x2, .i32⟩
  | 32 => ⟨S800x64, .f32⟩
  | 33 => ⟨S800x128, .f32⟩
  | 34 => ⟨S800x128, .f32⟩
  | 35 => ⟨S1x128, .f32⟩
  | 36 => ⟨S800x128, .f32⟩
  | 37 => ⟨S800x128, .f32⟩
  | 38 => ⟨S_, .f32⟩
  | 39 => ⟨S800x128, .f32⟩
  | 40 => ⟨S800x128, .f32⟩
  | 41 => ⟨S800x196, .f32⟩
  | 42 => ⟨S1x196, .f32⟩
  | 43 => ⟨S800x196, .f32⟩
  | 44 => ⟨S800x196, .f32⟩
  | 45 => ⟨S800x14x14, .f32⟩
  | 46 => ⟨S800x14x14, .f32⟩
  | 47 => ⟨S_, .i32⟩
  | 48 => ⟨S319600, .i32⟩
  | 49 => ⟨S319600, .i1⟩
  | 50 => ⟨S_, .i32⟩
  | 51 => ⟨S319600, .i32⟩
  | 52 => ⟨S319600, .i32⟩
  | 53 => ⟨S319600, .i32⟩
  | 54 => ⟨S319600x1, .i32⟩
  | 55 => ⟨S319600x64, .f32⟩
  | 56 => ⟨S_, .i32⟩
  | 57 => ⟨S319600, .i32⟩
  | 58 => ⟨S319600, .i1⟩
  | 59 => ⟨S_, .i32⟩
  | 60 => ⟨S319600, .i32⟩
  | 61 => ⟨S319600, .i32⟩
  | 62 => ⟨S319600, .i32⟩
  | 63 => ⟨S319600x1, .i32⟩
  | 64 => ⟨S319600x64, .f32⟩
  | 65 => ⟨S_, .i32⟩
  | 66 => ⟨S319600, .i32⟩
  | 67 => ⟨S319600, .i1⟩
  | 68 => ⟨S_, .i32⟩
  | 69 => ⟨S319600, .i32⟩
  | 70 => ⟨S319600, .i32⟩
  | 71 => ⟨S319600, .i32⟩
  | 72 => ⟨S_, .i32⟩
  | 73 => ⟨S319600, .i32⟩
  | 74 => ⟨S319600, .i1⟩
  | 75 => ⟨S_, .i32⟩
  | 76 => ⟨S319600, .i32⟩
  | 77 => ⟨S319600, .i32⟩
  | 78 => ⟨S319600, .i32⟩
  | 79 => ⟨S319600x1, .i32⟩
  | 80 => ⟨S319600x1, .i32⟩
  | 81 => ⟨S319600x2, .i32⟩
  | 82 => ⟨S319600x64, .f32⟩
  | 83 => ⟨S319600x192, .f32⟩
  | 84 => ⟨S319600x128, .f32⟩
  | 85 => ⟨S1x128, .f32⟩
  | 86 => ⟨S319600x128, .f32⟩
  | 87 => ⟨S319600x128, .f32⟩
  | 88 => ⟨S_, .f32⟩
  | 89 => ⟨S319600x128, .f32⟩
  | 90 => ⟨S319600x128, .f32⟩
  | 91 => ⟨S319600x196, .f32⟩
  | 92 => ⟨S1x196, .f32⟩
  | 93 => ⟨S319600x196, .f32⟩
  | 94 => ⟨S319600x196, .f32⟩
  | 95 => ⟨S319600x14x14, .f32⟩
  | 96 => ⟨S319600x14x14, .f32⟩
  | 97 => ⟨S_, .f32⟩
  | 98 => ⟨S800x14x800x14, .f32⟩
  | 99 => ⟨S_, .i32⟩
  | 100 => ⟨S800, .i32⟩
  | 101 => ⟨S800, .i1⟩
  | 102 => ⟨S_, .i32⟩
  | 103 => ⟨S800, .i32⟩
  | 104 => ⟨S800, .i32⟩
  | 105 => ⟨S800, .i32⟩
  | 106 => ⟨S_, .i32⟩
  | 107 => ⟨S800, .i32⟩
  | 108 => ⟨S800, .i1⟩
  | 109 => ⟨S_, .i32⟩
  | 110 => ⟨S800, .i32⟩
  | 111 => ⟨S800, .i32⟩
  | 112 => ⟨S800, .i32⟩
  | 113 => ⟨S800x1, .i32⟩
  | 114 => ⟨S800x1, .i32⟩
  | 115 => ⟨S800x2, .i32⟩
  | 116 => ⟨S800x14x800x14, .f32⟩
  | 117 => ⟨S_, .i32⟩
  | 118 => ⟨S319600, .i32⟩
  | 119 => ⟨S319600, .i1⟩
  | 120 => ⟨S_, .i32⟩
  | 121 => ⟨S319600, .i32⟩
  | 122 => ⟨S319600, .i32⟩
  | 123 => ⟨S319600, .i32⟩
  | 124 => ⟨S_, .i32⟩
  | 125 => ⟨S319600, .i32⟩
  | 126 => ⟨S319600, .i1⟩
  | 127 => ⟨S_, .i32⟩
  | _ => ⟨S800x64, .f32⟩

abbrev hbmTy0_1 (i : Nat) : BufTy := match i % 128 with
  | 0 => ⟨S319600, .i32⟩
  | 1 => ⟨S319600, .i32⟩
  | 2 => ⟨S319600, .i32⟩
  | 3 => ⟨S319600x1, .i32⟩
  | 4 => ⟨S319600x1, .i32⟩
  | 5 => ⟨S319600x2, .i32⟩
  | 6 => ⟨S800x14x800x14, .f32⟩
  | 7 => ⟨S319600x14x14, .f32⟩
  | 8 => ⟨S_, .i32⟩
  | 9 => ⟨S319600, .i32⟩
  | 10 => ⟨S319600, .i1⟩
  | 11 => ⟨S_, .i32⟩
  | 12 => ⟨S319600, .i32⟩
  | 13 => ⟨S319600, .i32⟩
  | 14 => ⟨S319600, .i32⟩
  | 15 => ⟨S_, .i32⟩
  | 16 => ⟨S319600, .i32⟩
  | 17 => ⟨S319600, .i1⟩
  | 18 => ⟨S_, .i32⟩
  | 19 => ⟨S319600, .i32⟩
  | 20 => ⟨S319600, .i32⟩
  | 21 => ⟨S319600, .i32⟩
  | 22 => ⟨S319600x1, .i32⟩
  | 23 => ⟨S319600x1, .i32⟩
  | 24 => ⟨S319600x2, .i32⟩
  | 25 => ⟨S800x14x800x14, .f32⟩
  | 26 => ⟨S11200x11200, .f32⟩
  | _ => ⟨S800x64, .f32⟩

abbrev hbmTy (i : Nat) : BufTy := match i / 128 with
  | 0 => hbmTy0_0 i
  | 1 => hbmTy0_1 i
  | _ => ⟨S800x64, .f32⟩

abbrev bufTy : (tb : Table) → Fin (tcTables nBuf tb) → BufTy
  | .hbm, ⟨i, _⟩ => hbmTy i
  | _, _ => ⟨S800x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c_1 : Ref sig .tc := ⟨.hbm, 22, rfl⟩
abbrev main_v6 : Ref sig .tc := ⟨.hbm, 23, rfl⟩
abbrev main_v7 : Ref sig .tc := ⟨.hbm, 24, rfl⟩
abbrev main_c_2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call0_cst : Ref sig .tc := ⟨.hbm, 38, rfl⟩
abbrev main_call0_v0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_3 : Ref sig .tc := ⟨.hbm, 47, rfl⟩
abbrev main_v27 : Ref sig .tc := ⟨.hbm, 48, rfl⟩
abbrev main_v28 : Ref sig .tc := ⟨.hbm, 49, rfl⟩
abbrev main_c_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_5 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_7 : Ref sig .tc := ⟨.hbm, 65, rfl⟩
abbrev main_v41 : Ref sig .tc := ⟨.hbm, 66, rfl⟩
abbrev main_v42 : Ref sig .tc := ⟨.hbm, 67, rfl⟩
abbrev main_c_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_9 : Ref sig .tc := ⟨.hbm, 72, rfl⟩
abbrev main_v46 : Ref sig .tc := ⟨.hbm, 73, rfl⟩
abbrev main_v47 : Ref sig .tc := ⟨.hbm, 74, rfl⟩
abbrev main_c_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call1_cst : Ref sig .tc := ⟨.hbm, 88, rfl⟩
abbrev main_call1_v0 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst : Ref sig .tc := ⟨.hbm, 97, rfl⟩
abbrev main_v67 : Ref sig .tc := ⟨.hbm, 98, rfl⟩
abbrev main_c_11 : Ref sig .tc := ⟨.hbm, 99, rfl⟩
abbrev main_v68 : Ref sig .tc := ⟨.hbm, 100, rfl⟩
abbrev main_v69 : Ref sig .tc := ⟨.hbm, 101, rfl⟩
abbrev main_c_12 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_13 : Ref sig .tc := ⟨.hbm, 106, rfl⟩
abbrev main_v73 : Ref sig .tc := ⟨.hbm, 107, rfl⟩
abbrev main_v74 : Ref sig .tc := ⟨.hbm, 108, rfl⟩
abbrev main_c_14 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_15 : Ref sig .tc := ⟨.hbm, 117, rfl⟩
abbrev main_v82 : Ref sig .tc := ⟨.hbm, 118, rfl⟩
abbrev main_v83 : Ref sig .tc := ⟨.hbm, 119, rfl⟩
abbrev main_c_16 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_c_17 : Ref sig .tc := ⟨.hbm, 124, rfl⟩
abbrev main_v87 : Ref sig .tc := ⟨.hbm, 125, rfl⟩
abbrev main_v88 : Ref sig .tc := ⟨.hbm, 126, rfl⟩
abbrev main_c_18 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_c_19 : Ref sig .tc := ⟨.hbm, 136, rfl⟩
abbrev main_v97 : Ref sig .tc := ⟨.hbm, 137, rfl⟩
abbrev main_v98 : Ref sig .tc := ⟨.hbm, 138, rfl⟩
abbrev main_c_20 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_c_21 : Ref sig .tc := ⟨.hbm, 143, rfl⟩
abbrev main_v102 : Ref sig .tc := ⟨.hbm, 144, rfl⟩
abbrev main_v103 : Ref sig .tc := ⟨.hbm, 145, rfl⟩
abbrev main_c_22 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩

abbrev nD : Nat := 1
abbrev τ : Topo := Topo.v7x

variable {F : FTy → Type} [FloatOps F]

class Facts₀ : Prop where
  bcast_S_S800 : S_.BroadcastsInDim S800 (![] : Fin 0 → Fin S800.rank)
  bcast_S800_S800x1_0 : S800.BroadcastsInDim S800x1 (![0] : Fin 1 → Fin S800x1.rank)
  concatenates_S800x1_S800x1_S800x2_d1 : Shape.Concatenates [S800x1, S800x1] S800x2 1
  concatenates_S800x64_S800x64_S800x128_d1 : Shape.Concatenates [S800x64, S800x64] S800x128 1
  bcast_S128_S1x128_1 : S128.BroadcastsInDim S1x128 (![1] : Fin 1 → Fin S1x128.rank)
  bcast_S1x128_S800x128_0_1 : S1x128.BroadcastsInDim S800x128 (![0, 1] : Fin 2 → Fin S800x128.rank)
  bcast_S_S800x128 : S_.BroadcastsInDim S800x128 (![] : Fin 0 → Fin S800x128.rank)
  bcast_S196_S1x196_1 : S196.BroadcastsInDim S1x196 (![1] : Fin 1 → Fin S1x196.rank)
  bcast_S1x196_S800x196_0_1 : S1x196.BroadcastsInDim S800x196 (![0, 1] : Fin 2 → Fin S800x196.rank)
  shapeCasts_S800x196_S800x14x14 : S800x196.ShapeCasts S800x14x14
  bcast_S_S319600 : S_.BroadcastsInDim S319600 (![] : Fin 0 → Fin S319600.rank)
  bcast_S319600_S319600x1_0 : S319600.BroadcastsInDim S319600x1 (![0] : Fin 1 → Fin S319600x1.rank)
  concatenates_S319600x1_S319600x1_S319600x2_d1 : Shape.Concatenates [S319600x1, S319600x1] S319600x2 1
  concatenates_S319600x64_S319600x64_S319600x64_S319600x192_d1 : Shape.Concatenates [S319600x64, S319600x64, S319600x64] S319600x192 1
  bcast_S1x128_S319600x128_0_1 : S1x128.BroadcastsInDim S319600x128 (![0, 1] : Fin 2 → Fin S319600x128.rank)
  bcast_S_S319600x128 : S_.BroadcastsInDim S319600x128 (![] : Fin 0 → Fin S319600x128.rank)
  bcast_S1x196_S319600x196_0_1 : S1x196.BroadcastsInDim S319600x196 (![0, 1] : Fin 2 → Fin S319600x196.rank)
  shapeCasts_S319600x196_S319600x14x14 : S319600x196.ShapeCasts S319600x14x14
  bcast_S_S800x14x800x14 : S_.BroadcastsInDim S800x14x800x14 (![] : Fin 0 → Fin S800x14x800x14.rank)
  transposes_S319600x14x14_S319600x14x14_0_2_1 : S319600x14x14.Transposes [0, 2, 1] S319600x14x14
  shapeCasts_S800x14x800x14_S11200x11200 : S800x14x800x14.ShapeCasts S11200x11200
  gather_S800x800x64_S800x2_S800x64_1_01_n_n_01_1_1164_wf : GatherDims.WF S800x800x64 S800x2 S800x64 [1] [0, 1] [] [0, 1] [] 1 ![1, 1, 64]
  dot_S800x128_S128x128_S800x128_1_0_0_1_n_n_wf : DotDims.WF S800x128 S128x128 S800x128 [1] [0] [0] [1] [] []
  dot_S800x128_S128x196_S800x196_1_0_0_1_n_n_wf : DotDims.WF S800x128 S128x196 S800x196 [1] [0] [0] [1] [] []
  gather_S800x64_S319600x1_S319600x64_1_0_n_n_0_1_164_wf : GatherDims.WF S800x64 S319600x1 S319600x64 [1] [0] [] [0] [] 1 ![1, 64]
  gather_S800x800x64_S319600x2_S319600x64_1_01_n_n_01_1_1164_wf : GatherDims.WF S800x800x64 S319600x2 S319600x64 [1] [0, 1] [] [0, 1] [] 1 ![1, 1, 64]
  dot_S319600x192_S192x128_S319600x128_1_0_0_1_n_n_wf : DotDims.WF S319600x192 S192x128 S319600x128 [1] [0] [0] [1] [] []
  dot_S319600x128_S128x196_S319600x196_1_0_0_1_n_n_wf : DotDims.WF S319600x128 S128x196 S319600x196 [1] [0] [0] [1] [] []
  scatter_S800x14x800x14_S800x2_S800x14x14_12_02_02_1_wf : ScatterDims.WF S800x14x800x14 S800x2 S800x14x14 [1, 2] [0, 2] [0, 2] 1
  scatter_S800x14x800x14_S319600x2_S319600x14x14_12_02_02_1_wf : ScatterDims.WF S800x14x800x14 S319600x2 S319600x14x14 [1, 2] [0, 2] [0, 2] 1

variable [Facts₀]

def gather_S800x800x64_S800x2_S800x64_1_01_n_n_01_1_1164 : GatherDims S800x800x64 S800x2 S800x64 where
  offsetDims := [1]
  collapsedSliceDims := [0, 1]
  operandBatchingDims := []
  startIndicesBatchingDims := []
  startIndexMap := [0, 1]
  indexVectorDim := 1
  sliceSizes := ![1, 1, 64]
  wf := gather_S800x800x64_S800x2_S800x64_1_01_n_n_01_1_1164_wf
def dot_S800x128_S128x128_S800x128_1_0_0_1_n_n : DotDims S800x128 S128x128 S800x128 where
  lhsContracting := [1]
  rhsContracting := [0]
  lhsNonContracting := [0]
  rhsNonContracting := [1]
  lhsBatch := []
  rhsBatch := []
  wf := dot_S800x128_S128x128_S800x128_1_0_0_1_n_n_wf
def dot_S800x128_S128x196_S800x196_1_0_0_1_n_n : DotDims S800x128 S128x196 S800x196 where
  lhsContracting := [1]
  rhsContracting := [0]
  lhsNonContracting := [0]
  rhsNonContracting := [1]
  lhsBatch := []
  rhsBatch := []
  wf := dot_S800x128_S128x196_S800x196_1_0_0_1_n_n_wf
def gather_S800x64_S319600x1_S319600x64_1_0_n_n_0_1_164 : GatherDims S800x64 S319600x1 S319600x64 where
  offsetDims := [1]
  collapsedSliceDims := [0]
  operandBatchingDims := []
  startIndicesBatchingDims := []
  startIndexMap := [0]
  indexVectorDim := 1
  sliceSizes := ![1, 64]
  wf := gather_S800x64_S319600x1_S319600x64_1_0_n_n_0_1_164_wf
def gather_S800x800x64_S319600x2_S319600x64_1_01_n_n_01_1_1164 : GatherDims S800x800x64 S319600x2 S319600x64 where
  offsetDims := [1]
  collapsedSliceDims := [0, 1]
  operandBatchingDims := []
  startIndicesBatchingDims := []
  startIndexMap := [0, 1]
  indexVectorDim := 1
  sliceSizes := ![1, 1, 64]
  wf := gather_S800x800x64_S319600x2_S319600x64_1_01_n_n_01_1_1164_wf
def dot_S319600x192_S192x128_S319600x128_1_0_0_1_n_n : DotDims S319600x192 S192x128 S319600x128 where
  lhsContracting := [1]
  rhsContracting := [0]
  lhsNonContracting := [0]
  rhsNonContracting := [1]
  lhsBatch := []
  rhsBatch := []
  wf := dot_S319600x192_S192x128_S319600x128_1_0_0_1_n_n_wf
def dot_S319600x128_S128x196_S319600x196_1_0_0_1_n_n : DotDims S319600x128 S128x196 S319600x196 where
  lhsContracting := [1]
  rhsContracting := [0]
  lhsNonContracting := [0]
  rhsNonContracting := [1]
  lhsBatch := []
  rhsBatch := []
  wf := dot_S319600x128_S128x196_S319600x196_1_0_0_1_n_n_wf
def scatter_S800x14x800x14_S800x2_S800x14x14_12_02_02_1 : ScatterDims S800x14x800x14 S800x2 S800x14x14 where
  updateWindowDims := [1, 2]
  insertedWindowDims := [0, 2]
  scatterDimsToOperandDims := [0, 2]
  indexVectorDim := 1
  wf := scatter_S800x14x800x14_S800x2_S800x14x14_12_02_02_1_wf
def scatter_S800x14x800x14_S319600x2_S319600x14x14_12_02_02_1 : ScatterDims S800x14x800x14 S319600x2 S319600x14x14 where
  updateWindowDims := [1, 2]
  insertedWindowDims := [0, 2]
  scatterDimsToOperandDims := [0, 2]
  indexVectorDim := 1
  wf := scatter_S800x14x800x14_S319600x2_S319600x14x14_12_02_02_1_wf

class Facts : Prop extends Facts₀ where

variable [Facts]
-- ==== Proof.KRun.lean ====
/-
  The idealized kernel's run with its result named.

  @main is two kernel regions among stretches of host operations.  The memory at each boundary between them is a fold
  from the launch memory: a host stretch applies its operations in order, a region leaves each of its arrays at what
  its write-backs add up to and every other buffer alone.  The run below is the launch theorem for such a chain of
  segments, read at its end: every weakly fair execution terminates, the result array holds the last boundary's
  contents at the result buffer, and the fourteen argument arrays are as launched.  What those contents are, as a
  function of the arguments, is the business of the modules that read the fold back.
-/
import proofs.«119377_j70162585747873_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the last boundary's
    contents, the arguments as launched. -/
theorem run_result : θ_run defs (onTc (τ := τ) (main (F := F))) ⟨m, fun _ => 0, ρ⟩ (fun r => ∀ c : Dev nD,
      r.2.mem ((c.tc : Thread nD τ).loc main_v107) = W13 m ρ c (Proc.devRef .tc main_v107)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v107 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c)⟩)

end Cert.KernelIdeal.Hand

end
-- ==== Proof.KHost.lean ====
/-
  The host stretches of the idealized kernel's @main, as functions of the memory they start from.

  Before the first region the host gathers each atom's self-edge features, cuts the first weight matrix into its two
  bands of 64 rows and re-lays the bias vectors as one-row matrices and the atoms' residual blocks as rows of 196.
  Between the regions it re-lays the first region's output as 14 × 14 blocks, gathers the pairs' features (both
  atoms' node features and the edge features), pads the four per-pair arrays with 3984 rows to a whole number of
  tiles, cuts the second first-layer weight matrix into three bands and re-lays the biases.  After the second region it
  cuts the padding rows off, re-lays the rows as 14 × 14 blocks and scatters the atoms' and the pairs' blocks (and
  the pairs' transposed blocks) into the zero matrix.  Each lemma reads one buffer after one stretch as that term of
  the buffers before it; the index arrays are the programs' own wrap-around of negative indices.
-/
import proofs.«119377_j70162585747873_1_alg».proof.Proof.Gen.KernelIdeal.Frame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.StableHlo
variable {F : FTy → Type} [FloatOps F]

/-! ## The index arrays -/

/-- The index pairs (n, n) from an array of atom numbers, negative indices wrapped. -/
def selfIdxOf (io : (⟨S800, .i32⟩ : BufTy).Contents (Elt F)) : (⟨S800x2, .i32⟩ : BufTy).Contents (Elt F) :=
  concatenate S800x2 1 [⟨S800x1, broadcastInDim S800x1 ![0] bcast_S800_S800x1_0 (select (cmpi .slt io (broadcastInDim S800 ![] bcast_S_S800 (constantI S_ 32 0#32))) (addi io (broadcastInDim S800 ![] bcast_S_S800 (constantI S_ 32 800#32))) io)⟩,
    ⟨S800x1, broadcastInDim S800x1 ![0] bcast_S800_S800x1_0 (select (cmpi .slt io (broadcastInDim S800 ![] bcast_S_S800 (constantI S_ 32 0#32))) (addi io (broadcastInDim S800 ![] bcast_S_S800 (constantI S_ 32 800#32))) io)⟩] concatenates_S800x1_S800x1_S800x2_d1

/-- Atom `n`'s index pair (n, n). -/
def selfIdx : (⟨S800x2, .i32⟩ : BufTy).Contents (Elt F) := selfIdxOf (F := F) (iotaInDim S800 32 0)

/-- A pair index array as a column, negative indices wrapped. -/
def colIdx (p : (⟨S319600, .i32⟩ : BufTy).Contents (Elt F)) : (⟨S319600x1, .i32⟩ : BufTy).Contents (Elt F) :=
  broadcastInDim S319600x1 ![0] bcast_S319600_S319600x1_0 (select (cmpi .slt p (broadcastInDim S319600 ![] bcast_S_S319600 (constantI S_ 32 0#32))) (addi p (broadcastInDim S319600 ![] bcast_S_S319600 (constantI S_ 32 800#32))) p)

/-- Two pair index arrays side by side. -/
def pairIdx (p q : (⟨S319600, .i32⟩ : BufTy).Contents (Elt F)) : (⟨S319600x2, .i32⟩ : BufTy).Contents (Elt F) :=
  concatenate S319600x2 1 [⟨S319600x1, colIdx (F := F) p⟩, ⟨S319600x1, colIdx (F := F) q⟩] concatenates_S319600x1_S319600x1_S319600x2_d1

/-! ## The stretch before the first region -/

section Head
variable (W : Valuation τ sig (Elt F))

set_option maxHeartbeats 4000000 in
theorem head_v14 : StableHlo.after hostOps0 W (Proc.devRef .tc main_v14) = Host.gather gather_S800x800x64_S800x2_S800x64_1_01_n_n_01_1_1164 (W (Proc.devRef .tc main_arg1)) (selfIdx (F := F)) := by
  dsimp only [hostOps0]
  after_results_simp
  rfl

theorem head_v15 : StableHlo.after hostOps0 W (Proc.devRef .tc main_v15) = extractStridedSlice S64x128 ![0, 0] (W (Proc.devRef .tc main_arg4)) slices_S128x128_S64x128_0_0 := by
  dsimp only [hostOps0]
  after_results
  try rfl

theorem head_v16 : StableHlo.after hostOps0 W (Proc.devRef .tc main_v16) = extractStridedSlice S64x128 ![64, 0] (W (Proc.devRef .tc main_arg4)) slices_S128x128_S64x128_64_0 := by
  dsimp only [hostOps0]
  after_results
  try rfl

theorem head_v17 : StableHlo.after hostOps0 W (Proc.devRef .tc main_v17) = shapeCast S1x128 (W (Proc.devRef .tc main_arg5)) shapeCasts_S128_S1x128 := by
  dsimp only [hostOps0]
  after_results
  try rfl

theorem head_v18 : StableHlo.after hostOps0 W (Proc.devRef .tc main_v18) = shapeCast S1x196 (W (Proc.devRef .tc main_arg7)) shapeCasts_S196_S1x196 := by
  dsimp only [hostOps0]
  after_results
  try rfl

theorem head_v19 : StableHlo.after hostOps0 W (Proc.devRef .tc main_v19) = shapeCast S800x196 (W (Proc.devRef .tc main_arg2)) shapeCasts_S800x14x14_S800x196 := by
  dsimp only [hostOps0]
  after_results
  try rfl

theorem head_v0 : StableHlo.after hostOps0 W (Proc.devRef .tc main_v0) = iotaInDim S800 32 0 := by
  dsimp only [hostOps0]
  after_results
  try rfl

theorem head_arg0 : StableHlo.after hostOps0 W (Proc.devRef .tc main_arg0) = W (Proc.devRef .tc main_arg0) := by
  dsimp only [hostOps0]
  after_results
  try rfl

theorem head_arg1 : StableHlo.after hostOps0 W (Proc.devRef .tc main_arg1) = W (Proc.devRef .tc main_arg1) := by
  dsimp only [hostOps0]
  after_results
  try rfl

theorem head_arg2 : StableHlo.after hostOps0 W (Proc.devRef .tc main_arg2) = W (Proc.devRef .tc main_arg2) := by
  dsimp only [hostOps0]
  after_results
  try rfl

theorem head_arg3 : StableHlo.after hostOps0 W (Proc.devRef .tc main_arg3) = W (Proc.devRef .tc main_arg3) := by
  dsimp only [hostOps0]
  after_results
  try rfl

theorem head_arg4 : StableHlo.after hostOps0 W (Proc.devRef .tc main_arg4) = W (Proc.devRef .tc main_arg4) := by
  dsimp only [hostOps0]
  after_results
  try rfl

theorem head_arg5 : StableHlo.after hostOps0 W (Proc.devRef .tc main_arg5) = W (Proc.devRef .tc main_arg5) := by
  dsimp only [hostOps0]
  after_results
  try rfl

theorem head_arg6 : StableHlo.after hostOps0 W (Proc.devRef .tc main_arg6) = W (Proc.devRef .tc main_arg6) := by
  dsimp only [hostOps0]
  after_results
  try rfl

theorem head_arg7 : StableHlo.after hostOps0 W (Proc.devRef .tc main_arg7) = W (Proc.devRef .tc main_arg7) := by
  dsimp only [hostOps0]
  after_results
  try rfl

theorem head_arg8 : StableHlo.after hostOps0 W (Proc.devRef .tc main_arg8) = W (Proc.devRef .tc main_arg8) := by
  dsimp only [hostOps0]
  after_results
  try rfl

theorem head_arg9 : StableHlo.after hostOps0 W (Proc.devRef .tc main_arg9) = W (Proc.devRef .tc main_arg9) := by
  dsimp only [hostOps0]
  after_results
  try rfl

theorem head_arg10 : StableHlo.after hostOps0 W (Proc.devRef .tc main_arg10) = W (Proc.devRef .tc main_arg10) := by
  dsimp only [hostOps0]
  after_results
  try rfl

theorem head_arg11 : StableHlo.after hostOps0 W (Proc.devRef .tc main_arg11) = W (Proc.devRef .tc main_arg11) := by
  dsimp only [hostOps0]
  after_results
  try rfl

theorem head_arg12 : StableHlo.after hostOps0 W (Proc.devRef .tc main_arg12) = W (Proc.devRef .tc main_arg12) := by
  dsimp only [hostOps0]
  after_results
  try rfl

theorem head_arg13 : StableHlo.after hostOps0 W (Proc.devRef .tc main_arg13) = W (Proc.devRef .tc main_arg13) := by
  dsimp only [hostOps0]
  after_results
  try rfl

end Head

/-! ## The stretches between the regions -/

/-- The nine stretches between the two regions, run in order. -/
abbrev mid (W : Valuation τ sig (Elt F)) : Valuation τ sig (Elt F) :=
  StableHlo.after hostOps1_8 (StableHlo.after hostOps1_7 (StableHlo.after hostOps1_6 (StableHlo.after hostOps1_5 (StableHlo.after hostOps1_4
    (StableHlo.after hostOps1_3 (StableHlo.after hostOps1_2 (StableHlo.after hostOps1_1 (StableHlo.after hostOps1 W))))))))

section Mid
variable (W : Valuation τ sig (Elt F))

set_option maxHeartbeats 4000000 in
theorem mid_v51 : ∃ z, mid W (Proc.devRef .tc main_v51) = pad S323584x64 ![0, 0] ![3984, 0] ![0, 0] (Host.gather gather_S800x64_S319600x1_S319600x64_1_0_n_n_0_1_164 (W (Proc.devRef .tc main_arg0)) (colIdx (F := F) (W (Proc.devRef .tc main_arg12)))) z pads_S319600x64_S323584x64_039840_000 h_S_ := by
  refine ⟨sitofp .f32 (constantI S_ 32 0#32), ?_⟩
  dsimp only [mid, hostOps1, hostOps1_1, hostOps1_2, hostOps1_3, hostOps1_4, hostOps1_5, hostOps1_6, hostOps1_7, hostOps1_8]
  after_results_simp
  rfl

set_option maxHeartbeats 4000000 in
theorem mid_v52 : ∃ z, mid W (Proc.devRef .tc main_v52) = pad S323584x64 ![0, 0] ![3984, 0] ![0, 0] (Host.gather gather_S800x64_S319600x1_S319600x64_1_0_n_n_0_1_164 (W (Proc.devRef .tc main_arg0)) (colIdx (F := F) (W (Proc.devRef .tc main_arg13)))) z pads_S319600x64_S323584x64_039840_000 h_S_ := by
  refine ⟨sitofp .f32 (constantI S_ 32 0#32), ?_⟩
  dsimp only [mid, hostOps1, hostOps1_1, hostOps1_2, hostOps1_3, hostOps1_4, hostOps1_5, hostOps1_6, hostOps1_7, hostOps1_8]
  after_results_simp
  rfl

set_option maxHeartbeats 4000000 in
theorem mid_v53 : ∃ z, mid W (Proc.devRef .tc main_v53) = pad S323584x64 ![0, 0] ![3984, 0] ![0, 0] (Host.gather gather_S800x800x64_S319600x2_S319600x64_1_01_n_n_01_1_1164 (W (Proc.devRef .tc main_arg1)) (pairIdx (F := F) (W (Proc.devRef .tc main_arg12)) (W (Proc.devRef .tc main_arg13)))) z pads_S319600x64_S323584x64_039840_000 h_S_ := by
  refine ⟨sitofp .f32 (constantI S_ 32 0#32), ?_⟩
  dsimp only [mid, hostOps1, hostOps1_1, hostOps1_2, hostOps1_3, hostOps1_4, hostOps1_5, hostOps1_6, hostOps1_7, hostOps1_8]
  after_results_simp
  rfl

set_option maxHeartbeats 4000000 in
theorem mid_v54 : ∃ z, mid W (Proc.devRef .tc main_v54) = pad S323584x196 ![0, 0] ![3984, 0] ![0, 0] (shapeCast S319600x196 (W (Proc.devRef .tc main_arg3)) shapeCasts_S319600x14x14_S319600x196) z pads_S319600x196_S323584x196_039840_000 h_S_ := by
  refine ⟨sitofp .f32 (constantI S_ 32 0#32), ?_⟩
  dsimp only [mid, hostOps1, hostOps1_1, hostOps1_2, hostOps1_3, hostOps1_4, hostOps1_5, hostOps1_6, hostOps1_7, hostOps1_8]
  after_results_simp
  rfl

set_option maxHeartbeats 4000000 in
theorem mid_v55 : mid W (Proc.devRef .tc main_v55) = extractStridedSlice S64x128 ![0, 0] (W (Proc.devRef .tc main_arg8)) slices_S192x128_S64x128_0_0 := by
  dsimp only [mid, hostOps1, hostOps1_1, hostOps1_2, hostOps1_3, hostOps1_4, hostOps1_5, hostOps1_6, hostOps1_7, hostOps1_8]
  after_results_simp
  try rfl

set_option maxHeartbeats 4000000 in
theorem mid_v56 : mid W (Proc.devRef .tc main_v56) = extractStridedSlice S64x128 ![64, 0] (W (Proc.devRef .tc main_arg8)) slices_S192x128_S64x128_64_0 := by
  dsimp only [mid, hostOps1, hostOps1_1, hostOps1_2, hostOps1_3, hostOps1_4, hostOps1_5, hostOps1_6, hostOps1_7, hostOps1_8]
  after_results_simp
  try rfl

set_option maxHeartbeats 4000000 in
theorem mid_v57 : mid W (Proc.devRef .tc main_v57) = extractStridedSlice S64x128 ![128, 0] (W (Proc.devRef .tc main_arg8)) slices_S192x128_S64x128_128_0 := by
  dsimp only [mid, hostOps1, hostOps1_1, hostOps1_2, hostOps1_3, hostOps1_4, hostOps1_5, hostOps1_6, hostOps1_7, hostOps1_8]
  after_results_simp
  try rfl

set_option maxHeartbeats 4000000 in
theorem mid_v58 : mid W (Proc.devRef .tc main_v58) = shapeCast S1x128 (W (Proc.devRef .tc main_arg9)) shapeCasts_S128_S1x128 := by
  dsimp only [mid, hostOps1, hostOps1_1, hostOps1_2, hostOps1_3, hostOps1_4, hostOps1_5, hostOps1_6, hostOps1_7, hostOps1_8]
  after_results_simp
  try rfl

set_option maxHeartbeats 4000000 in
theorem mid_v59 : mid W (Proc.devRef .tc main_v59) = shapeCast S1x196 (W (Proc.devRef .tc main_arg11)) shapeCasts_S196_S1x196 := by
  dsimp only [mid, hostOps1, hostOps1_1, hostOps1_2, hostOps1_3, hostOps1_4, hostOps1_5, hostOps1_6, hostOps1_7, hostOps1_8]
  after_results_simp
  try rfl

set_option maxHeartbeats 4000000 in
theorem mid_v21 : mid W (Proc.devRef .tc main_v21) = shapeCast S800x14x14 (W (Proc.devRef .tc main_v20)) shapeCasts_S800x196_S800x14x14 := by
  dsimp only [mid, hostOps1, hostOps1_1, hostOps1_2, hostOps1_3, hostOps1_4, hostOps1_5, hostOps1_6, hostOps1_7, hostOps1_8]
  after_results_simp
  try rfl

set_option maxHeartbeats 4000000 in
theorem mid_v0 : mid W (Proc.devRef .tc main_v0) = (W (Proc.devRef .tc main_v0)) := by
  dsimp only [mid, hostOps1, hostOps1_1, hostOps1_2, hostOps1_3, hostOps1_4, hostOps1_5, hostOps1_6, hostOps1_7, hostOps1_8]
  after_results_simp
  try rfl

set_option maxHeartbeats 4000000 in
theorem mid_arg10 : mid W (Proc.devRef .tc main_arg10) = (W (Proc.devRef .tc main_arg10)) := by
  dsimp only [mid, hostOps1, hostOps1_1, hostOps1_2, hostOps1_3, hostOps1_4, hostOps1_5, hostOps1_6, hostOps1_7, hostOps1_8]
  after_results_simp
  try rfl

set_option maxHeartbeats 4000000 in
theorem mid_arg12 : mid W (Proc.devRef .tc main_arg12) = (W (Proc.devRef .tc main_arg12)) := by
  dsimp only [mid, hostOps1, hostOps1_1, hostOps1_2, hostOps1_3, hostOps1_4, hostOps1_5, hostOps1_6, hostOps1_7, hostOps1_8]
  after_results_simp
  try rfl

set_option maxHeartbeats 4000000 in
theorem mid_arg13 : mid W (Proc.devRef .tc main_arg13) = (W (Proc.devRef .tc main_arg13)) := by
  dsimp only [mid, hostOps1, hostOps1_1, hostOps1_2, hostOps1_3, hostOps1_4, hostOps1_5, hostOps1_6, hostOps1_7, hostOps1_8]
  after_results_simp
  try rfl

end Mid

/-! ## The stretch after the second region -/

/-- The three scatters of the blocks into the zero matrix, re-laid as 11200 × 11200, the atoms numbered by `io`. -/
def assembleOf (io : (⟨S800, .i32⟩ : BufTy).Contents (Elt F)) (Hd : (⟨S800x14x14, .f32⟩ : BufTy).Contents (Elt F)) (Ho : (⟨S319600x14x14, .f32⟩ : BufTy).Contents (Elt F))
    (p q : (⟨S319600, .i32⟩ : BufTy).Contents (Elt F)) : (⟨S11200x11200, .f32⟩ : BufTy).Contents (Elt F) :=
  shapeCast S11200x11200
    (Host.scatter scatter_S800x14x800x14_S319600x2_S319600x14x14_12_02_02_1 (fun _ b => b)
      (Host.scatter scatter_S800x14x800x14_S319600x2_S319600x14x14_12_02_02_1 (fun _ b => b)
        (Host.scatter scatter_S800x14x800x14_S800x2_S800x14x14_12_02_02_1 (fun _ b => b)
          (broadcastInDim S800x14x800x14 ![] bcast_S_S800x14x800x14 (constant S_ .f32 0x00000000#32)) (selfIdxOf (F := F) io) Hd)
        (pairIdx (F := F) p q) Ho)
      (pairIdx (F := F) q p) (transpose S319600x14x14 [0, 2, 1] Ho transposes_S319600x14x14_S319600x14x14_0_2_1))
    shapeCasts_S800x14x800x14_S11200x11200

set_option maxHeartbeats 16000000 in
/-- The same with the atoms numbered 0 … 799. -/
def assemble (Hd : (⟨S800x14x14, .f32⟩ : BufTy).Contents (Elt F)) (Ho : (⟨S319600x14x14, .f32⟩ : BufTy).Contents (Elt F))
    (p q : (⟨S319600, .i32⟩ : BufTy).Contents (Elt F)) : (⟨S11200x11200, .f32⟩ : BufTy).Contents (Elt F) :=
  assembleOf (F := F) (iotaInDim S800 32 0) Hd Ho p q

/-- The result buffer after the last stretch, when the atom iota is in place. -/
theorem tail_v107 (W : Valuation τ sig (Elt F)) (h0 : W (Proc.devRef .tc main_v0) = iotaInDim S800 32 0) :
    StableHlo.after hostOps2 W (Proc.devRef .tc main_v107)
      = assemble (W (Proc.devRef .tc main_v21))
          (shapeCast S319600x14x14 (extractStridedSlice S319600x196 ![0, 0] (W (Proc.devRef .tc main_v60)) slices_S323584x196_S319600x196_0_0) shapeCasts_S319600x196_S319600x14x14)
          (W (Proc.devRef .tc main_arg12)) (W (Proc.devRef .tc main_arg13)) := by
  unfold assemble
  rw [← h0]
  dsimp only [hostOps2]
  after_results_simp
  rfl

end Cert.KernelIdeal.Hand

end
-- ==== Proof.LibDotSum.lean ====
/-
  A matrix product read at an entry.  For dimension numbers `d` of a plain product `[A,K] × [K,M] → [A,M]`
  (one contracted axis: the columns of the left factor against the rows of the right one, no batch axis) the sum over
  the contraction index of the factors' products, at the entry `(p, j)`, is the textbook sum
  `∑ k, l (p, k) · r (k, j)` over `Fin K`.  The four coordinate facts `hl0 … hr1` say what "plain" means; they are
  proved once per record, at literal extents.  Then the two products a program can spell — a `tpu.matmul` into a zero
  accumulator and the host's `dot_general` — are that sum on the extended reals.
-/
import Idealize.ShloMosaic.Lib.ValueIdx
import Idealize.ShloMosaic.PureOps.Ideal.Laws

noncomputable section

namespace Cert.DotSum

open Idealize.ShloMosaic Idealize.ShloMosaic.ValueIdx

/-- The contraction sum of a plain product at the entry `(p, j)`, re-indexed over `Fin K`. -/
theorem contr_sum {A K M : ℕ} (d : DotDims ⟨2, ![A, K]⟩ ⟨2, ![K, M]⟩ ⟨2, ![A, M]⟩)
    (hr : d.contr.rank = 1) (hs : d.contr.size ⟨0, by omega⟩ = K)
    (hl0 : ∀ (i : (⟨2, ![A, M]⟩ : Shape).Idx) (q : d.contr.Idx), (d.lhsIdx i q 0).val = (i 0).val)
    (hl1 : ∀ (i : (⟨2, ![A, M]⟩ : Shape).Idx) (q : d.contr.Idx), (d.lhsIdx i q 1).val = (q ⟨0, by omega⟩).val)
    (hr0 : ∀ (i : (⟨2, ![A, M]⟩ : Shape).Idx) (q : d.contr.Idx), (d.rhsIdx i q 0).val = (q ⟨0, by omega⟩).val)
    (hr1 : ∀ (i : (⟨2, ![A, M]⟩ : Shape).Idx) (q : d.contr.Idx), (d.rhsIdx i q 1).val = (i 1).val)
    (l : (⟨2, ![A, K]⟩ : Shape).Idx → EReal) (r : (⟨2, ![K, M]⟩ : Shape).Idx → EReal) (p : Fin A) (j : Fin M) :
    ∑ q : d.contr.Idx, l (d.lhsIdx (ix2 p j) q) * r (d.rhsIdx (ix2 p j) q) = ∑ k : Fin K, l (ix2 p k) * r (ix2 k j) := by
  rw [← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

end Cert.DotSum

end
-- ==== Proof.LibDense.lean ====
/-
  The dense pieces of a two-layer graph convolution with a mean-pool head, as functions on the extended reals, and
  the two spellings a program has for each.

  `prod x w` is the matrix product, entry (p, j) the sum over k of x (p, k) · w (k, j); `act x b` adds the one-row
  matrix `b` to every row of `x` and takes the maximum with zero (bias, then relu); `shift y b` adds the one-row matrix
  to every row.  A kernel spells a product as a matrix-unit product into a zero accumulator, the host as a
  `dot_general`; a kernel spreads the bias row by a vector broadcast of the (re-cast) row and takes the maximum with a
  splat of the scalar zero, the host broadcasts the row in dimensions (0, 1) and takes the maximum with a broadcast of
  the rank-0 zero.  Both spellings of each piece are the one function; nothing here uses more of the arithmetic of the
  extended reals than 0 + s = s, so no finiteness is needed.  General in the extents A, K, M.  Also: each function read
  through maps of its indices (`prod_reindex`, `act_reindex`, `shift_reindex`: a block of rows of a product is the
  product of the block of rows, and the like), and a vector re-cast as one row against its broadcast along axis 1
  (`row_cast_eq_broadcast`).  The product lemmas take the four coordinate facts of a plain [A,K]×[K,M] record, as
  `Cert.DotSum.contr_sum` (LibDotSum.lean, which this file needs beside it) does.
-/
import proofs.«119377_j70162585747873_1_alg».proof.Proof.LibDotSum
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Idealize.ShloMosaic.PureOps.Ideal.Laws

noncomputable section

namespace Cert.Dense

open Idealize.ShloMosaic Idealize.ShloMosaic.ValueIdx

/-- The matrix product on the extended reals: entry (p, j) is the sum over k of x (p, k) · w (k, j). -/
def prod {A K M : ℕ} (x : (⟨2, ![A, K]⟩ : Shape).Idx → EReal) (w : (⟨2, ![K, M]⟩ : Shape).Idx → EReal) :
    (⟨2, ![A, M]⟩ : Shape).Idx → EReal :=
  fun i => ∑ k : Fin K, x (ix2 (i 0 : Fin A) k) * w (ix2 k (i 1 : Fin M))

/-- Bias and relu: the one-row matrix `b` added to every row, then the maximum with zero. -/
def act {A M : ℕ} (x : (⟨2, ![A, M]⟩ : Shape).Idx → EReal) (b : (⟨2, ![1, M]⟩ : Shape).Idx → EReal) :
    (⟨2, ![A, M]⟩ : Shape).Idx → EReal :=
  fun i => max (x i + b (ix2 (0 : Fin 1) (i 1 : Fin M))) (Ideal.ofBits .f32 0x00000000#32)

/-- The one-row matrix `b` added to every row. -/
def shift {A M : ℕ} (y : (⟨2, ![A, M]⟩ : Shape).Idx → EReal) (b : (⟨2, ![1, M]⟩ : Shape).Idx → EReal) :
    (⟨2, ![A, M]⟩ : Shape).Idx → EReal :=
  fun i => y i + b (ix2 (0 : Fin 1) (i 1 : Fin M))

theorem prod_apply {A K M : ℕ} (x : (⟨2, ![A, K]⟩ : Shape).Idx → EReal) (w : (⟨2, ![K, M]⟩ : Shape).Idx → EReal)
    (p : Fin A) (j : Fin M) : prod x w (ix2 p j) = ∑ k : Fin K, x (ix2 p k) * w (ix2 k j) := rfl

theorem act_apply {A M : ℕ} (x : (⟨2, ![A, M]⟩ : Shape).Idx → EReal) (b : (⟨2, ![1, M]⟩ : Shape).Idx → EReal)
    (p : Fin A) (j : Fin M) :
    act x b (ix2 p j) = max (x (ix2 p j) + b (ix2 (0 : Fin 1) j)) (Ideal.ofBits .f32 0x00000000#32) := rfl

theorem shift_apply {A M : ℕ} (y : (⟨2, ![A, M]⟩ : Shape).Idx → EReal) (b : (⟨2, ![1, M]⟩ : Shape).Idx → EReal)
    (p : Fin A) (j : Fin M) : shift y b (ix2 p j) = y (ix2 p j) + b (ix2 (0 : Fin 1) j) := rfl

/-- The product of two matrices read through maps of their indices, at an entry `j`, is the product of the matrices
    at the entry `j'` whenever the maps carry row `j 0` to row `j' 0` and column `j 1` to column `j' 1`, the
    contraction coordinate kept: a block of rows of a product is the product of the block of rows. -/
theorem prod_reindex {A K M A' M' : ℕ} (X : (⟨2, ![A', K]⟩ : Shape).Idx → EReal) (W : (⟨2, ![K, M']⟩ : Shape).Idx → EReal)
    (eX : (⟨2, ![A, K]⟩ : Shape).Idx → (⟨2, ![A', K]⟩ : Shape).Idx) (eW : (⟨2, ![K, M]⟩ : Shape).Idx → (⟨2, ![K, M']⟩ : Shape).Idx)
    (j : (⟨2, ![A, M]⟩ : Shape).Idx) (j' : (⟨2, ![A', M']⟩ : Shape).Idx)
    (hX : ∀ k : Fin K, eX (ix2 (j 0 : Fin A) k) = ix2 (j' 0 : Fin A') k)
    (hW : ∀ k : Fin K, eW (ix2 k (j 1 : Fin M)) = ix2 k (j' 1 : Fin M')) :
    prod (fun y => X (eX y)) (fun y => W (eW y)) j = prod X W j' :=
  Finset.sum_congr rfl fun k _ => by
    show X (eX (ix2 (j 0 : Fin A) k)) * W (eW (ix2 k (j 1 : Fin M))) = X (ix2 (j' 0 : Fin A') k) * W (ix2 k (j' 1 : Fin M'))
    rw [hX k, hW k]
    rfl

/-- Bias-then-relu of a matrix and a bias row read through maps of their indices, at an entry `j`, is bias-then-relu
    of the matrix and the row at the entry `j'` whenever the first map carries `j` to `j'` and the second keeps the
    column: a block of rows of bias-then-relu is bias-then-relu of the block of rows. -/
theorem act_reindex {A M A' : ℕ} (X : (⟨2, ![A', M]⟩ : Shape).Idx → EReal) (B : (⟨2, ![1, M]⟩ : Shape).Idx → EReal)
    (eX : (⟨2, ![A, M]⟩ : Shape).Idx → (⟨2, ![A', M]⟩ : Shape).Idx) (eB : (⟨2, ![1, M]⟩ : Shape).Idx → (⟨2, ![1, M]⟩ : Shape).Idx)
    (j : (⟨2, ![A, M]⟩ : Shape).Idx) (j' : (⟨2, ![A', M]⟩ : Shape).Idx)
    (hX : eX j = j') (hB : eB (ix2 (0 : Fin 1) (j 1 : Fin M)) = ix2 (0 : Fin 1) (j' 1 : Fin M)) :
    act (fun y => X (eX y)) (fun y => B (eB y)) j = act X B j' := by
  show max (X (eX j) + B (eB (ix2 (0 : Fin 1) (j 1 : Fin M)))) _ = max (X j' + B (ix2 (0 : Fin 1) (j' 1 : Fin M))) _
  rw [hX, hB]
  rfl

/-- A matrix shifted by a bias row read through a map of its indices, at an entry `j`, is the shift at `j'` whenever
    the matrices agree there and the map keeps the column. -/
theorem shift_reindex {A M A' : ℕ} (Y' : (⟨2, ![A, M]⟩ : Shape).Idx → EReal) (Y : (⟨2, ![A', M]⟩ : Shape).Idx → EReal)
    (B : (⟨2, ![1, M]⟩ : Shape).Idx → EReal) (eB : (⟨2, ![1, M]⟩ : Shape).Idx → (⟨2, ![1, M]⟩ : Shape).Idx)
    (j : (⟨2, ![A, M]⟩ : Shape).Idx) (j' : (⟨2, ![A', M]⟩ : Shape).Idx)
    (hY : Y' j = Y j') (hB : eB (ix2 (0 : Fin 1) (j 1 : Fin M)) = ix2 (0 : Fin 1) (j' 1 : Fin M)) :
    shift Y' (fun y => B (eB y)) j = shift Y B j' := by
  show Y' j + B (eB (ix2 (0 : Fin 1) (j 1 : Fin M))) = Y j' + B (ix2 (0 : Fin 1) (j' 1 : Fin M))
  rw [hY, hB]
  rfl

/-! ## The product, in a kernel and on the host -/

section Products

variable {A K M : ℕ} {φ₁ φ₂ : FTy} (d : DotDims ⟨2, ![A, K]⟩ ⟨2, ![K, M]⟩ ⟨2, ![A, M]⟩)
  (hr : d.contr.rank = 1) (hs : d.contr.size ⟨0, by omega⟩ = K)
  (hl0 : ∀ (i : (⟨2, ![A, M]⟩ : Shape).Idx) (q : d.contr.Idx), (d.lhsIdx i q 0).val = (i 0).val)
  (hl1 : ∀ (i : (⟨2, ![A, M]⟩ : Shape).Idx) (q : d.contr.Idx), (d.lhsIdx i q 1).val = (q ⟨0, by omega⟩).val)
  (hr0 : ∀ (i : (⟨2, ![A, M]⟩ : Shape).Idx) (q : d.contr.Idx), (d.rhsIdx i q 0).val = (q ⟨0, by omega⟩).val)
  (hr1 : ∀ (i : (⟨2, ![A, M]⟩ : Shape).Idx) (q : d.contr.Idx), (d.rhsIdx i q 1).val = (i 1).val)

include hr hs hl0 hl1 hr0 hr1

/-- A kernel's matrix-unit product into a zero accumulator is the product. -/
theorem matmul_zero_eq_prod (prec : Option ContractPrecision) (l : FVec Ideal ⟨2, ![A, K]⟩ φ₁) (r : FVec Ideal ⟨2, ![K, M]⟩ φ₂) :
    matmul d prec l r (constant ⟨2, ![A, M]⟩ .f32 0x00000000#32) = prod l r := by
  funext i
  obtain ⟨p, j, rfl⟩ : ∃ (p : Fin A) (j : Fin M), i = ix2 p j := ⟨i 0, i 1, eq_ix2 i⟩
  show FloatOps.matmul d prec l r (constant ⟨2, ![A, M]⟩ .f32 0x00000000#32) (ix2 p j) = _
  rw [Ideal.matmul_constant_zero_apply]
  exact Cert.DotSum.contr_sum d hr hs hl0 hl1 hr0 hr1 l r p j

/-- The host's `dot_general` is the product. -/
theorem dotGeneral_eq_prod (prec : Option ContractPrecision) (l : FVec Ideal ⟨2, ![A, K]⟩ φ₁) (r : FVec Ideal ⟨2, ![K, M]⟩ φ₂) :
    Host.dotGeneral d prec l r = prod l r := by
  rw [← matmul_zero_eq_dotGeneral]
  exact matmul_zero_eq_prod d hr hs hl0 hl1 hr0 hr1 prec l r

end Products

/-! ## Bias and relu, in a kernel and on the host -/

/-- A kernel's form: the row re-cast (twice) and broadcast down the rows, added, and the maximum with a splat of the
    scalar zero. -/
theorem kernel_act {A M : ℕ} (x : (⟨2, ![A, M]⟩ : Shape).Idx → EReal) (b : (⟨2, ![1, M]⟩ : Shape).Idx → EReal)
    (hx : (⟨2, ![A, M]⟩ : Shape).ShapeCasts ⟨2, ![A, M]⟩) (hb : (⟨2, ![1, M]⟩ : Shape).ShapeCasts ⟨2, ![1, M]⟩)
    (hbc : (⟨2, ![1, M]⟩ : Shape).Broadcasts ⟨2, ![A, M]⟩) :
    maximumf (F := Ideal) (φ := .f32)
        (addf (shapeCast ⟨2, ![A, M]⟩ x hx) (broadcastTo ⟨2, ![A, M]⟩ (shapeCast ⟨2, ![1, M]⟩ (shapeCast ⟨2, ![1, M]⟩ b hb) hb) hbc))
        (broadcast ⟨2, ![A, M]⟩ (Scalar.ofBits (F := Ideal) .f32 0x00000000#32))
      = act x b := by
  funext i
  obtain ⟨p, j, rfl⟩ : ∃ (p : Fin A) (j : Fin M), i = ix2 p j := ⟨i 0, i 1, eq_ix2 i⟩
  rw [shapeCast_self, shapeCast_self, shapeCast_self, maximumf_apply, addf_apply, broadcast_apply,
    broadcastTo_1b_ab_apply]
  rfl

/-- The host's form: the row broadcast in dimensions (0, 1), added, and the maximum with a broadcast of the rank-0
    zero. -/
theorem host_act {A M : ℕ} (x : (⟨2, ![A, M]⟩ : Shape).Idx → EReal) (b : (⟨2, ![1, M]⟩ : Shape).Idx → EReal)
    (hbc : (⟨2, ![1, M]⟩ : Shape).BroadcastsInDim ⟨2, ![A, M]⟩ ![0, 1])
    (h0 : (⟨0, ![]⟩ : Shape).BroadcastsInDim ⟨2, ![A, M]⟩ ![]) :
    maximumf (F := Ideal) (φ := .f32)
        (addf x (broadcastInDim ⟨2, ![A, M]⟩ ![0, 1] hbc b))
        (broadcastInDim ⟨2, ![A, M]⟩ ![] h0 (constant (F := Ideal) ⟨0, ![]⟩ .f32 0x00000000#32))
      = act x b := by
  funext i
  obtain ⟨p, j, rfl⟩ : ∃ (p : Fin A) (j : Fin M), i = ix2 p j := ⟨i 0, i 1, eq_ix2 i⟩
  rw [maximumf_apply, addf_apply, broadcastInDim_oneRow_apply, broadcastInDim_scalar_apply, constant_apply]
  rfl

/-- A kernel's form of the shifted product's last step: the row re-cast (twice) and broadcast down the rows, added. -/
theorem kernel_shift {A M : ℕ} (y : (⟨2, ![A, M]⟩ : Shape).Idx → EReal) (b : (⟨2, ![1, M]⟩ : Shape).Idx → EReal)
    (hb : (⟨2, ![1, M]⟩ : Shape).ShapeCasts ⟨2, ![1, M]⟩) (hbc : (⟨2, ![1, M]⟩ : Shape).Broadcasts ⟨2, ![A, M]⟩) :
    addf (F := Ideal) (φ := .f32) y (broadcastTo ⟨2, ![A, M]⟩ (shapeCast ⟨2, ![1, M]⟩ (shapeCast ⟨2, ![1, M]⟩ b hb) hb) hbc)
      = shift y b := by
  funext i
  obtain ⟨p, j, rfl⟩ : ∃ (p : Fin A) (j : Fin M), i = ix2 p j := ⟨i 0, i 1, eq_ix2 i⟩
  rw [shapeCast_self, shapeCast_self, addf_apply, broadcastTo_1b_ab_apply]
  rfl

/-- The host's form: the row broadcast in dimensions (0, 1), added. -/
theorem host_shift {A M : ℕ} (y : (⟨2, ![A, M]⟩ : Shape).Idx → EReal) (b : (⟨2, ![1, M]⟩ : Shape).Idx → EReal)
    (hbc : (⟨2, ![1, M]⟩ : Shape).BroadcastsInDim ⟨2, ![A, M]⟩ ![0, 1]) :
    addf (F := Ideal) (φ := .f32) y (broadcastInDim ⟨2, ![A, M]⟩ ![0, 1] hbc b) = shift y b := by
  funext i
  obtain ⟨p, j, rfl⟩ : ∃ (p : Fin A) (j : Fin M), i = ix2 p j := ⟨i 0, i 1, eq_ix2 i⟩
  rw [addf_apply, broadcastInDim_oneRow_apply]
  rfl

/-! ## A vector as a one-row matrix, two ways -/

/-- A vector of `n` entries re-cast as one row is the vector broadcast along axis 1 into one row. -/
theorem row_cast_eq_broadcast {n : ℕ} {α : Type} (v : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ v hc = broadcastInDim ⟨2, ![1, n]⟩ ![1] hb v := by
  funext i
  obtain ⟨r, t, rfl⟩ : ∃ (r : Fin 1) (t : Fin n), i = ix2 r t := ⟨i 0, i 1, eq_ix2 i⟩
  have hr : r = 0 := Subsingleton.elim _ _
  subst hr
  have e2 := shapeCast_apply v hc (ix2 (0 : Fin 1) t) (ix1 t) (by
    rw [Shape.rowMajor_val_two, Shape.rowMajor_val_one]; show t.val = 0 * n + t.val; omega)
  have e3 := broadcastInDim_apply ![1] hb v (ix2 (0 : Fin 1) t) (ix1 t) (by
    intro a
    match a with
    | ⟨0, _⟩ =>
      show t.val = if n = 1 then 0 else t.val
      split
      · have := t.isLt; omega
      · rfl)
  exact e2.trans e3.symm

end Cert.Dense

end
-- ==== Proof.LibRowBlocks.lean ====
/-
  Blocks of rows of the dense pieces, and a kernel's single-cast spelling of bias and relu.

  A matrix of N rows cut into blocks of R consecutive rows: row r of block n is row n·R + r of the whole matrix
  (`up`).  Each dense piece of LibDense.lean commutes with taking a block of rows, the other operand (weights, or a
  one-row bias) kept whole: a block of rows of a product is the product of the block of rows (`prod_up`), and the same
  for bias-then-relu (`act_up`) and bias (`shift_up`).  So a network tail applied block by block computes the blocks
  of the tail applied to the whole matrix.  General in the extents.

  Also the spelling a kernel body has when it re-casts the bias row ONCE before broadcasting it down the rows
  (LibDense.lean's `kernel_act` / `kernel_shift` are for a body that casts it twice): `act_cast` (the matrix itself
  re-cast too), `act_plain` (the matrix as computed), `shift_plain`.

  It imports LibDense.lean (and, through it, LibDotSum.lean), so it needs those two files beside it.
-/
import proofs.«119377_j70162585747873_1_alg».proof.Proof.LibDense

noncomputable section

namespace Cert.RowBlocks

open Idealize.ShloMosaic Idealize.ShloMosaic.ValueIdx Cert.Dense

/-- Index (r, j) of the n-th block of R rows, as an index of the whole N-row matrix: (n·R + r, j). -/
def up {R N M : ℕ} (n : ℕ) (h : n * R + R ≤ N) (y : (⟨2, ![R, M]⟩ : Shape).Idx) : (⟨2, ![N, M]⟩ : Shape).Idx :=
  ix2 (⟨n * R + (y 0).val, by have h0 : (y 0).val < R := (y 0).isLt; omega⟩ : Fin N) (y 1 : Fin M)

theorem up_row {R N M : ℕ} (n : ℕ) (h : n * R + R ≤ N) (y : (⟨2, ![R, M]⟩ : Shape).Idx) :
    ((up (N := N) n h y) 0).val = n * R + (y 0).val := rfl

theorem up_col {R N M : ℕ} (n : ℕ) (h : n * R + R ≤ N) (y : (⟨2, ![R, M]⟩ : Shape).Idx) :
    ((up (N := N) n h y) 1).val = (y 1).val := rfl

/-- A block of rows of a product is the product of the block of rows. -/
theorem prod_up {R N K M : ℕ} (n : ℕ) (h : n * R + R ≤ N) (X : (⟨2, ![N, K]⟩ : Shape).Idx → EReal)
    (W : (⟨2, ![K, M]⟩ : Shape).Idx → EReal) :
    prod (fun y => X (up n h y)) W = fun j => prod X W (up n h j) :=
  funext fun j => prod_reindex X W (up n h) (fun y => y) j (up n h j) (fun _ => rfl) (fun _ => rfl)

/-- A block of rows of bias-then-relu is bias-then-relu of the block of rows. -/
theorem act_up {R N M : ℕ} (n : ℕ) (h : n * R + R ≤ N) (X : (⟨2, ![N, M]⟩ : Shape).Idx → EReal)
    (B : (⟨2, ![1, M]⟩ : Shape).Idx → EReal) :
    act (fun y => X (up n h y)) B = fun j => act X B (up n h j) :=
  funext fun j => act_reindex X B (up n h) (fun y => y) j (up n h j) rfl rfl

/-- A block of rows of a matrix shifted by a bias row is the shifted block of rows. -/
theorem shift_up {R N M : ℕ} (n : ℕ) (h : n * R + R ≤ N) (Y : (⟨2, ![N, M]⟩ : Shape).Idx → EReal)
    (B : (⟨2, ![1, M]⟩ : Shape).Idx → EReal) :
    shift (fun y => Y (up n h y)) B = fun j => shift Y B (up n h j) :=
  funext fun j => shift_reindex (fun y => Y (up n h y)) Y B (fun y => y) j (up n h j) rfl rfl

/-! ## Bias and relu in a kernel that re-casts the bias row once -/

/-- The matrix and the row each re-cast to their own shape, the row broadcast down the rows, added, and the maximum
    with a splat of the scalar zero. -/
theorem act_cast {A M : ℕ} (x : (⟨2, ![A, M]⟩ : Shape).Idx → EReal) (b : (⟨2, ![1, M]⟩ : Shape).Idx → EReal)
    (hx : (⟨2, ![A, M]⟩ : Shape).ShapeCasts ⟨2, ![A, M]⟩) (hb : (⟨2, ![1, M]⟩ : Shape).ShapeCasts ⟨2, ![1, M]⟩)
    (hbc : (⟨2, ![1, M]⟩ : Shape).Broadcasts ⟨2, ![A, M]⟩) :
    maximumf (F := Ideal) (φ := .f32)
        (addf (shapeCast ⟨2, ![A, M]⟩ x hx) (broadcastTo ⟨2, ![A, M]⟩ (shapeCast ⟨2, ![1, M]⟩ b hb) hbc))
        (broadcast ⟨2, ![A, M]⟩ (Scalar.ofBits (F := Ideal) .f32 0x00000000#32))
      = act x b := by
  funext i
  obtain ⟨p, j, rfl⟩ : ∃ (p : Fin A) (j : Fin M), i = ix2 p j := ⟨i 0, i 1, eq_ix2 i⟩
  rw [shapeCast_self, shapeCast_self, maximumf_apply, addf_apply, broadcast_apply, broadcastTo_1b_ab_apply]
  rfl

/-- The same on a matrix used as computed (no cast of its own). -/
theorem act_plain {A M : ℕ} (x : (⟨2, ![A, M]⟩ : Shape).Idx → EReal) (b : (⟨2, ![1, M]⟩ : Shape).Idx → EReal)
    (hb : (⟨2, ![1, M]⟩ : Shape).ShapeCasts ⟨2, ![1, M]⟩) (hbc : (⟨2, ![1, M]⟩ : Shape).Broadcasts ⟨2, ![A, M]⟩) :
    maximumf (F := Ideal) (φ := .f32)
        (addf x (broadcastTo ⟨2, ![A, M]⟩ (shapeCast ⟨2, ![1, M]⟩ b hb) hbc))
        (broadcast ⟨2, ![A, M]⟩ (Scalar.ofBits (F := Ideal) .f32 0x00000000#32))
      = act x b := by
  funext i
  obtain ⟨p, j, rfl⟩ : ∃ (p : Fin A) (j : Fin M), i = ix2 p j := ⟨i 0, i 1, eq_ix2 i⟩
  rw [shapeCast_self, maximumf_apply, addf_apply, broadcast_apply, broadcastTo_1b_ab_apply]
  rfl

/-- The bias row re-cast once, broadcast down the rows and added. -/
theorem shift_plain {A M : ℕ} (y : (⟨2, ![A, M]⟩ : Shape).Idx → EReal) (b : (⟨2, ![1, M]⟩ : Shape).Idx → EReal)
    (hb : (⟨2, ![1, M]⟩ : Shape).ShapeCasts ⟨2, ![1, M]⟩) (hbc : (⟨2, ![1, M]⟩ : Shape).Broadcasts ⟨2, ![A, M]⟩) :
    addf (F := Ideal) (φ := .f32) y (broadcastTo ⟨2, ![A, M]⟩ (shapeCast ⟨2, ![1, M]⟩ b hb) hbc) = shift y b := by
  funext i
  obtain ⟨p, j, rfl⟩ : ∃ (p : Fin A) (j : Fin M), i = ix2 p j := ⟨i 0, i 1, eq_ix2 i⟩
  rw [shapeCast_self, addf_apply, broadcastTo_1b_ab_apply]
  rfl

end Cert.RowBlocks

end
-- ==== Proof.Mlp.lean ====
/-
  The arithmetic shared by the two block perceptrons of the Hamiltonian layer, on the extended reals and general in
  the number of rows.

  Each perceptron multiplies a row of features by a weight matrix, adds a bias row, takes the maximum with zero,
  multiplies by a second weight matrix, adds a second bias row and finally adds a residual block.  One program joins
  the feature pieces (two, or three, pieces of 64 columns) side by side and multiplies the joined row by the whole
  weight matrix; the other multiplies each piece by its own band of 64 rows of the weight matrix and adds the
  products.  The two agree because a sum over 128 (or 192) consecutive terms is the sum of its consecutive runs of 64
  terms, added in the same order — a fact of any commutative additive monoid, so nothing here needs the entries to be
  finite.

  `head` is the part after the first product: bias, maximum with zero, second product, second bias, residual.  A block
  of consecutive rows of `head` is `head` of the blocks of rows (`head_up`), which is what lets a kernel compute it tile by
  tile.
-/
import proofs.«119377_j70162585747873_1_alg».proof.Proof.LibRowBlocks

noncomputable section

namespace Cert.Mlp

open Idealize.ShloMosaic Idealize.ShloMosaic.ValueIdx Cert.Dense Cert.RowBlocks

/-! ## Runs of 64 among 128 and among 192 -/

/-- Term `k` of the first run of 64 among 128. -/
def c0 (k : Fin 64) : Fin 128 := ⟨k.val, by have := k.isLt; omega⟩
/-- Term `k` of the second run of 64 among 128. -/
def c1 (k : Fin 64) : Fin 128 := ⟨64 + k.val, by have := k.isLt; omega⟩
/-- Term `k` of the first run of 64 among 192. -/
def d0 (k : Fin 64) : Fin 192 := ⟨k.val, by have := k.isLt; omega⟩
/-- Term `k` of the second run of 64 among 192. -/
def d1 (k : Fin 64) : Fin 192 := ⟨64 + k.val, by have := k.isLt; omega⟩
/-- Term `k` of the third run of 64 among 192. -/
def d2 (k : Fin 64) : Fin 192 := ⟨128 + k.val, by have := k.isLt; omega⟩

/-- A sum of 128 terms is the sum of its first 64 plus the sum of its last 64. -/
theorem sum_two {M : Type} [AddCommMonoid M] (f : Fin 128 → M) :
    ∑ k, f k = ∑ k : Fin 64, f (c0 k) + ∑ k : Fin 64, f (c1 k) :=
  Fin.sum_univ_add (a := 64) (b := 64) f

/-- A sum of 192 terms is its three runs of 64 added from the left. -/
theorem sum_three {M : Type} [AddCommMonoid M] (f : Fin 192 → M) :
    ∑ k, f k = (∑ k : Fin 64, f (d0 k) + ∑ k : Fin 64, f (d1 k)) + ∑ k : Fin 64, f (d2 k) := by
  have h := Fin.sum_univ_add (a := 128) (b := 64) f
  have h2 := sum_two (fun i : Fin 128 => f (Fin.castAdd 64 i))
  exact h.trans (congrArg (· + ∑ k : Fin 64, f (d2 k)) h2)

/-! ## A product against a joined left factor -/

/-- A product whose left factor is two pieces of 64 columns side by side is the sum of the pieces' products with the
    two bands of 64 rows of the right factor. -/
theorem prod_two {A H : ℕ} (X : (⟨2, ![A, 128]⟩ : Shape).Idx → EReal) (W : (⟨2, ![128, H]⟩ : Shape).Idx → EReal)
    (a b : (⟨2, ![A, 64]⟩ : Shape).Idx → EReal) (Wa Wb : (⟨2, ![64, H]⟩ : Shape).Idx → EReal)
    (ha : ∀ (p : Fin A) (k : Fin 64), X (ix2 p (c0 k)) = a (ix2 p k))
    (hb : ∀ (p : Fin A) (k : Fin 64), X (ix2 p (c1 k)) = b (ix2 p k))
    (hWa : ∀ (k : Fin 64) (j : Fin H), W (ix2 (c0 k) j) = Wa (ix2 k j))
    (hWb : ∀ (k : Fin 64) (j : Fin H), W (ix2 (c1 k) j) = Wb (ix2 k j)) (p : Fin A) (j : Fin H) :
    prod X W (ix2 p j) = prod a Wa (ix2 p j) + prod b Wb (ix2 p j) := by
  rw [prod_apply, prod_apply, prod_apply, sum_two]
  congr 1
  · exact Finset.sum_congr rfl fun k _ => by rw [ha, hWa]
  · exact Finset.sum_congr rfl fun k _ => by rw [hb, hWb]

/-- The same for three pieces of 64 columns, the products added from the left. -/
theorem prod_three {A H : ℕ} (X : (⟨2, ![A, 192]⟩ : Shape).Idx → EReal) (W : (⟨2, ![192, H]⟩ : Shape).Idx → EReal)
    (a b e : (⟨2, ![A, 64]⟩ : Shape).Idx → EReal) (Wa Wb We : (⟨2, ![64, H]⟩ : Shape).Idx → EReal)
    (ha : ∀ (p : Fin A) (k : Fin 64), X (ix2 p (d0 k)) = a (ix2 p k))
    (hb : ∀ (p : Fin A) (k : Fin 64), X (ix2 p (d1 k)) = b (ix2 p k))
    (he : ∀ (p : Fin A) (k : Fin 64), X (ix2 p (d2 k)) = e (ix2 p k))
    (hWa : ∀ (k : Fin 64) (j : Fin H), W (ix2 (d0 k) j) = Wa (ix2 k j))
    (hWb : ∀ (k : Fin 64) (j : Fin H), W (ix2 (d1 k) j) = Wb (ix2 k j))
    (hWe : ∀ (k : Fin 64) (j : Fin H), W (ix2 (d2 k) j) = We (ix2 k j)) (p : Fin A) (j : Fin H) :
    prod X W (ix2 p j) = (prod a Wa (ix2 p j) + prod b Wb (ix2 p j)) + prod e We (ix2 p j) := by
  rw [prod_apply, prod_apply, prod_apply, prod_apply, sum_three]
  congr 1
  · congr 1
    · exact Finset.sum_congr rfl fun k _ => by rw [ha, hWa]
    · exact Finset.sum_congr rfl fun k _ => by rw [hb, hWb]
  · exact Finset.sum_congr rfl fun k _ => by rw [he, hWe]

/-! ## The part after the first product -/

/-- Bias, maximum with zero, second product, second bias, residual. -/
def head {A H M : ℕ} (pre : (⟨2, ![A, H]⟩ : Shape).Idx → EReal) (b1 : (⟨2, ![1, H]⟩ : Shape).Idx → EReal)
    (w2 : (⟨2, ![H, M]⟩ : Shape).Idx → EReal) (b2 : (⟨2, ![1, M]⟩ : Shape).Idx → EReal)
    (r : (⟨2, ![A, M]⟩ : Shape).Idx → EReal) : (⟨2, ![A, M]⟩ : Shape).Idx → EReal :=
  fun i => shift (prod (act pre b1) w2) b2 i + r i

/-- `head` at an entry depends on the first product and the residual only through their row there. -/
theorem head_congr {A A' H M : ℕ} (pre : (⟨2, ![A, H]⟩ : Shape).Idx → EReal) (pre' : (⟨2, ![A', H]⟩ : Shape).Idx → EReal)
    (b1 : (⟨2, ![1, H]⟩ : Shape).Idx → EReal) (w2 : (⟨2, ![H, M]⟩ : Shape).Idx → EReal) (b2 : (⟨2, ![1, M]⟩ : Shape).Idx → EReal)
    (r : (⟨2, ![A, M]⟩ : Shape).Idx → EReal) (r' : (⟨2, ![A', M]⟩ : Shape).Idx → EReal) (p : Fin A) (p' : Fin A') (j : Fin M)
    (hpre : ∀ k : Fin H, pre (ix2 p k) = pre' (ix2 p' k)) (hr : r (ix2 p j) = r' (ix2 p' j)) :
    head pre b1 w2 b2 r (ix2 p j) = head pre' b1 w2 b2 r' (ix2 p' j) := by
  show (∑ k : Fin H, max (pre (ix2 p k) + b1 (ix2 (0 : Fin 1) k)) _ * w2 (ix2 k j)) + b2 (ix2 (0 : Fin 1) j) + r (ix2 p j)
    = (∑ k : Fin H, max (pre' (ix2 p' k) + b1 (ix2 (0 : Fin 1) k)) _ * w2 (ix2 k j)) + b2 (ix2 (0 : Fin 1) j) + r' (ix2 p' j)
  rw [hr]
  congr 2
  exact Finset.sum_congr rfl fun k _ => by rw [hpre k]

/-- The same at indices not written out in coordinates. -/
theorem head_congr_idx {A A' H M : ℕ} (pre : (⟨2, ![A, H]⟩ : Shape).Idx → EReal) (pre' : (⟨2, ![A', H]⟩ : Shape).Idx → EReal)
    (b1 : (⟨2, ![1, H]⟩ : Shape).Idx → EReal) (w2 : (⟨2, ![H, M]⟩ : Shape).Idx → EReal) (b2 : (⟨2, ![1, M]⟩ : Shape).Idx → EReal)
    (r : (⟨2, ![A, M]⟩ : Shape).Idx → EReal) (r' : (⟨2, ![A', M]⟩ : Shape).Idx → EReal)
    (i : (⟨2, ![A, M]⟩ : Shape).Idx) (i' : (⟨2, ![A', M]⟩ : Shape).Idx) (hcol : (i 1 : Fin M) = i' 1)
    (hpre : ∀ k : Fin H, pre (ix2 (i 0 : Fin A) k) = pre' (ix2 (i' 0 : Fin A') k)) (hr : r i = r' i') :
    head pre b1 w2 b2 r i = head pre' b1 w2 b2 r' i' := by
  obtain ⟨p, j, rfl⟩ : ∃ (p : Fin A) (j : Fin M), i = ix2 p j := ⟨i 0, i 1, eq_ix2 i⟩
  obtain ⟨p', j', rfl⟩ : ∃ (p' : Fin A') (j' : Fin M), i' = ix2 p' j' := ⟨i' 0, i' 1, eq_ix2 i'⟩
  obtain rfl : j = j' := hcol
  exact head_congr pre pre' b1 w2 b2 r r' p p' j hpre hr

/-- The first rows of `head` on a taller matrix are `head` of the first rows: cutting the rows [0, A') out of an
    A-row result whose first product and residual agree with shorter ones on those rows. -/
theorem head_slice {A A' H M : ℕ} (pre : (⟨2, ![A, H]⟩ : Shape).Idx → EReal) (pre' : (⟨2, ![A', H]⟩ : Shape).Idx → EReal)
    (b1 : (⟨2, ![1, H]⟩ : Shape).Idx → EReal) (w2 : (⟨2, ![H, M]⟩ : Shape).Idx → EReal) (b2 : (⟨2, ![1, M]⟩ : Shape).Idx → EReal)
    (r : (⟨2, ![A, M]⟩ : Shape).Idx → EReal) (r' : (⟨2, ![A', M]⟩ : Shape).Idx → EReal) (hA : A' ≤ A)
    (h : (⟨2, ![A, M]⟩ : Shape).Slices ![0, 0] ⟨2, ![A', M]⟩)
    (hpre : ∀ (p : Fin A') (k : Fin H), pre (ix2 (⟨p.val, Nat.lt_of_lt_of_le p.isLt hA⟩ : Fin A) k) = pre' (ix2 p k))
    (hr : ∀ (p : Fin A') (j : Fin M), r (ix2 (⟨p.val, Nat.lt_of_lt_of_le p.isLt hA⟩ : Fin A) j) = r' (ix2 p j)) :
    extractStridedSlice ⟨2, ![A', M]⟩ ![0, 0] (head pre b1 w2 b2 r) h = head pre' b1 w2 b2 r' := by
  funext i
  obtain ⟨p, j, rfl⟩ : ∃ (p : Fin A') (j : Fin M), i = ix2 p j := ⟨i 0, i 1, eq_ix2 i⟩
  rw [slice2_axis0_apply 0 _ h p j ⟨p.val, Nat.lt_of_lt_of_le p.isLt hA⟩ (Nat.zero_add _).symm]
  exact head_congr pre pre' b1 w2 b2 r r' _ p j (hpre p) (hr p j)

/-! ## The residual added before or after the rows are re-laid as 14 × 14 blocks -/

/-- Re-laying an [A,196] matrix as [A,14,14] commutes with adding a residual given in the [A,14,14] layout. -/
theorem cast_add {A : ℕ} (S : (⟨2, ![A, 196]⟩ : Shape).Idx → EReal) (r : (⟨3, ![A, 14, 14]⟩ : Shape).Idx → EReal)
    (h1 : (⟨3, ![A, 14, 14]⟩ : Shape).ShapeCasts ⟨2, ![A, 196]⟩) (h2 : (⟨2, ![A, 196]⟩ : Shape).ShapeCasts ⟨3, ![A, 14, 14]⟩) :
    shapeCast ⟨3, ![A, 14, 14]⟩ (fun j => S j + shapeCast ⟨2, ![A, 196]⟩ r h1 j) h2
      = fun i => shapeCast ⟨3, ![A, 14, 14]⟩ S h2 i + r i := by
  funext i
  obtain ⟨n, a, b, rfl⟩ : ∃ (n : Fin A) (a b : Fin 14), i = ix3 n a b := ⟨i 0, i 1, i 2, eq_ix3 i⟩
  have hJ : a.val * 14 + b.val < 196 := by have := a.isLt; have := b.isLt; omega
  have hrm : ((⟨2, ![A, 196]⟩ : Shape).rowMajor (ix2 n (⟨a.val * 14 + b.val, hJ⟩ : Fin 196))).val
      = ((⟨3, ![A, 14, 14]⟩ : Shape).rowMajor (ix3 n a b)).val := by
    rw [Shape.rowMajor_val_two, Shape.rowMajor_val_three]
    show n.val * 196 + (a.val * 14 + b.val) = (n.val * 14 + a.val) * 14 + b.val
    omega
  rw [shapeCast_apply _ h2 (ix3 n a b) (ix2 n (⟨a.val * 14 + b.val, hJ⟩ : Fin 196)) hrm,
    shapeCast_apply S h2 (ix3 n a b) (ix2 n (⟨a.val * 14 + b.val, hJ⟩ : Fin 196)) hrm,
    shapeCast_apply r h1 (ix2 n (⟨a.val * 14 + b.val, hJ⟩ : Fin 196)) (ix3 n a b) hrm.symm]

end Cert.Mlp

end
-- ==== Proof.KSpec.lean ====
/-
  The Hamiltonian layer's result as one function of the fourteen argument arrays, on the extended reals, in the
  order the kernel computes it.

  Atom n's block is the perceptron of (node features of n, edge features of (n, n)) re-laid 14 × 14, plus the atom's
  residual block; pair p's block is the perceptron of (node features of i_p, node features of j_p, edge features of
  (i_p, j_p)) re-laid 14 × 14, plus the pair's residual block.  In both the first layer is the sum of the pieces'
  products with their bands of 64 rows of the first weight matrix.  The blocks are scattered into the zero matrix:
  atom n's at block (n, n), pair p's at block (i_p, j_p) and its transpose at block (j_p, i_p), in that order.
-/
import proofs.«119377_j70162585747873_1_alg».proof.Proof.KHost
import proofs.«119377_j70162585747873_1_alg».proof.Proof.Mlp

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx Cert.Dense Cert.Mlp

/-! ## The atoms -/

/-- The atoms' self-edge features. -/
def selfEdge (x1 : (⟨S800x800x64, .f32⟩ : BufTy).Contents (Elt Ideal)) : S800x64.Idx → EReal :=
  Host.gather gather_S800x800x64_S800x2_S800x64_1_01_n_n_01_1_1164 x1 (selfIdx (F := Ideal))

/-- The first layer's two products for the atoms. -/
def preD (x0 : (⟨S800x64, .f32⟩ : BufTy).Contents (Elt Ideal)) (x1 : (⟨S800x800x64, .f32⟩ : BufTy).Contents (Elt Ideal)) (x4 : (⟨S128x128, .f32⟩ : BufTy).Contents (Elt Ideal)) : S800x128.Idx → EReal := fun i =>
  prod (x0 : S800x64.Idx → EReal) (extractStridedSlice S64x128 ![0, 0] x4 slices_S128x128_S64x128_0_0 : S64x128.Idx → EReal) i
    + prod (selfEdge x1) (extractStridedSlice S64x128 ![64, 0] x4 slices_S128x128_S64x128_64_0 : S64x128.Idx → EReal) i

/-- The atoms' perceptron before the residual, rows of 196. -/
def rowsD (x0 : (⟨S800x64, .f32⟩ : BufTy).Contents (Elt Ideal)) (x1 : (⟨S800x800x64, .f32⟩ : BufTy).Contents (Elt Ideal)) (x4 : (⟨S128x128, .f32⟩ : BufTy).Contents (Elt Ideal)) (x5 : (⟨S128, .f32⟩ : BufTy).Contents (Elt Ideal)) (x6 : (⟨S128x196, .f32⟩ : BufTy).Contents (Elt Ideal)) (x7 : (⟨S196, .f32⟩ : BufTy).Contents (Elt Ideal)) :
    S800x196.Idx → EReal :=
  shift (prod (act (preD x0 x1 x4) (shapeCast S1x128 x5 shapeCasts_S128_S1x128 : S1x128.Idx → EReal)) (x6 : S128x196.Idx → EReal))
    (shapeCast S1x196 x7 shapeCasts_S196_S1x196 : S1x196.Idx → EReal)

/-- The atoms' blocks. -/
def blocksD (x0 : (⟨S800x64, .f32⟩ : BufTy).Contents (Elt Ideal)) (x1 : (⟨S800x800x64, .f32⟩ : BufTy).Contents (Elt Ideal)) (x2 : (⟨S800x14x14, .f32⟩ : BufTy).Contents (Elt Ideal)) (x4 : (⟨S128x128, .f32⟩ : BufTy).Contents (Elt Ideal)) (x5 : (⟨S128, .f32⟩ : BufTy).Contents (Elt Ideal)) (x6 : (⟨S128x196, .f32⟩ : BufTy).Contents (Elt Ideal)) (x7 : (⟨S196, .f32⟩ : BufTy).Contents (Elt Ideal)) :
    (⟨S800x14x14, .f32⟩ : BufTy).Contents (Elt Ideal) :=
  fun i => shapeCast S800x14x14 (rowsD x0 x1 x4 x5 x6 x7) shapeCasts_S800x196_S800x14x14 i + x2 i

/-! ## The pairs -/

/-- The pairs' gathered features: first atom, second atom, edge. -/
def featI (x0 : (⟨S800x64, .f32⟩ : BufTy).Contents (Elt Ideal)) (x12 : (⟨S319600, .i32⟩ : BufTy).Contents (Elt Ideal)) : S319600x64.Idx → EReal := Host.gather gather_S800x64_S319600x1_S319600x64_1_0_n_n_0_1_164 x0 (colIdx (F := Ideal) x12)
def featJ (x0 : (⟨S800x64, .f32⟩ : BufTy).Contents (Elt Ideal)) (x13 : (⟨S319600, .i32⟩ : BufTy).Contents (Elt Ideal)) : S319600x64.Idx → EReal := Host.gather gather_S800x64_S319600x1_S319600x64_1_0_n_n_0_1_164 x0 (colIdx (F := Ideal) x13)
def featE (x1 : (⟨S800x800x64, .f32⟩ : BufTy).Contents (Elt Ideal)) (x12 x13 : (⟨S319600, .i32⟩ : BufTy).Contents (Elt Ideal)) : S319600x64.Idx → EReal := Host.gather gather_S800x800x64_S319600x2_S319600x64_1_01_n_n_01_1_1164 x1 (pairIdx (F := Ideal) x12 x13)

/-- The first layer's three products for the pairs, added from the left. -/
def preO (x0 : (⟨S800x64, .f32⟩ : BufTy).Contents (Elt Ideal)) (x1 : (⟨S800x800x64, .f32⟩ : BufTy).Contents (Elt Ideal)) (x8 : (⟨S192x128, .f32⟩ : BufTy).Contents (Elt Ideal)) (x12 x13 : (⟨S319600, .i32⟩ : BufTy).Contents (Elt Ideal)) :
    (⟨2, ![319600, 128]⟩ : Shape).Idx → EReal := fun i =>
  (prod (featI x0 x12) (extractStridedSlice S64x128 ![0, 0] x8 slices_S192x128_S64x128_0_0 : S64x128.Idx → EReal) i
    + prod (featJ x0 x13) (extractStridedSlice S64x128 ![64, 0] x8 slices_S192x128_S64x128_64_0 : S64x128.Idx → EReal) i)
    + prod (featE x1 x12 x13) (extractStridedSlice S64x128 ![128, 0] x8 slices_S192x128_S64x128_128_0 : S64x128.Idx → EReal) i

/-- The pairs' perceptron before the residual, rows of 196. -/
def rowsO (x0 : (⟨S800x64, .f32⟩ : BufTy).Contents (Elt Ideal)) (x1 : (⟨S800x800x64, .f32⟩ : BufTy).Contents (Elt Ideal)) (x8 : (⟨S192x128, .f32⟩ : BufTy).Contents (Elt Ideal)) (x9 : (⟨S128, .f32⟩ : BufTy).Contents (Elt Ideal)) (x10 : (⟨S128x196, .f32⟩ : BufTy).Contents (Elt Ideal)) (x11 : (⟨S196, .f32⟩ : BufTy).Contents (Elt Ideal))
    (x12 x13 : (⟨S319600, .i32⟩ : BufTy).Contents (Elt Ideal)) : S319600x196.Idx → EReal :=
  shift (prod (act (preO x0 x1 x8 x12 x13) (shapeCast S1x128 x9 shapeCasts_S128_S1x128 : S1x128.Idx → EReal)) (x10 : S128x196.Idx → EReal))
    (shapeCast S1x196 x11 shapeCasts_S196_S1x196 : S1x196.Idx → EReal)

/-- The pairs' blocks. -/
def blocksO (x0 : (⟨S800x64, .f32⟩ : BufTy).Contents (Elt Ideal)) (x1 : (⟨S800x800x64, .f32⟩ : BufTy).Contents (Elt Ideal)) (x3 : (⟨S319600x14x14, .f32⟩ : BufTy).Contents (Elt Ideal)) (x8 : (⟨S192x128, .f32⟩ : BufTy).Contents (Elt Ideal)) (x9 : (⟨S128, .f32⟩ : BufTy).Contents (Elt Ideal)) (x10 : (⟨S128x196, .f32⟩ : BufTy).Contents (Elt Ideal)) (x11 : (⟨S196, .f32⟩ : BufTy).Contents (Elt Ideal))
    (x12 x13 : (⟨S319600, .i32⟩ : BufTy).Contents (Elt Ideal)) : (⟨S319600x14x14, .f32⟩ : BufTy).Contents (Elt Ideal) :=
  fun i => shapeCast S319600x14x14 (rowsO x0 x1 x8 x9 x10 x11 x12 x13) shapeCasts_S319600x196_S319600x14x14 i + x3 i

/-! ## The layer -/

/-- The dense Hamiltonian. -/
def layer (x0 : (⟨S800x64, .f32⟩ : BufTy).Contents (Elt Ideal)) (x1 : (⟨S800x800x64, .f32⟩ : BufTy).Contents (Elt Ideal)) (x2 : (⟨S800x14x14, .f32⟩ : BufTy).Contents (Elt Ideal)) (x3 : (⟨S319600x14x14, .f32⟩ : BufTy).Contents (Elt Ideal)) (x4 : (⟨S128x128, .f32⟩ : BufTy).Contents (Elt Ideal)) (x5 : (⟨S128, .f32⟩ : BufTy).Contents (Elt Ideal))
    (x6 : (⟨S128x196, .f32⟩ : BufTy).Contents (Elt Ideal)) (x7 : (⟨S196, .f32⟩ : BufTy).Contents (Elt Ideal)) (x8 : (⟨S192x128, .f32⟩ : BufTy).Contents (Elt Ideal)) (x9 : (⟨S128, .f32⟩ : BufTy).Contents (Elt Ideal)) (x10 : (⟨S128x196, .f32⟩ : BufTy).Contents (Elt Ideal)) (x11 : (⟨S196, .f32⟩ : BufTy).Contents (Elt Ideal))
    (x12 x13 : (⟨S319600, .i32⟩ : BufTy).Contents (Elt Ideal)) : (⟨S11200x11200, .f32⟩ : BufTy).Contents (Elt Ideal) :=
  assemble (F := Ideal) (blocksD x0 x1 x2 x4 x5 x6 x7) (blocksO x0 x1 x3 x8 x9 x10 x11 x12 x13) x12 x13

end Cert.KernelIdeal.Hand

end
-- ==== Proof.KBlocks.lean ====
/-
  The blocks the two kernels' windows hold, read at an index.

  Region 0 (the per-atom perceptron) runs at one grid point and every window's block is its whole array.  Region 1
  (the per-pair perceptron) runs at 79 points: the three feature windows, the residual window and the output window
  hold rows 4096·t … 4096·t + 4095 of their arrays at point t, and the six weight and bias windows hold their whole
  arrays at every point.  The block indices are decided once over each grid; an entry of a block is then the array's
  entry at block index × block extent + the coordinate inside the block, axis by axis.
-/
import proofs.«119377_j70162585747873_1_alg».proof.Proof.Gen.KernelIdeal.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

variable (V : (c : Dev nD) → (b : Ref sig .tc) → Buf (Elt F) ((c : Thread nD τ).loc b))

theorem hz : (![0, 0] : Fin 2 → Nat) = fun _ => 0 := funext fun a => by fin_cases a <;> rfl

/-! ## Region 0: every block is the whole array -/

/-- All block indices of region 0 are zero. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Window 0's block is its array. -/
theorem iblk0_0 (c : Dev nD) (t : Fin cfg0.N) : (iblk0 V c 0 t : Vec F S800x64 .f32) = V c main_arg0 := by
  have h := idx0 t
  funext x
  unfold iblk0
  rw [View.read_apply]
  show V c main_arg0 _ = V c main_arg0 _
  congr 1
  funext a
  apply Fin.ext
  match a with
  | ⟨0, _⟩ => show win0_0.index t (0 : Fin 2) * 800 + 1 * (x 0).val = (x 0).val; omega
  | ⟨1, _⟩ => show win0_0.index t (1 : Fin 2) * 64 + 1 * (x 1).val = (x 1).val; omega

/-- Window 1's block is its array. -/
theorem iblk0_1 (c : Dev nD) (t : Fin cfg0.N) : (iblk0 V c 1 t : Vec F S800x64 .f32) = V c main_v14 := by
  have h := idx0 t
  funext x
  unfold iblk0
  rw [View.read_apply]
  show V c main_v14 _ = V c main_v14 _
  congr 1
  funext a
  apply Fin.ext
  match a with
  | ⟨0, _⟩ => show win0_1.index t (0 : Fin 2) * 800 + 1 * (x 0).val = (x 0).val; omega
  | ⟨1, _⟩ => show win0_1.index t (1 : Fin 2) * 64 + 1 * (x 1).val = (x 1).val; omega

/-- Window 2's block is its array. -/
theorem iblk0_2 (c : Dev nD) (t : Fin cfg0.N) : (iblk0 V c 2 t : Vec F S64x128 .f32) = V c main_v15 := by
  have h := idx0 t
  funext x
  unfold iblk0
  rw [View.read_apply]
  show V c main_v15 _ = V c main_v15 _
  congr 1
  funext a
  apply Fin.ext
  match a with
  | ⟨0, _⟩ => show win0_2.index t (0 : Fin 2) * 64 + 1 * (x 0).val = (x 0).val; omega
  | ⟨1, _⟩ => show win0_2.index t (1 : Fin 2) * 128 + 1 * (x 1).val = (x 1).val; omega

/-- Window 3's block is its array. -/
theorem iblk0_3 (c : Dev nD) (t : Fin cfg0.N) : (iblk0 V c 3 t : Vec F S64x128 .f32) = V c main_v16 := by
  have h := idx0 t
  funext x
  unfold iblk0
  rw [View.read_apply]
  show V c main_v16 _ = V c main_v16 _
  congr 1
  funext a
  apply Fin.ext
  match a with
  | ⟨0, _⟩ => show win0_3.index t (0 : Fin 2) * 64 + 1 * (x 0).val = (x 0).val; omega
  | ⟨1, _⟩ => show win0_3.index t (1 : Fin 2) * 128 + 1 * (x 1).val = (x 1).val; omega

/-- Window 4's block is its array. -/
theorem iblk0_4 (c : Dev nD) (t : Fin cfg0.N) : (iblk0 V c 4 t : Vec F S1x128 .f32) = V c main_v17 := by
  have h := idx0 t
  funext x
  unfold iblk0
  rw [View.read_apply]
  show V c main_v17 _ = V c main_v17 _
  congr 1
  funext a
  apply Fin.ext
  match a with
  | ⟨0, _⟩ => show win0_4.index t (0 : Fin 2) * 1 + 1 * (x 0).val = (x 0).val; omega
  | ⟨1, _⟩ => show win0_4.index t (1 : Fin 2) * 128 + 1 * (x 1).val = (x 1).val; omega

/-- Window 5's block is its array. -/
theorem iblk0_5 (c : Dev nD) (t : Fin cfg0.N) : (iblk0 V c 5 t : Vec F S128x196 .f32) = V c main_arg6 := by
  have h := idx0 t
  funext x
  unfold iblk0
  rw [View.read_apply]
  show V c main_arg6 _ = V c main_arg6 _
  congr 1
  funext a
  apply Fin.ext
  match a with
  | ⟨0, _⟩ => show win0_5.index t (0 : Fin 2) * 128 + 1 * (x 0).val = (x 0).val; omega
  | ⟨1, _⟩ => show win0_5.index t (1 : Fin 2) * 196 + 1 * (x 1).val = (x 1).val; omega

/-- Window 6's block is its array. -/
theorem iblk0_6 (c : Dev nD) (t : Fin cfg0.N) : (iblk0 V c 6 t : Vec F S1x196 .f32) = V c main_v18 := by
  have h := idx0 t
  funext x
  unfold iblk0
  rw [View.read_apply]
  show V c main_v18 _ = V c main_v18 _
  congr 1
  funext a
  apply Fin.ext
  match a with
  | ⟨0, _⟩ => show win0_6.index t (0 : Fin 2) * 1 + 1 * (x 0).val = (x 0).val; omega
  | ⟨1, _⟩ => show win0_6.index t (1 : Fin 2) * 196 + 1 * (x 1).val = (x 1).val; omega

/-- Window 7's block is its array. -/
theorem iblk0_7 (c : Dev nD) (t : Fin cfg0.N) : (iblk0 V c 7 t : Vec F S800x196 .f32) = V c main_v19 := by
  have h := idx0 t
  funext x
  unfold iblk0
  rw [View.read_apply]
  show V c main_v19 _ = V c main_v19 _
  congr 1
  funext a
  apply Fin.ext
  match a with
  | ⟨0, _⟩ => show win0_7.index t (0 : Fin 2) * 800 + 1 * (x 0).val = (x 0).val; omega
  | ⟨1, _⟩ => show win0_7.index t (1 : Fin 2) * 196 + 1 * (x 1).val = (x 1).val; omega

/-! ## Region 1: row tiles of 4096, and whole weight and bias arrays -/

/-- The block indices of region 1 over its 79 points: the tiled windows move down the rows with the point, the others stay. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_9.index t (0 : Fin 2) = t.val ∧ win1_9.index t (1 : Fin 2) = 0
    ∧ win1_10.index t (0 : Fin 2) = t.val ∧ win1_10.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- Window 3's block is its array, at every point. -/
theorem iblk1_3 (c : Dev nD) (t : Fin cfg1.N) : (iblk1 V c 3 t : Vec F S64x128 .f32) = V c main_v55 := by
  have h := idx1 t
  funext x
  unfold iblk1
  rw [View.read_apply]
  show V c main_v55 _ = V c main_v55 _
  congr 1
  funext a
  apply Fin.ext
  match a with
  | ⟨0, _⟩ => show win1_3.index t (0 : Fin 2) * 64 + 1 * (x 0).val = (x 0).val; omega
  | ⟨1, _⟩ => show win1_3.index t (1 : Fin 2) * 128 + 1 * (x 1).val = (x 1).val; omega

/-- Window 4's block is its array, at every point. -/
theorem iblk1_4 (c : Dev nD) (t : Fin cfg1.N) : (iblk1 V c 4 t : Vec F S64x128 .f32) = V c main_v56 := by
  have h := idx1 t
  funext x
  unfold iblk1
  rw [View.read_apply]
  show V c main_v56 _ = V c main_v56 _
  congr 1
  funext a
  apply Fin.ext
  match a with
  | ⟨0, _⟩ => show win1_4.index t (0 : Fin 2) * 64 + 1 * (x 0).val = (x 0).val; omega
  | ⟨1, _⟩ => show win1_4.index t (1 : Fin 2) * 128 + 1 * (x 1).val = (x 1).val; omega

/-- Window 5's block is its array, at every point. -/
theorem iblk1_5 (c : Dev nD) (t : Fin cfg1.N) : (iblk1 V c 5 t : Vec F S64x128 .f32) = V c main_v57 := by
  have h := idx1 t
  funext x
  unfold iblk1
  rw [View.read_apply]
  show V c main_v57 _ = V c main_v57 _
  congr 1
  funext a
  apply Fin.ext
  match a with
  | ⟨0, _⟩ => show win1_5.index t (0 : Fin 2) * 64 + 1 * (x 0).val = (x 0).val; omega
  | ⟨1, _⟩ => show win1_5.index t (1 : Fin 2) * 128 + 1 * (x 1).val = (x 1).val; omega

/-- Window 6's block is its array, at every point. -/
theorem iblk1_6 (c : Dev nD) (t : Fin cfg1.N) : (iblk1 V c 6 t : Vec F S1x128 .f32) = V c main_v58 := by
  have h := idx1 t
  funext x
  unfold iblk1
  rw [View.read_apply]
  show V c main_v58 _ = V c main_v58 _
  congr 1
  funext a
  apply Fin.ext
  match a with
  | ⟨0, _⟩ => show win1_6.index t (0 : Fin 2) * 1 + 1 * (x 0).val = (x 0).val; omega
  | ⟨1, _⟩ => show win1_6.index t (1 : Fin 2) * 128 + 1 * (x 1).val = (x 1).val; omega

/-- Window 7's block is its array, at every point. -/
theorem iblk1_7 (c : Dev nD) (t : Fin cfg1.N) : (iblk1 V c 7 t : Vec F S128x196 .f32) = V c main_arg10 := by
  have h := idx1 t
  funext x
  unfold iblk1
  rw [View.read_apply]
  show V c main_arg10 _ = V c main_arg10 _
  congr 1
  funext a
  apply Fin.ext
  match a with
  | ⟨0, _⟩ => show win1_7.index t (0 : Fin 2) * 128 + 1 * (x 0).val = (x 0).val; omega
  | ⟨1, _⟩ => show win1_7.index t (1 : Fin 2) * 196 + 1 * (x 1).val = (x 1).val; omega

/-- Window 8's block is its array, at every point. -/
theorem iblk1_8 (c : Dev nD) (t : Fin cfg1.N) : (iblk1 V c 8 t : Vec F S1x196 .f32) = V c main_v59 := by
  have h := idx1 t
  funext x
  unfold iblk1
  rw [View.read_apply]
  show V c main_v59 _ = V c main_v59 _
  congr 1
  funext a
  apply Fin.ext
  match a with
  | ⟨0, _⟩ => show win1_8.index t (0 : Fin 2) * 1 + 1 * (x 0).val = (x 0).val; omega
  | ⟨1, _⟩ => show win1_8.index t (1 : Fin 2) * 196 + 1 * (x 1).val = (x 1).val; omega

/-- Window 0's block at point `t` is rows 4096·t … 4096·t + 4095 of its array. -/
theorem iblk1_0_apply (c : Dev nD) (t : Fin cfg1.N) (x : S4096x64.Idx) (k : S323584x64.Idx)
    (hk0 : (k 0).val = t.val * 4096 + (x 0).val) (hk1 : (k 1).val = (x 1).val) :
    (iblk1 V c 0 t : Vec F S4096x64 .f32) x = (V c main_v51 : S323584x64.Idx → Elt F .f32) k := by
  have h := idx1 t
  unfold iblk1
  rw [View.read_apply]
  show V c main_v51 _ = V c main_v51 _
  congr 1
  funext a
  apply Fin.ext
  match a with
  | ⟨0, _⟩ => show win1_0.index t (0 : Fin 2) * 4096 + 1 * (x 0).val = (k 0).val; omega
  | ⟨1, _⟩ => show win1_0.index t (1 : Fin 2) * 64 + 1 * (x 1).val = (k 1).val; omega

/-- Window 1's block at point `t` is rows 4096·t … 4096·t + 4095 of its array. -/
theorem iblk1_1_apply (c : Dev nD) (t : Fin cfg1.N) (x : S4096x64.Idx) (k : S323584x64.Idx)
    (hk0 : (k 0).val = t.val * 4096 + (x 0).val) (hk1 : (k 1).val = (x 1).val) :
    (iblk1 V c 1 t : Vec F S4096x64 .f32) x = (V c main_v52 : S323584x64.Idx → Elt F .f32) k := by
  have h := idx1 t
  unfold iblk1
  rw [View.read_apply]
  show V c main_v52 _ = V c main_v52 _
  congr 1
  funext a
  apply Fin.ext
  match a with
  | ⟨0, _⟩ => show win1_1.index t (0 : Fin 2) * 4096 + 1 * (x 0).val = (k 0).val; omega
  | ⟨1, _⟩ => show win1_1.index t (1 : Fin 2) * 64 + 1 * (x 1).val = (k 1).val; omega

/-- Window 2's block at point `t` is rows 4096·t … 4096·t + 4095 of its array. -/
theorem iblk1_2_apply (c : Dev nD) (t : Fin cfg1.N) (x : S4096x64.Idx) (k : S323584x64.Idx)
    (hk0 : (k 0).val = t.val * 4096 + (x 0).val) (hk1 : (k 1).val = (x 1).val) :
    (iblk1 V c 2 t : Vec F S4096x64 .f32) x = (V c main_v53 : S323584x64.Idx → Elt F .f32) k := by
  have h := idx1 t
  unfold iblk1
  rw [View.read_apply]
  show V c main_v53 _ = V c main_v53 _
  congr 1
  funext a
  apply Fin.ext
  match a with
  | ⟨0, _⟩ => show win1_2.index t (0 : Fin 2) * 4096 + 1 * (x 0).val = (k 0).val; omega
  | ⟨1, _⟩ => show win1_2.index t (1 : Fin 2) * 64 + 1 * (x 1).val = (k 1).val; omega

/-- Window 9's block at point `t` is rows 4096·t … 4096·t + 4095 of its array. -/
theorem iblk1_9_apply (c : Dev nD) (t : Fin cfg1.N) (x : S4096x196.Idx) (k : S323584x196.Idx)
    (hk0 : (k 0).val = t.val * 4096 + (x 0).val) (hk1 : (k 1).val = (x 1).val) :
    (iblk1 V c 9 t : Vec F S4096x196 .f32) x = (V c main_v54 : S323584x196.Idx → Elt F .f32) k := by
  have h := idx1 t
  unfold iblk1
  rw [View.read_apply]
  show V c main_v54 _ = V c main_v54 _
  congr 1
  funext a
  apply Fin.ext
  match a with
  | ⟨0, _⟩ => show win1_9.index t (0 : Fin 2) * 4096 + 1 * (x 0).val = (k 0).val; omega
  | ⟨1, _⟩ => show win1_9.index t (1 : Fin 2) * 196 + 1 * (x 1).val = (k 1).val; omega

end Cert.KernelIdeal.Hand

end
-- ==== Proof.KRegion0.lean ====
/-
  What the per-atom kernel leaves in its output array.

  The region runs at one grid point, every window's block is its whole array, and the body stores one value that covers
  the whole output block.  So the output array ends at the body's value of the region's input arrays as the region
  finds them.
-/
import proofs.«119377_j70162585747873_1_alg».proof.Proof.KBlocks

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

variable (V : (c : Dev nD) → (b : Ref sig .tc) → Buf (Elt F) ((c : Thread nD τ).loc b))

/-- The body's value of the region's input arrays. -/
def G0 (c : Dev nD) : Buf (Elt F) ((c : Thread nD τ).loc main_v20) :=
  k0_pay1 (V c main_arg0) (V c main_v14) (V c main_v15) (V c main_v16) (V c main_v17) (V c main_arg6) (V c main_v18) (V c main_v19)

/-- What the one point writes back is the one block of `G0`. -/
theorem flushed0 (c : Dev nD) (t : Fin cfg0.N) :
    (dat0 V c).flushed 8 t = ((cfg0.win 8).blk t).view.read (Elt F) (G0 V c) := by
  have h := idx0 t
  show (cfg0.win 8).cut (grid0.coords t) ((dat0 V c).after 8 t) = _
  rw [after0_8]
  unfold out0_8
  rw [View.canon_unit_zero hz]
  simp only [View.ld_unit_zero (S := S800x64) hz, View.ld_unit_zero (S := S64x128) hz, View.ld_unit_zero (S := S1x128) hz,
    View.ld_unit_zero (S := S128x196) hz, View.ld_unit_zero (S := S1x196) hz, View.ld_unit_zero (S := S800x196) hz]
  rw [iblk0_0, iblk0_1, iblk0_2, iblk0_3, iblk0_4, iblk0_5, iblk0_6, iblk0_7]
  funext j
  show G0 V c j = G0 V c (((cfg0.win 8).blk t).view.emb j)
  congr 1
  funext a
  apply Fin.ext
  match a with
  | ⟨0, _⟩ => show (j 0).val = win0_8.index t (0 : Fin 2) * 800 + 1 * (j 0).val; omega
  | ⟨1, _⟩ => show (j 1).val = win0_8.index t (1 : Fin 2) * 196 + 1 * (j 1).val; omega

/-- The one block covers the array. -/
theorem cover0 (i : S800x196.Idx) : ∃ t : Fin cfg0.N, (cfg0.win 8).flush t = true ∧ i ∈ ((cfg0.win 8).blk t).view.set := by
  refine ⟨t0_0, flush0_8 t0_0, ?_⟩
  have h := idx0 t0_0
  show i ∈ ((View.whole main_v20).slice (win0_8.rect t0_0)).set
  rw [View.set_slice_whole, Rect.mem_set_unit]
  intro a
  have h0 : (i 0).val < 800 := (i 0).isLt
  have h1 : (i 1).val < 196 := (i 1).isLt
  match a with
  | ⟨0, _⟩ => show win0_8.index t0_0 (0 : Fin 2) * 800 ≤ (i 0).val ∧ (i 0).val < win0_8.index t0_0 (0 : Fin 2) * 800 + 800; omega
  | ⟨1, _⟩ => show win0_8.index t0_0 (1 : Fin 2) * 196 ≤ (i 1).val ∧ (i 1).val < win0_8.index t0_0 (1 : Fin 2) * 196 + 196; omega

/-- The output array after the region. -/
theorem final0 (c : Dev nD) : (dat0 V c).arrAt 8 cfg0.N = G0 V c :=
  (dat0 V c).arrAt_eq_of_cover 8 (G0 V c) (fun t _ => flushed0 V c t) cover0

end Cert.KernelIdeal.Hand

end
-- ==== Proof.KPayload.lean ====
/-
  What the two kernel bodies compute, on the extended reals.

  Each body is a two-layer perceptron on the rows of its tile: the feature pieces are multiplied by their bands of the
  first weight matrix on the matrix unit, each into a zero accumulator, and the products added; the bias row is spread
  down the rows and added; the maximum with zero is taken; the result is multiplied by the second weight matrix, the
  second bias row added and the residual block added.  On the extended reals a change of float format is the
  identity and a product into a zero accumulator is the plain matrix product, so each body is `Cert.Mlp.head` of the
  sum of its first products.
-/
import proofs.«119377_j70162585747873_1_alg».proof.Proof.Gen.KernelIdeal.Skeleton
import proofs.«119377_j70162585747873_1_alg».proof.Proof.Mlp

noncomputable section

namespace Cert.KernelIdeal.Hand

open Cert.KernelIdeal Cert.KernelIdeal.Gen
open Idealize.ShloMosaic Idealize.ShloMosaic.ValueIdx Cert.Dense Cert.RowBlocks Cert.Mlp

/-! ## The four matrix-unit records -/

theorem dot_S800x64_S64x128_S800x128_1_0_0_1_n_n_l0 (i : _) (q : dot_S800x64_S64x128_S800x128_1_0_0_1_n_n.contr.Idx) : (dot_S800x64_S64x128_S800x128_1_0_0_1_n_n.lhsIdx i q 0).val = (i 0).val := by
  unfold DotDims.lhsIdx
  rw [dif_neg (show ¬(0 : Fin S800x64.rank) ∈ dot_S800x64_S64x128_S800x128_1_0_0_1_n_n.lhsBatch by decide), dif_pos (show (0 : Fin S800x64.rank) ∈ dot_S800x64_S64x128_S800x128_1_0_0_1_n_n.lhsNonContracting by decide)]
  rfl
theorem dot_S800x64_S64x128_S800x128_1_0_0_1_n_n_l1 (i : _) (q : dot_S800x64_S64x128_S800x128_1_0_0_1_n_n.contr.Idx) : (dot_S800x64_S64x128_S800x128_1_0_0_1_n_n.lhsIdx i q 1).val = (q ⟨0, by decide⟩).val :=
  dot_S800x64_S64x128_S800x128_1_0_0_1_n_n.lhsIdx_val_of_single rfl i q
theorem dot_S800x64_S64x128_S800x128_1_0_0_1_n_n_r0 (i : _) (q : dot_S800x64_S64x128_S800x128_1_0_0_1_n_n.contr.Idx) : (dot_S800x64_S64x128_S800x128_1_0_0_1_n_n.rhsIdx i q 0).val = (q ⟨0, by decide⟩).val :=
  dot_S800x64_S64x128_S800x128_1_0_0_1_n_n.rhsIdx_val_of_single rfl i q
theorem dot_S800x64_S64x128_S800x128_1_0_0_1_n_n_r1 (i : _) (q : dot_S800x64_S64x128_S800x128_1_0_0_1_n_n.contr.Idx) : (dot_S800x64_S64x128_S800x128_1_0_0_1_n_n.rhsIdx i q 1).val = (i 1).val := by
  unfold DotDims.rhsIdx
  rw [dif_neg (show ¬(1 : Fin S64x128.rank) ∈ dot_S800x64_S64x128_S800x128_1_0_0_1_n_n.rhsBatch by decide), dif_pos (show (1 : Fin S64x128.rank) ∈ dot_S800x64_S64x128_S800x128_1_0_0_1_n_n.rhsNonContracting by decide)]
  rfl
/-- The matrix unit's product into a zero accumulator, for this record, is the matrix product. -/
theorem dot_S800x64_S64x128_S800x128_1_0_0_1_n_n_mm {φ₁ φ₂ : FTy} (l : FVec Ideal S800x64 φ₁) (r : FVec Ideal S64x128 φ₂) :
    matmul dot_S800x64_S64x128_S800x128_1_0_0_1_n_n none l r (constant _ .f32 0x00000000#32) = prod l r :=
  matmul_zero_eq_prod dot_S800x64_S64x128_S800x128_1_0_0_1_n_n rfl rfl dot_S800x64_S64x128_S800x128_1_0_0_1_n_n_l0 dot_S800x64_S64x128_S800x128_1_0_0_1_n_n_l1 dot_S800x64_S64x128_S800x128_1_0_0_1_n_n_r0 dot_S800x64_S64x128_S800x128_1_0_0_1_n_n_r1 none l r

theorem dot_S800x128_S128x196_S800x196_1_0_0_1_n_n_l0 (i : _) (q : dot_S800x128_S128x196_S800x196_1_0_0_1_n_n.contr.Idx) : (dot_S800x128_S128x196_S800x196_1_0_0_1_n_n.lhsIdx i q 0).val = (i 0).val := by
  unfold DotDims.lhsIdx
  rw [dif_neg (show ¬(0 : Fin S800x128.rank) ∈ dot_S800x128_S128x196_S800x196_1_0_0_1_n_n.lhsBatch by decide), dif_pos (show (0 : Fin S800x128.rank) ∈ dot_S800x128_S128x196_S800x196_1_0_0_1_n_n.lhsNonContracting by decide)]
  rfl
theorem dot_S800x128_S128x196_S800x196_1_0_0_1_n_n_l1 (i : _) (q : dot_S800x128_S128x196_S800x196_1_0_0_1_n_n.contr.Idx) : (dot_S800x128_S128x196_S800x196_1_0_0_1_n_n.lhsIdx i q 1).val = (q ⟨0, by decide⟩).val :=
  dot_S800x128_S128x196_S800x196_1_0_0_1_n_n.lhsIdx_val_of_single rfl i q
theorem dot_S800x128_S128x196_S800x196_1_0_0_1_n_n_r0 (i : _) (q : dot_S800x128_S128x196_S800x196_1_0_0_1_n_n.contr.Idx) : (dot_S800x128_S128x196_S800x196_1_0_0_1_n_n.rhsIdx i q 0).val = (q ⟨0, by decide⟩).val :=
  dot_S800x128_S128x196_S800x196_1_0_0_1_n_n.rhsIdx_val_of_single rfl i q
theorem dot_S800x128_S128x196_S800x196_1_0_0_1_n_n_r1 (i : _) (q : dot_S800x128_S128x196_S800x196_1_0_0_1_n_n.contr.Idx) : (dot_S800x128_S128x196_S800x196_1_0_0_1_n_n.rhsIdx i q 1).val = (i 1).val := by
  unfold DotDims.rhsIdx
  rw [dif_neg (show ¬(1 : Fin S128x196.rank) ∈ dot_S800x128_S128x196_S800x196_1_0_0_1_n_n.rhsBatch by decide), dif_pos (show (1 : Fin S128x196.rank) ∈ dot_S800x128_S128x196_S800x196_1_0_0_1_n_n.rhsNonContracting by decide)]
  rfl
/-- The matrix unit's product into a zero accumulator, for this record, is the matrix product. -/
theorem dot_S800x128_S128x196_S800x196_1_0_0_1_n_n_mm {φ₁ φ₂ : FTy} (l : FVec Ideal S800x128 φ₁) (r : FVec Ideal S128x196 φ₂) :
    matmul dot_S800x128_S128x196_S800x196_1_0_0_1_n_n none l r (constant _ .f32 0x00000000#32) = prod l r :=
  matmul_zero_eq_prod dot_S800x128_S128x196_S800x196_1_0_0_1_n_n rfl rfl dot_S800x128_S128x196_S800x196_1_0_0_1_n_n_l0 dot_S800x128_S128x196_S800x196_1_0_0_1_n_n_l1 dot_S800x128_S128x196_S800x196_1_0_0_1_n_n_r0 dot_S800x128_S128x196_S800x196_1_0_0_1_n_n_r1 none l r

theorem dot_S4096x64_S64x128_S4096x128_1_0_0_1_n_n_l0 (i : _) (q : dot_S4096x64_S64x128_S4096x128_1_0_0_1_n_n.contr.Idx) : (dot_S4096x64_S64x128_S4096x128_1_0_0_1_n_n.lhsIdx i q 0).val = (i 0).val := by
  unfold DotDims.lhsIdx
  rw [dif_neg (show ¬(0 : Fin S4096x64.rank) ∈ dot_S4096x64_S64x128_S4096x128_1_0_0_1_n_n.lhsBatch by decide), dif_pos (show (0 : Fin S4096x64.rank) ∈ dot_S4096x64_S64x128_S4096x128_1_0_0_1_n_n.lhsNonContracting by decide)]
  rfl
theorem dot_S4096x64_S64x128_S4096x128_1_0_0_1_n_n_l1 (i : _) (q : dot_S4096x64_S64x128_S4096x128_1_0_0_1_n_n.contr.Idx) : (dot_S4096x64_S64x128_S4096x128_1_0_0_1_n_n.lhsIdx i q 1).val = (q ⟨0, by decide⟩).val :=
  dot_S4096x64_S64x128_S4096x128_1_0_0_1_n_n.lhsIdx_val_of_single rfl i q
theorem dot_S4096x64_S64x128_S4096x128_1_0_0_1_n_n_r0 (i : _) (q : dot_S4096x64_S64x128_S4096x128_1_0_0_1_n_n.contr.Idx) : (dot_S4096x64_S64x128_S4096x128_1_0_0_1_n_n.rhsIdx i q 0).val = (q ⟨0, by decide⟩).val :=
  dot_S4096x64_S64x128_S4096x128_1_0_0_1_n_n.rhsIdx_val_of_single rfl i q
theorem dot_S4096x64_S64x128_S4096x128_1_0_0_1_n_n_r1 (i : _) (q : dot_S4096x64_S64x128_S4096x128_1_0_0_1_n_n.contr.Idx) : (dot_S4096x64_S64x128_S4096x128_1_0_0_1_n_n.rhsIdx i q 1).val = (i 1).val := by
  unfold DotDims.rhsIdx
  rw [dif_neg (show ¬(1 : Fin S64x128.rank) ∈ dot_S4096x64_S64x128_S4096x128_1_0_0_1_n_n.rhsBatch by decide), dif_pos (show (1 : Fin S64x128.rank) ∈ dot_S4096x64_S64x128_S4096x128_1_0_0_1_n_n.rhsNonContracting by decide)]
  rfl
/-- The matrix unit's product into a zero accumulator, for this record, is the matrix product. -/
theorem dot_S4096x64_S64x128_S4096x128_1_0_0_1_n_n_mm {φ₁ φ₂ : FTy} (l : FVec Ideal S4096x64 φ₁) (r : FVec Ideal S64x128 φ₂) :
    matmul dot_S4096x64_S64x128_S4096x128_1_0_0_1_n_n none l r (constant _ .f32 0x00000000#32) = prod l r :=
  matmul_zero_eq_prod dot_S4096x64_S64x128_S4096x128_1_0_0_1_n_n rfl rfl dot_S4096x64_S64x128_S4096x128_1_0_0_1_n_n_l0 dot_S4096x64_S64x128_S4096x128_1_0_0_1_n_n_l1 dot_S4096x64_S64x128_S4096x128_1_0_0_1_n_n_r0 dot_S4096x64_S64x128_S4096x128_1_0_0_1_n_n_r1 none l r

theorem dot_S4096x128_S128x196_S4096x196_1_0_0_1_n_n_l0 (i : _) (q : dot_S4096x128_S128x196_S4096x196_1_0_0_1_n_n.contr.Idx) : (dot_S4096x128_S128x196_S4096x196_1_0_0_1_n_n.lhsIdx i q 0).val = (i 0).val := by
  unfold DotDims.lhsIdx
  rw [dif_neg (show ¬(0 : Fin S4096x128.rank) ∈ dot_S4096x128_S128x196_S4096x196_1_0_0_1_n_n.lhsBatch by decide), dif_pos (show (0 : Fin S4096x128.rank) ∈ dot_S4096x128_S128x196_S4096x196_1_0_0_1_n_n.lhsNonContracting by decide)]
  rfl
theorem dot_S4096x128_S128x196_S4096x196_1_0_0_1_n_n_l1 (i : _) (q : dot_S4096x128_S128x196_S4096x196_1_0_0_1_n_n.contr.Idx) : (dot_S4096x128_S128x196_S4096x196_1_0_0_1_n_n.lhsIdx i q 1).val = (q ⟨0, by decide⟩).val :=
  dot_S4096x128_S128x196_S4096x196_1_0_0_1_n_n.lhsIdx_val_of_single rfl i q
theorem dot_S4096x128_S128x196_S4096x196_1_0_0_1_n_n_r0 (i : _) (q : dot_S4096x128_S128x196_S4096x196_1_0_0_1_n_n.contr.Idx) : (dot_S4096x128_S128x196_S4096x196_1_0_0_1_n_n.rhsIdx i q 0).val = (q ⟨0, by decide⟩).val :=
  dot_S4096x128_S128x196_S4096x196_1_0_0_1_n_n.rhsIdx_val_of_single rfl i q
theorem dot_S4096x128_S128x196_S4096x196_1_0_0_1_n_n_r1 (i : _) (q : dot_S4096x128_S128x196_S4096x196_1_0_0_1_n_n.contr.Idx) : (dot_S4096x128_S128x196_S4096x196_1_0_0_1_n_n.rhsIdx i q 1).val = (i 1).val := by
  unfold DotDims.rhsIdx
  rw [dif_neg (show ¬(1 : Fin S128x196.rank) ∈ dot_S4096x128_S128x196_S4096x196_1_0_0_1_n_n.rhsBatch by decide), dif_pos (show (1 : Fin S128x196.rank) ∈ dot_S4096x128_S128x196_S4096x196_1_0_0_1_n_n.rhsNonContracting by decide)]
  rfl
/-- The matrix unit's product into a zero accumulator, for this record, is the matrix product. -/
theorem dot_S4096x128_S128x196_S4096x196_1_0_0_1_n_n_mm {φ₁ φ₂ : FTy} (l : FVec Ideal S4096x128 φ₁) (r : FVec Ideal S128x196 φ₂) :
    matmul dot_S4096x128_S128x196_S4096x196_1_0_0_1_n_n none l r (constant _ .f32 0x00000000#32) = prod l r :=
  matmul_zero_eq_prod dot_S4096x128_S128x196_S4096x196_1_0_0_1_n_n rfl rfl dot_S4096x128_S128x196_S4096x196_1_0_0_1_n_n_l0 dot_S4096x128_S128x196_S4096x196_1_0_0_1_n_n_l1 dot_S4096x128_S128x196_S4096x196_1_0_0_1_n_n_r0 dot_S4096x128_S128x196_S4096x196_1_0_0_1_n_n_r1 none l r

/-! ## The bodies -/

/-- A change of float format is the identity on the extended reals. -/
theorem truncf_id {s : Shape} {φ ψ : FTy} (a : FVec Ideal s φ) (h : ψ.bits < φ.bits) : (truncf ψ a h : FVec Ideal s ψ) = a := rfl

/-- The per-atom body: two feature pieces. -/
theorem diag_body (x0 x1 : S800x64.Idx → EReal) (x2 x3 : S64x128.Idx → EReal) (x4 : S1x128.Idx → EReal)
    (x5 : S128x196.Idx → EReal) (x6 : S1x196.Idx → EReal) (x7 : S800x196.Idx → EReal) :
    k0_pay1 (F := Ideal) x0 x1 x2 x3 x4 x5 x6 x7 = head (fun i => prod x0 x2 i + prod x1 x3 i) x4 x5 x6 x7 := by
  unfold k0_pay1
  simp only [truncf_id]
  rw [act_plain, shift_plain]
  simp only [shapeCast_self]
  rw [dot_S800x64_S64x128_S800x128_1_0_0_1_n_n_mm, dot_S800x64_S64x128_S800x128_1_0_0_1_n_n_mm,
    dot_S800x128_S128x196_S800x196_1_0_0_1_n_n_mm]
  rfl

/-- The per-pair body: three feature pieces, the products added from the left. -/
theorem offdiag_body (x0 x1 x2 : S4096x64.Idx → EReal) (x3 x4 x5 : S64x128.Idx → EReal) (x6 : S1x128.Idx → EReal)
    (x7 : S128x196.Idx → EReal) (x8 : S1x196.Idx → EReal) (x9 : S4096x196.Idx → EReal) :
    k1_pay1 (F := Ideal) (k1_pay2 (F := Ideal) x0 x1 x2 x3 x4 x5 x6 x7) (k1_pay3 (F := Ideal) x8) x9
      = head (fun i => (prod x0 x3 i + prod x1 x4 i) + prod x2 x5 i) x6 x7 x8 x9 := by
  unfold k1_pay1 k1_pay2 k1_pay3
  simp only [truncf_id]
  rw [act_plain, shift_plain]
  simp only [shapeCast_self]
  rw [dot_S4096x64_S64x128_S4096x128_1_0_0_1_n_n_mm, dot_S4096x64_S64x128_S4096x128_1_0_0_1_n_n_mm,
    dot_S4096x64_S64x128_S4096x128_1_0_0_1_n_n_mm, dot_S4096x128_S128x196_S4096x196_1_0_0_1_n_n_mm]
  rfl

end Cert.KernelIdeal.Hand

end
-- ==== Proof.KRegion1.lean ====
/-
  What the per-pair kernel leaves in its output array.

  The region runs at 79 grid points.  At point t the body reads rows 4096·t … 4096·t + 4095 of the three padded feature
  arrays and of the padded residual array, and the whole weight and bias arrays, and stores one value covering its
  output block, rows 4096·t … 4096·t + 4095 of the output array.  The body is a perceptron applied row by row, so the
  value of a tile is the tile of the value: the output array ends at the perceptron of the whole padded arrays.
-/
import proofs.«119377_j70162585747873_1_alg».proof.Proof.KBlocks
import proofs.«119377_j70162585747873_1_alg».proof.Proof.KPayload

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx Cert.Dense Cert.Mlp
variable {F : FTy → Type} [FloatOps F]

variable (V : (c : Dev nD) → (b : Ref sig .tc) → Buf (Elt Ideal) ((c : Thread nD τ).loc b))

/-- The first layer's products on the whole padded feature arrays, added from the left. -/
def pre1 (c : Dev nD) : (⟨2, ![323584, 128]⟩ : Shape).Idx → EReal := fun i =>
  (prod (V c main_v51 : S323584x64.Idx → EReal) (V c main_v55 : S64x128.Idx → EReal) i
    + prod (V c main_v52 : S323584x64.Idx → EReal) (V c main_v56 : S64x128.Idx → EReal) i)
    + prod (V c main_v53 : S323584x64.Idx → EReal) (V c main_v57 : S64x128.Idx → EReal) i

/-- The perceptron of the whole padded arrays. -/
def G1 (c : Dev nD) : Buf (Elt Ideal) ((c : Thread nD τ).loc main_v60) :=
  head (pre1 V c) (V c main_v58 : S1x128.Idx → EReal) (V c main_arg10 : S128x196.Idx → EReal) (V c main_v59 : S1x196.Idx → EReal)
    (V c main_v54 : S323584x196.Idx → EReal)

/-- Row `r` of the first layer's products on the tile at point `t` is row 4096·t + r of the products on the whole arrays. -/
theorem pre_tile (c : Dev nD) (t : Fin cfg1.N) (r : Fin 4096) (R : Fin 323584) (hR : R.val = t.val * 4096 + r.val) (k : Fin 128) :
    (prod (iblk1 V c 0 t : S4096x64.Idx → EReal) (V c main_v55 : S64x128.Idx → EReal) (ix2 r k)
        + prod (iblk1 V c 1 t : S4096x64.Idx → EReal) (V c main_v56 : S64x128.Idx → EReal) (ix2 r k))
      + prod (iblk1 V c 2 t : S4096x64.Idx → EReal) (V c main_v57 : S64x128.Idx → EReal) (ix2 r k)
      = pre1 V c (ix2 R k) := by
  unfold pre1
  rw [prod_apply, prod_apply, prod_apply, prod_apply, prod_apply, prod_apply]
  congr 1
  · congr 1
    · exact Finset.sum_congr rfl fun q _ => by rw [iblk1_0_apply V c t (ix2 r q) (ix2 R q) hR rfl]
    · exact Finset.sum_congr rfl fun q _ => by rw [iblk1_1_apply V c t (ix2 r q) (ix2 R q) hR rfl]
  · exact Finset.sum_congr rfl fun q _ => by rw [iblk1_2_apply V c t (ix2 r q) (ix2 R q) hR rfl]

/-- What point `t` writes back is block `t` of `G1`. -/
theorem flushed1 (c : Dev nD) (t : Fin cfg1.N) :
    (dat1 V c).flushed 10 t = ((cfg1.win 10).blk t).view.read (Elt Ideal) (G1 V c) := by
  have h := idx1 t
  show (cfg1.win 10).cut (grid1.coords t) ((dat1 V c).after 10 t) = _
  rw [after1_10]
  unfold out1_10
  rw [View.canon_unit_zero hz]
  simp only [View.ld_unit_zero (S := S4096x64) hz, View.ld_unit_zero (S := S64x128) hz, View.ld_unit_zero (S := S1x128) hz,
    View.ld_unit_zero (S := S128x196) hz, View.ld_unit_zero (S := S1x196) hz, View.ld_unit_zero (S := S4096x196) hz]
  rw [iblk1_3, iblk1_4, iblk1_5, iblk1_6, iblk1_7, iblk1_8]
  funext j
  show (k1_pay1 (k1_pay2 (iblk1 V c 0 t) (iblk1 V c 1 t) (iblk1 V c 2 t) (V c main_v55) (V c main_v56) (V c main_v57) (V c main_v58) (V c main_arg10))
      (k1_pay3 (V c main_v59)) (iblk1 V c 9 t) : S4096x196.Idx → EReal) j = G1 V c (((cfg1.win 10).blk t).view.emb j)
  refine (congrFun (offdiag_body (iblk1 V c 0 t) (iblk1 V c 1 t) (iblk1 V c 2 t) (V c main_v55) (V c main_v56) (V c main_v57)
    (V c main_v58) (V c main_arg10) (V c main_v59) (iblk1 V c 9 t)) j).trans ?_
  have e0 : ((((cfg1.win 10).blk t).view.emb j : S323584x196.Idx) 0).val = t.val * 4096 + (j 0).val := by
    show win1_10.index t (0 : Fin 2) * 4096 + 1 * (j 0).val = _; omega
  have e1 : ((((cfg1.win 10).blk t).view.emb j : S323584x196.Idx) 1).val = (j 1).val := by
    show win1_10.index t (1 : Fin 2) * 196 + 1 * (j 1).val = _; omega
  exact head_congr_idx _ (pre1 V c) _ _ _ _ _ (j : S4096x196.Idx) (((cfg1.win 10).blk t).view.emb j : S323584x196.Idx) (Fin.ext e1.symm)
    (fun k => pre_tile V c t (j 0) ((((cfg1.win 10).blk t).view.emb j : S323584x196.Idx) 0) e0 k) (iblk1_9_apply V c t j _ e0 e1)

/-- The 79 blocks cover the array: row r is in block r / 4096. -/
theorem cover1 (i : S323584x196.Idx) : ∃ t : Fin cfg1.N, (cfg1.win 10).flush t = true ∧ i ∈ ((cfg1.win 10).blk t).view.set := by
  have h0 : (i 0).val < 323584 := (i 0).isLt
  have h1 : (i 1).val < 196 := (i 1).isLt
  have hN : grid1.N = 79 := N_1
  let t : Fin cfg1.N := ⟨(i 0).val / 4096, by show (i 0).val / 4096 < grid1.N; omega⟩
  have h := idx1 t
  have ht : t.val = (i 0).val / 4096 := rfl
  refine ⟨t, flush1_10 t, ?_⟩
  show i ∈ ((View.whole main_v60).slice (win1_10.rect t)).set
  rw [View.set_slice_whole, Rect.mem_set_unit]
  intro a
  match a with
  | ⟨0, _⟩ => show win1_10.index t (0 : Fin 2) * 4096 ≤ (i 0).val ∧ (i 0).val < win1_10.index t (0 : Fin 2) * 4096 + 4096; omega
  | ⟨1, _⟩ => show win1_10.index t (1 : Fin 2) * 196 ≤ (i 1).val ∧ (i 1).val < win1_10.index t (1 : Fin 2) * 196 + 196; omega

/-- The output array after the region. -/
theorem final1 (c : Dev nD) : (dat1 V c).arrAt 10 cfg1.N = G1 V c :=
  (dat1 V c).arrAt_eq_of_cover 10 (G1 V c) (fun t _ => flushed1 V c t) cover1

end Cert.KernelIdeal.Hand

end
-- ==== Proof.KValue.lean ====
/-
  The idealized kernel's result as one function of the argument arrays.

  The fold of the memory through @main is read back from its end: the last host stretch assembles the result from the
  two regions' output arrays; each region's output array is the perceptron of the arrays the region was entered with;
  those are host terms of the argument arrays, which no stretch and no region writes.  The atoms' blocks come out as
  the perceptron's rows re-laid as 14 × 14 blocks plus the atoms' residual blocks; the pairs' blocks likewise, the
  3984 padding rows cut off again — a row of the perceptron depends only on that row of its inputs, so the rows kept
  are the perceptron of the unpadded gathered features.
-/
import proofs.«119377_j70162585747873_1_alg».proof.Proof.KSpec
import proofs.«119377_j70162585747873_1_alg».proof.Proof.KRegion0
import proofs.«119377_j70162585747873_1_alg».proof.Proof.KRegion1

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx Cert.Dense Cert.Mlp

variable (m : (ℓ : Loc nD τ sig) → Buf (Elt Ideal) ℓ) (ρ : Dev nD → PrngReg) (c : Dev nD)

/-! ## The argument arrays at the boundaries -/

theorem W2_arg0 : W2 m ρ c (Proc.devRef .tc main_arg0) = (m ((c : Thread nD τ).loc main_arg0)) :=
  ((W2_arr m ρ c 0).trans (((dat0 (V1 m ρ) c).arrAt_in 0 rfl _).trans (A_eq0 (V1 m ρ) c 0))).trans (head_arg0 (W0 m ρ c))

theorem W2_arg1 : W2 m ρ c (Proc.devRef .tc main_arg1) = (m ((c : Thread nD τ).loc main_arg1)) :=
  (W2_of_ne m ρ c main_arg1 (by decide)).trans (head_arg1 (W0 m ρ c))

theorem W2_arg2 : W2 m ρ c (Proc.devRef .tc main_arg2) = (m ((c : Thread nD τ).loc main_arg2)) :=
  (W2_of_ne m ρ c main_arg2 (by decide)).trans (head_arg2 (W0 m ρ c))

theorem W2_arg3 : W2 m ρ c (Proc.devRef .tc main_arg3) = (m ((c : Thread nD τ).loc main_arg3)) :=
  (W2_of_ne m ρ c main_arg3 (by decide)).trans (head_arg3 (W0 m ρ c))

theorem W2_arg4 : W2 m ρ c (Proc.devRef .tc main_arg4) = (m ((c : Thread nD τ).loc main_arg4)) :=
  (W2_of_ne m ρ c main_arg4 (by decide)).trans (head_arg4 (W0 m ρ c))

theorem W2_arg5 : W2 m ρ c (Proc.devRef .tc main_arg5) = (m ((c : Thread nD τ).loc main_arg5)) :=
  (W2_of_ne m ρ c main_arg5 (by decide)).trans (head_arg5 (W0 m ρ c))

theorem W2_arg6 : W2 m ρ c (Proc.devRef .tc main_arg6) = (m ((c : Thread nD τ).loc main_arg6)) :=
  ((W2_arr m ρ c 5).trans (((dat0 (V1 m ρ) c).arrAt_in 5 rfl _).trans (A_eq0 (V1 m ρ) c 5))).trans (head_arg6 (W0 m ρ c))

theorem W2_arg7 : W2 m ρ c (Proc.devRef .tc main_arg7) = (m ((c : Thread nD τ).loc main_arg7)) :=
  (W2_of_ne m ρ c main_arg7 (by decide)).trans (head_arg7 (W0 m ρ c))

theorem W2_arg8 : W2 m ρ c (Proc.devRef .tc main_arg8) = (m ((c : Thread nD τ).loc main_arg8)) :=
  (W2_of_ne m ρ c main_arg8 (by decide)).trans (head_arg8 (W0 m ρ c))

theorem W2_arg9 : W2 m ρ c (Proc.devRef .tc main_arg9) = (m ((c : Thread nD τ).loc main_arg9)) :=
  (W2_of_ne m ρ c main_arg9 (by decide)).trans (head_arg9 (W0 m ρ c))

theorem W2_arg10 : W2 m ρ c (Proc.devRef .tc main_arg10) = (m ((c : Thread nD τ).loc main_arg10)) :=
  (W2_of_ne m ρ c main_arg10 (by decide)).trans (head_arg10 (W0 m ρ c))

theorem W2_arg11 : W2 m ρ c (Proc.devRef .tc main_arg11) = (m ((c : Thread nD τ).loc main_arg11)) :=
  (W2_of_ne m ρ c main_arg11 (by decide)).trans (head_arg11 (W0 m ρ c))

theorem W2_arg12 : W2 m ρ c (Proc.devRef .tc main_arg12) = (m ((c : Thread nD τ).loc main_arg12)) :=
  (W2_of_ne m ρ c main_arg12 (by decide)).trans (head_arg12 (W0 m ρ c))

theorem W2_arg13 : W2 m ρ c (Proc.devRef .tc main_arg13) = (m ((c : Thread nD τ).loc main_arg13)) :=
  (W2_of_ne m ρ c main_arg13 (by decide)).trans (head_arg13 (W0 m ρ c))

theorem W2_v0 : W2 m ρ c (Proc.devRef .tc main_v0) = iotaInDim S800 32 0 :=
  (W2_of_ne m ρ c main_v0 (by decide)).trans (head_v0 (W0 m ρ c))

theorem W12_arg12 : W12 m ρ c (Proc.devRef .tc main_arg12) = (m ((c : Thread nD τ).loc main_arg12)) :=
  (W12_of_ne m ρ c main_arg12 (by decide)).trans ((mid_arg12 (W2 m ρ c)).trans (W2_arg12 m ρ c))

theorem W12_arg13 : W12 m ρ c (Proc.devRef .tc main_arg13) = (m ((c : Thread nD τ).loc main_arg13)) :=
  (W12_of_ne m ρ c main_arg13 (by decide)).trans ((mid_arg13 (W2 m ρ c)).trans (W2_arg13 m ρ c))

theorem W12_v0 : W12 m ρ c (Proc.devRef .tc main_v0) = iotaInDim S800 32 0 :=
  (W12_of_ne m ρ c main_v0 (by decide)).trans ((mid_v0 (W2 m ρ c)).trans (W2_v0 m ρ c))

/-! ## The first region -/

/-- The first region's output array. -/
theorem region0_out : W2 m ρ c (Proc.devRef .tc main_v20)
    = fun j => rowsD (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) j + (shapeCast S800x196 (m ((c : Thread nD τ).loc main_arg2)) shapeCasts_S800x14x14_S800x196 : S800x196.Idx → EReal) j := by
  refine ((W2_arr m ρ c 8).trans (final0 (V1 m ρ) c)).trans ?_
  unfold G0
  rw [show V1 m ρ c main_arg0 = (m ((c : Thread nD τ).loc main_arg0)) from head_arg0 (W0 m ρ c), show V1 m ρ c main_v14 = selfEdge (m ((c : Thread nD τ).loc main_arg1)) from head_v14 (W0 m ρ c),
    show V1 m ρ c main_v15 = _ from head_v15 (W0 m ρ c), show V1 m ρ c main_v16 = _ from head_v16 (W0 m ρ c),
    show V1 m ρ c main_v17 = _ from head_v17 (W0 m ρ c), show V1 m ρ c main_arg6 = (m ((c : Thread nD τ).loc main_arg6)) from head_arg6 (W0 m ρ c),
    show V1 m ρ c main_v18 = _ from head_v18 (W0 m ρ c), show V1 m ρ c main_v19 = _ from head_v19 (W0 m ρ c)]
  exact diag_body _ _ _ _ _ _ _ _

/-- The atoms' blocks. -/
theorem blocksD_eq : W12 m ρ c (Proc.devRef .tc main_v21)
    = fun i => shapeCast S800x14x14 (rowsD (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) shapeCasts_S800x196_S800x14x14 i + (m ((c : Thread nD τ).loc main_arg2)) i := by
  refine (W12_of_ne m ρ c main_v21 (by decide)).trans ((mid_v21 (W2 m ρ c)).trans ?_)
  rw [region0_out]
  exact cast_add (rowsD (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg2)) shapeCasts_S800x14x14_S800x196 shapeCasts_S800x196_S800x14x14

/-! ## The second region -/

/-- A row below 319600 of a padded array is the row of the array. -/
theorem pad64_row (x : S319600x64.Idx → EReal) (z : S_.Idx → EReal) (p : Fin 319600) (k : Fin 64) :
    pad S323584x64 ![0, 0] ![3984, 0] ![0, 0] x z pads_S319600x64_S323584x64_039840_000 h_S_
      (ix2 (⟨p.val, by have := p.isLt; omega⟩ : Fin 323584) k) = x (ix2 p k) :=
  pad_apply_of_inside _ _ _ x z _ _ _ (ix2 p k) (fun a => by
    match a with
    | ⟨0, _⟩ => show p.val = 0 + p.val * (0 + 1); omega
    | ⟨1, _⟩ => show k.val = 0 + k.val * (0 + 1); omega)

theorem pad196_row (x : S319600x196.Idx → EReal) (z : S_.Idx → EReal) (p : Fin 319600) (k : Fin 196) :
    pad S323584x196 ![0, 0] ![3984, 0] ![0, 0] x z pads_S319600x196_S323584x196_039840_000 h_S_
      (ix2 (⟨p.val, by have := p.isLt; omega⟩ : Fin 323584) k) = x (ix2 p k) :=
  pad_apply_of_inside _ _ _ x z _ _ _ (ix2 p k) (fun a => by
    match a with
    | ⟨0, _⟩ => show p.val = 0 + p.val * (0 + 1); omega
    | ⟨1, _⟩ => show k.val = 0 + k.val * (0 + 1); omega)

/-- The second region's output array with the padding rows cut off. -/
theorem region1_out :
    extractStridedSlice S319600x196 ![0, 0] (W12 m ρ c (Proc.devRef .tc main_v60)) slices_S323584x196_S319600x196_0_0
      = fun j => rowsO (m ((c : Thread nD τ).loc main_arg0)) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) j + (shapeCast S319600x196 (m ((c : Thread nD τ).loc main_arg3)) shapeCasts_S319600x14x14_S319600x196 : S319600x196.Idx → EReal) j := by
  rw [show W12 m ρ c (Proc.devRef .tc main_v60) = G1 (V11 m ρ) c from (W12_arr m ρ c 10).trans (final1 (V11 m ρ) c)]
  obtain ⟨z1, h51⟩ := mid_v51 (W2 m ρ c)
  obtain ⟨z2, h52⟩ := mid_v52 (W2 m ρ c)
  obtain ⟨z3, h53⟩ := mid_v53 (W2 m ρ c)
  obtain ⟨z4, h54⟩ := mid_v54 (W2 m ρ c)
  rw [W2_arg0, W2_arg12] at h51
  rw [W2_arg0, W2_arg13] at h52
  rw [W2_arg1, W2_arg12, W2_arg13] at h53
  rw [W2_arg3] at h54
  have h55 := (mid_v55 (W2 m ρ c)).trans (congrArg (fun x => extractStridedSlice S64x128 ![0, 0] x slices_S192x128_S64x128_0_0) (W2_arg8 m ρ c))
  have h56 := (mid_v56 (W2 m ρ c)).trans (congrArg (fun x => extractStridedSlice S64x128 ![64, 0] x slices_S192x128_S64x128_64_0) (W2_arg8 m ρ c))
  have h57 := (mid_v57 (W2 m ρ c)).trans (congrArg (fun x => extractStridedSlice S64x128 ![128, 0] x slices_S192x128_S64x128_128_0) (W2_arg8 m ρ c))
  have h58 := (mid_v58 (W2 m ρ c)).trans (congrArg (fun x => shapeCast S1x128 x shapeCasts_S128_S1x128) (W2_arg9 m ρ c))
  have h59 := (mid_v59 (W2 m ρ c)).trans (congrArg (fun x => shapeCast S1x196 x shapeCasts_S196_S1x196) (W2_arg11 m ρ c))
  have h10 := (mid_arg10 (W2 m ρ c)).trans (W2_arg10 m ρ c)
  unfold G1
  rw [show V11 m ρ c main_v58 = _ from h58, show V11 m ρ c main_arg10 = _ from h10, show V11 m ρ c main_v59 = _ from h59]
  refine head_slice (pre1 (V11 m ρ) c) (preO (m ((c : Thread nD τ).loc main_arg0)) (m ((c : Thread nD τ).loc main_arg1)) (m ((c : Thread nD τ).loc main_arg8)) (m ((c : Thread nD τ).loc main_arg12)) (m ((c : Thread nD τ).loc main_arg13))) _ _ _ _ _ (by decide) _ (fun p k => ?_) (fun p j => ?_)
  · unfold pre1 preO
    rw [show V11 m ρ c main_v51 = _ from h51, show V11 m ρ c main_v52 = _ from h52, show V11 m ρ c main_v53 = _ from h53,
      show V11 m ρ c main_v55 = _ from h55, show V11 m ρ c main_v56 = _ from h56, show V11 m ρ c main_v57 = _ from h57]
    show (prod _ _ _ + prod _ _ _) + prod _ _ _ = (prod _ _ _ + prod _ _ _) + prod _ _ _
    rw [prod_apply, prod_apply, prod_apply, prod_apply, prod_apply, prod_apply]
    congr 1
    · congr 1
      · exact Finset.sum_congr rfl fun q _ => by rw [pad64_row]; rfl
      · exact Finset.sum_congr rfl fun q _ => by rw [pad64_row]; rfl
    · exact Finset.sum_congr rfl fun q _ => by rw [pad64_row]; rfl
  · rw [show V11 m ρ c main_v54 = _ from h54]
    exact pad196_row _ _ p j

/-- The pairs' blocks. -/
theorem blocksO_eq :
    shapeCast S319600x14x14 (extractStridedSlice S319600x196 ![0, 0] (W12 m ρ c (Proc.devRef .tc main_v60)) slices_S323584x196_S319600x196_0_0)
        shapeCasts_S319600x196_S319600x14x14
      = fun i => shapeCast S319600x14x14 (rowsO (m ((c : Thread nD τ).loc main_arg0)) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) shapeCasts_S319600x196_S319600x14x14 i + (m ((c : Thread nD τ).loc main_arg3)) i := by
  rw [region1_out]
  exact cast_add (rowsO (m ((c : Thread nD τ).loc main_arg0)) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (m ((c : Thread nD τ).loc main_arg3)) shapeCasts_S319600x14x14_S319600x196 shapeCasts_S319600x196_S319600x14x14

/-! ## The result -/

/-- The result buffer at the end of the fold. -/
theorem result_eq : W13 m ρ c (Proc.devRef .tc main_v107)
    = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (tail_v107 (W12 m ρ c) (W12_v0 m ρ c)).trans ?_
  rw [blocksD_eq, blocksO_eq, W12_arg12, W12_arg13]
  rfl

end Cert.KernelIdeal.Hand

end
-- ==== Proof.Bridge.lean ====
/-
  The reference computes the same function of the argument arrays as the kernel.

  The reference joins each atom's node and self-edge features into one row of 128 (each pair's three feature pieces
  into one row of 192) and multiplies it by the whole first weight matrix; the kernel multiplies each piece by its
  band of 64 rows and adds the products.  A sum over 128 (192) consecutive terms is the sum of its runs of 64, in the
  same order, so the first layers agree; the rest of the perceptron, the re-laying as 14 × 14 blocks, the residual and
  the three scatters are the same operations on both sides.  The host's `dot_general` is the plain matrix product, its
  bias is spread by `broadcast_in_dim` where the kernel re-casts a vector as a one-row matrix: the same matrix.
-/
import proofs.«119377_j70162585747873_1_alg».proof.Proof.Gen.ReferenceIdeal.Read
import proofs.«119377_j70162585747873_1_alg».proof.Proof.KSpec

set_option maxRecDepth 16384

noncomputable section

namespace Cert.Bridge

open Idealize.ShloMosaic Idealize.ShloMosaic.ValueIdx Cert.Dense Cert.Mlp
open Cert.ReferenceIdeal.Read
open Cert.KernelIdeal.Hand (layer blocksD blocksO rowsD rowsO preD preO selfEdge featI featJ featE assemble)

/-! ## The atoms -/

/-- The first layer for the atoms: two bands against the joined row. -/
theorem pre_atoms (x0 : (⟨Cert.ReferenceIdeal.S800x64, .f32⟩ : BufTy).Contents (Elt Ideal)) (x1 : (⟨Cert.ReferenceIdeal.S800x800x64, .f32⟩ : BufTy).Contents (Elt Ideal)) (x4 : (⟨Cert.ReferenceIdeal.S128x128, .f32⟩ : BufTy).Contents (Elt Ideal)) :
    preD x0 x1 x4 = prod (val_main_v15 (F := Ideal) x0 x1 : Cert.ReferenceIdeal.S800x128.Idx → EReal) (x4 : Cert.ReferenceIdeal.S128x128.Idx → EReal) := by
  funext i
  obtain ⟨p, j, rfl⟩ : ∃ (p : Fin 800) (j : Fin 128), i = ix2 p j := ⟨i 0, i 1, eq_ix2 i⟩
  refine (prod_two _ _ _ _ _ _ (fun p k => ?_) (fun p k => ?_) (fun k j => ?_) (fun k j => ?_) p j).symm
  · unfold val_main_v15
    exact concatenate_apply_piece (1 : Fin 2) [⟨Cert.ReferenceIdeal.S800x64, x0⟩, ⟨Cert.ReferenceIdeal.S800x64, val_main_v14 (F := Ideal) x1⟩] _ (ix2 p (c0 k)) 0 (by show (0 : ℕ) < 2; omega) Cert.ReferenceIdeal.S800x64 (x0) rfl rfl 0 rfl (ix2 p k)
      (fun b hb => by
        match b with
        | ⟨0, _⟩ => rfl
        | ⟨1, _⟩ => exact absurd rfl hb) (Nat.zero_add _)
  · unfold val_main_v15
    exact concatenate_apply_piece (1 : Fin 2) [⟨Cert.ReferenceIdeal.S800x64, x0⟩, ⟨Cert.ReferenceIdeal.S800x64, val_main_v14 (F := Ideal) x1⟩] _ (ix2 p (c1 k)) 1 (by show (1 : ℕ) < 2; omega) Cert.ReferenceIdeal.S800x64 (val_main_v14 (F := Ideal) x1) rfl rfl 64 rfl (ix2 p k)
      (fun b hb => by
        match b with
        | ⟨0, _⟩ => rfl
        | ⟨1, _⟩ => exact absurd rfl hb) rfl
  · exact (slice2_axis0_apply 0 _ _ k j (c0 k) (Nat.zero_add _).symm).symm
  · exact (slice2_axis0_apply 64 _ _ k j (c1 k) rfl).symm

/-- The atoms' rows of 196. -/
theorem rows_atoms (x0 : (⟨Cert.ReferenceIdeal.S800x64, .f32⟩ : BufTy).Contents (Elt Ideal)) (x1 : (⟨Cert.ReferenceIdeal.S800x800x64, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x196, .f32⟩ : BufTy).Contents (Elt Ideal)) (x7 : (⟨Cert.ReferenceIdeal.S196, .f32⟩ : BufTy).Contents (Elt Ideal)) :
    rowsD x0 x1 x4 x5 x6 x7 = val_main_v24 (F := Ideal) x0 x1 x4 x5 x6 x7 := by
  unfold val_main_v24 val_main_v23 val_main_v22 val_main_v21 val_main_v20 val_main_call0_v0 val_main_call0_cst val_main_v19 val_main_v18 val_main_v17 val_main_v16
  rw [host_act, host_shift,
    dotGeneral_eq_prod Cert.ReferenceIdeal.dot_S800x128_S128x196_S800x196_1_0_0_1_n_n rfl rfl lhs_main_v21_0 lhs_main_v21_1 rhs_main_v21_0 rhs_main_v21_1,
    dotGeneral_eq_prod Cert.ReferenceIdeal.dot_S800x128_S128x128_S800x128_1_0_0_1_n_n rfl rfl lhs_main_v16_0 lhs_main_v16_1 rhs_main_v16_0 rhs_main_v16_1,
    ← pre_atoms, ← row_cast_eq_broadcast x5 Cert.KernelIdeal.Gen.shapeCasts_S128_S1x128, ← row_cast_eq_broadcast x7 Cert.KernelIdeal.Gen.shapeCasts_S196_S1x196]
  rfl

/-- The atoms' blocks. -/
theorem blocks_atoms (x0 : (⟨Cert.ReferenceIdeal.S800x64, .f32⟩ : BufTy).Contents (Elt Ideal)) (x1 : (⟨Cert.ReferenceIdeal.S800x800x64, .f32⟩ : BufTy).Contents (Elt Ideal)) (x2 : (⟨Cert.ReferenceIdeal.S800x14x14, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x196, .f32⟩ : BufTy).Contents (Elt Ideal)) (x7 : (⟨Cert.ReferenceIdeal.S196, .f32⟩ : BufTy).Contents (Elt Ideal)) :
    blocksD x0 x1 x2 x4 x5 x6 x7 = val_main_v26 (F := Ideal) x0 x1 x2 x4 x5 x6 x7 := by
  unfold blocksD val_main_v26 val_main_v25
  rw [rows_atoms]
  rfl

/-! ## The pairs -/

/-- The first layer for the pairs: three bands against the joined row. -/
theorem pre_pairs (x0 : (⟨Cert.ReferenceIdeal.S800x64, .f32⟩ : BufTy).Contents (Elt Ideal)) (x1 : (⟨Cert.ReferenceIdeal.S800x800x64, .f32⟩ : BufTy).Contents (Elt Ideal)) (x8 : (⟨Cert.ReferenceIdeal.S192x128, .f32⟩ : BufTy).Contents (Elt Ideal)) (x12 x13 : (⟨Cert.ReferenceIdeal.S319600, .i32⟩ : BufTy).Contents (Elt Ideal)) :
    preO x0 x1 x8 x12 x13 = prod (val_main_v55 (F := Ideal) x0 x1 x12 x13 : Cert.ReferenceIdeal.S319600x192.Idx → EReal) (x8 : Cert.ReferenceIdeal.S192x128.Idx → EReal) := by
  funext i
  obtain ⟨p, j, rfl⟩ : ∃ (p : Fin 319600) (j : Fin 128), i = ix2 p j := ⟨i 0, i 1, eq_ix2 i⟩
  refine (prod_three _ _ _ _ _ _ _ _ (fun p k => ?_) (fun p k => ?_) (fun p k => ?_) (fun k j => ?_) (fun k j => ?_) (fun k j => ?_) p j).symm
  · unfold val_main_v55
    exact concatenate_apply_piece (1 : Fin 2) [⟨Cert.ReferenceIdeal.S319600x64, val_main_v33 (F := Ideal) x0 x12⟩, ⟨Cert.ReferenceIdeal.S319600x64, val_main_v40 (F := Ideal) x0 x13⟩, ⟨Cert.ReferenceIdeal.S319600x64, val_main_v54 (F := Ideal) x1 x12 x13⟩] _ (ix2 p (d0 k)) 0 (by show (0 : ℕ) < 3; omega) Cert.ReferenceIdeal.S319600x64 (val_main_v33 (F := Ideal) x0 x12) rfl rfl 0 rfl (ix2 p k)
      (fun b hb => by
        match b with
        | ⟨0, _⟩ => rfl
        | ⟨1, _⟩ => exact absurd rfl hb) (Nat.zero_add _)
  · unfold val_main_v55
    exact concatenate_apply_piece (1 : Fin 2) [⟨Cert.ReferenceIdeal.S319600x64, val_main_v33 (F := Ideal) x0 x12⟩, ⟨Cert.ReferenceIdeal.S319600x64, val_main_v40 (F := Ideal) x0 x13⟩, ⟨Cert.ReferenceIdeal.S319600x64, val_main_v54 (F := Ideal) x1 x12 x13⟩] _ (ix2 p (d1 k)) 1 (by show (1 : ℕ) < 3; omega) Cert.ReferenceIdeal.S319600x64 (val_main_v40 (F := Ideal) x0 x13) rfl rfl 64 rfl (ix2 p k)
      (fun b hb => by
        match b with
        | ⟨0, _⟩ => rfl
        | ⟨1, _⟩ => exact absurd rfl hb) rfl
  · unfold val_main_v55
    exact concatenate_apply_piece (1 : Fin 2) [⟨Cert.ReferenceIdeal.S319600x64, val_main_v33 (F := Ideal) x0 x12⟩, ⟨Cert.ReferenceIdeal.S319600x64, val_main_v40 (F := Ideal) x0 x13⟩, ⟨Cert.ReferenceIdeal.S319600x64, val_main_v54 (F := Ideal) x1 x12 x13⟩] _ (ix2 p (d2 k)) 2 (by show (2 : ℕ) < 3; omega) Cert.ReferenceIdeal.S319600x64 (val_main_v54 (F := Ideal) x1 x12 x13) rfl rfl 128 rfl (ix2 p k)
      (fun b hb => by
        match b with
        | ⟨0, _⟩ => rfl
        | ⟨1, _⟩ => exact absurd rfl hb) rfl
  · exact (slice2_axis0_apply 0 _ _ k j (d0 k) (Nat.zero_add _).symm).symm
  · exact (slice2_axis0_apply 64 _ _ k j (d1 k) rfl).symm
  · exact (slice2_axis0_apply 128 _ _ k j (d2 k) rfl).symm

/-- The pairs' rows of 196. -/
theorem rows_pairs (x0 : (⟨Cert.ReferenceIdeal.S800x64, .f32⟩ : BufTy).Contents (Elt Ideal)) (x1 : (⟨Cert.ReferenceIdeal.S800x800x64, .f32⟩ : BufTy).Contents (Elt Ideal)) (x8 : (⟨Cert.ReferenceIdeal.S192x128, .f32⟩ : BufTy).Contents (Elt Ideal)) (x9 : (⟨Cert.ReferenceIdeal.S128, .f32⟩ : BufTy).Contents (Elt Ideal)) (x10 : (⟨Cert.ReferenceIdeal.S128x196, .f32⟩ : BufTy).Contents (Elt Ideal)) (x11 : (⟨Cert.ReferenceIdeal.S196, .f32⟩ : BufTy).Contents (Elt Ideal))
    (x12 x13 : (⟨Cert.ReferenceIdeal.S319600, .i32⟩ : BufTy).Contents (Elt Ideal)) :
    rowsO x0 x1 x8 x9 x10 x11 x12 x13 = val_main_v64 (F := Ideal) x0 x1 x8 x9 x10 x11 x12 x13 := by
  unfold val_main_v64 val_main_v63 val_main_v62 val_main_v61 val_main_v60 val_main_call1_v0 val_main_call1_cst val_main_v59 val_main_v58 val_main_v57 val_main_v56
  rw [host_act, host_shift,
    dotGeneral_eq_prod Cert.ReferenceIdeal.dot_S319600x128_S128x196_S319600x196_1_0_0_1_n_n rfl rfl lhs_main_v61_0 lhs_main_v61_1 rhs_main_v61_0 rhs_main_v61_1,
    dotGeneral_eq_prod Cert.ReferenceIdeal.dot_S319600x192_S192x128_S319600x128_1_0_0_1_n_n rfl rfl lhs_main_v56_0 lhs_main_v56_1 rhs_main_v56_0 rhs_main_v56_1,
    ← pre_pairs, ← row_cast_eq_broadcast x9 Cert.KernelIdeal.Gen.shapeCasts_S128_S1x128, ← row_cast_eq_broadcast x11 Cert.KernelIdeal.Gen.shapeCasts_S196_S1x196]
  rfl

/-- The pairs' blocks. -/
theorem blocks_pairs (x0 : (⟨Cert.ReferenceIdeal.S800x64, .f32⟩ : BufTy).Contents (Elt Ideal)) (x1 : (⟨Cert.ReferenceIdeal.S800x800x64, .f32⟩ : BufTy).Contents (Elt Ideal)) (x3 : (⟨Cert.ReferenceIdeal.S319600x14x14, .f32⟩ : BufTy).Contents (Elt Ideal)) (x8 : (⟨Cert.ReferenceIdeal.S192x128, .f32⟩ : BufTy).Contents (Elt Ideal)) (x9 : (⟨Cert.ReferenceIdeal.S128, .f32⟩ : BufTy).Contents (Elt Ideal)) (x10 : (⟨Cert.ReferenceIdeal.S128x196, .f32⟩ : BufTy).Contents (Elt Ideal)) (x11 : (⟨Cert.ReferenceIdeal.S196, .f32⟩ : BufTy).Contents (Elt Ideal))
    (x12 x13 : (⟨Cert.ReferenceIdeal.S319600, .i32⟩ : BufTy).Contents (Elt Ideal)) :
    blocksO x0 x1 x3 x8 x9 x10 x11 x12 x13 = val_main_v66 (F := Ideal) x0 x1 x3 x8 x9 x10 x11 x12 x13 := by
  unfold blocksO val_main_v66 val_main_v65
  rw [rows_pairs]
  rfl

/-! ## The layer -/

/-- The reference's result is the layer. -/
theorem layer_eq (x0 : (⟨Cert.ReferenceIdeal.S800x64, .f32⟩ : BufTy).Contents (Elt Ideal)) (x1 : (⟨Cert.ReferenceIdeal.S800x800x64, .f32⟩ : BufTy).Contents (Elt Ideal)) (x2 : (⟨Cert.ReferenceIdeal.S800x14x14, .f32⟩ : BufTy).Contents (Elt Ideal)) (x3 : (⟨Cert.ReferenceIdeal.S319600x14x14, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal))
    (x6 : (⟨Cert.ReferenceIdeal.S128x196, .f32⟩ : BufTy).Contents (Elt Ideal)) (x7 : (⟨Cert.ReferenceIdeal.S196, .f32⟩ : BufTy).Contents (Elt Ideal)) (x8 : (⟨Cert.ReferenceIdeal.S192x128, .f32⟩ : BufTy).Contents (Elt Ideal)) (x9 : (⟨Cert.ReferenceIdeal.S128, .f32⟩ : BufTy).Contents (Elt Ideal)) (x10 : (⟨Cert.ReferenceIdeal.S128x196, .f32⟩ : BufTy).Contents (Elt Ideal)) (x11 : (⟨Cert.ReferenceIdeal.S196, .f32⟩ : BufTy).Contents (Elt Ideal))
    (x12 x13 : (⟨Cert.ReferenceIdeal.S319600, .i32⟩ : BufTy).Contents (Elt Ideal)) :
    val_main_v111 (F := Ideal) x0 x1 x2 x3 x4 x5 x6 x7 x8 x9 x10 x11 x12 x13 = layer x0 x1 x2 x3 x4 x5 x6 x7 x8 x9 x10 x11 x12 x13 := by
  unfold layer
  rw [blocks_atoms, blocks_pairs]
  rfl

end Cert.Bridge

end
-- ==== Proof.lean ====
/-
  The Hamiltonian block layer: a Pallas kernel for the atoms' blocks, a tiled Pallas kernel for the pairs' blocks and
  the jax code around them, against the plain jax reference, on the extended reals.

  Both programs gather the same feature rows with the same index arrays and scatter the same kinds of blocks with the
  same index arrays; between the two they apply a two-layer perceptron to each row and add a residual block.  The
  kernel splits the first layer's product by feature piece (bands of 64 rows of the weight matrix) and computes the
  pairs tile by tile on arrays padded to a whole number of tiles, cutting the padding off again; the reference joins
  the pieces and multiplies once.  A sum of 128 or 192 terms is the sum of its runs of 64 taken in order, and a row of
  the perceptron depends only on that row of its inputs, so the two results are the same function `layer` of the
  argument arrays (Proof/KSpec.lean); no entry needs to be finite for that.

  The frames of the kernel programs are the generated ones; the reference's frame is its generated run with the result
  dropped; the idealization rewrote nothing, so `preserves` has nothing to state.
-/
import proofs.«119377_j70162585747873_1_alg».proof.Defs
import proofs.«119377_j70162585747873_1_alg».proof.Proof.Gen.Kernel
import proofs.«119377_j70162585747873_1_alg».proof.Proof.Gen.Kernel.Skeleton
import proofs.«119377_j70162585747873_1_alg».proof.Proof.Gen.Kernel.Launch
import proofs.«119377_j70162585747873_1_alg».proof.Proof.Gen.Kernel.Points
import proofs.«119377_j70162585747873_1_alg».proof.Proof.Gen.Kernel.Frame
import proofs.«119377_j70162585747873_1_alg».proof.Proof.Gen.KernelIdeal
import proofs.«119377_j70162585747873_1_alg».proof.Proof.Gen.KernelIdeal.Skeleton
import proofs.«119377_j70162585747873_1_alg».proof.Proof.Gen.KernelIdeal.Launch
import proofs.«119377_j70162585747873_1_alg».proof.Proof.Gen.KernelIdeal.Points
import proofs.«119377_j70162585747873_1_alg».proof.Proof.Gen.KernelIdeal.Frame
import proofs.«119377_j70162585747873_1_alg».proof.Proof.Gen.ReferenceIdeal
import proofs.«119377_j70162585747873_1_alg».proof.Proof.Gen.Pre_finite_inputs
import proofs.«119377_j70162585747873_1_alg».proof.Proof.Gen.ReferenceIdeal.Run
import proofs.«119377_j70162585747873_1_alg».proof.Proof.Gen.ReferenceIdeal.Read
import proofs.«119377_j70162585747873_1_alg».proof.Proof.KRun
import proofs.«119377_j70162585747873_1_alg».proof.Proof.KValue
import proofs.«119377_j70162585747873_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the dense Hamiltonian `layer` of the argument arrays. -/
theorem algebraic : Cert.algebraic_KernelIdeal_ReferenceIdeal := by
  intro m ρ m' ρ' _ hagree
  refine ⟨fun c => Cert.KernelIdeal.Hand.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun _ h c => ⟨(h c).1.trans (Cert.KernelIdeal.Hand.result_eq m ρ c), (h c).2⟩) (Cert.KernelIdeal.Hand.run_result m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13⟩ := hagree c
    rw [Cert.ReferenceIdeal.Read.val_main_v111_eq, Cert.Bridge.layer_eq, e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
